-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_v97) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1x16384x512 : Shape := ⟨3, ![1, 16384, 512]⟩
abbrev S16384x1 : Shape := ⟨2, ![16384, 1]⟩
abbrev S2048x512 : Shape := ⟨2, ![2048, 512]⟩
abbrev S2048 : Shape := ⟨1, ![2048]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1x16384x512 : S_.BroadcastsInDim S1x16384x512 (![] : Fin 0 → Fin S1x16384x512.rank)
  reducesTo_S1x16384x512_S_d0_1_2 : S1x16384x512.ReducesTo [0, 1, 2] S_
  bcast_S_S16384x1 : S_.BroadcastsInDim S16384x1 (![] : Fin 0 → Fin S16384x1.rank)
  reducesTo_S16384x1_S_d0_1 : S16384x1.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg14 : FVec F S256x512 .f32) (main_arg15 : FVec F S256 .f32) (main_arg16 : FVec F S1x256 .f32) (main_arg17 : FVec F S1 .f32) (main_v63 : IVec S_ 1) (main_v67 : IVec S_ 1) : IVec S_ 1 :=
  let main_v68 : IVec S_ 1 := andi main_v63 main_v67
  let main_v69 : FVec F S256x512 .f32 := Host.absf main_arg14
  let main_cst_26 : FVec F S_ .f32 := constant S_ .f32 0x7F800000#32
  let main_v70 : FVec F S256x512 .f32 := broadcastInDim S256x512 ![] bcast_S_S256x512 main_cst_26
  let main_v71 : IVec S256x512 1 := cmpf .olt main_v69 main_v70
  let main_c_27 : IVec S_ 1 := constantI S_ 1 1#1
  let main_v72 : IVec S_ 1 := (fun x v => Host.reduce IntOp.andi x v reducesTo_S256x512_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S1x256 .f32 := Host.absf main_arg16
  let main_cst_30 : FVec F S_ .f32 := constant S_ .f32 0x7F800000#32
  let main_v80 : FVec F S1x256 .f32 := broadcastInDim S1x256 ![] bcast_S_S1x256 main_cst_30
  let main_v81 : IVec S1x256 1 := cmpf .olt main_v79 main_v80
  let main_c_31 : IVec S_ 1 := constantI S_ 1 1#1
  let main_v82 : IVec S_ 1 := (fun x v => Host.reduce IntOp.andi x v reducesTo_S1x256_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S256 .f32) (main_arg12 : FVec F S1x256 .f32) (main_arg13 : FVec F S1 .f32) (main_arg14 : FVec F S256x512 .f32) (main_arg15 : FVec F S256 .f32) (main_arg16 : FVec F S1x256 .f32) (main_arg17 : FVec F S1 .f32) (main_v48 : IVec S_ 1) (main_v49 : FVec F S256x512 .f32) (main_v50 : FVec F S256x512 .f32) : IVec S_ 1 :=
  let main_v51 : IVec S256x512 1 := cmpf .olt main_v49 main_v50
  let main_c_19 : IVec S_ 1 := constantI S_ 1 1#1
  let main_v52 : IVec S_ 1 := (fun x v => Host.reduce IntOp.andi x v reducesTo_S256x512_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S1x256 .f32 := Host.absf main_arg12
  let main_cst_22 : FVec F S_ .f32 := constant S_ .f32 0x7F800000#32
  let main_v60 : FVec F S1x256 .f32 := broadcastInDim S1x256 ![] bcast_S_S1x256 main_cst_22
  let main_v61 : IVec S1x256 1 := cmpf .olt main_v59 main_v60
  let main_c_23 : IVec S_ 1 := constantI S_ 1 1#1
  let main_v62 : IVec S_ 1 := (fun x v => Host.reduce IntOp.andi x v reducesTo_S1x256_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg14 main_arg15 main_arg16 main_arg17 main_v63 main_v67

def fn_part2 {F : FTy → Type} [FloatOps F] (main_arg7 : FVec F S2048 .f32) (main_arg8 : FVec F S256x512 .f32) (main_arg9 : FVec F S256 .f32) (main_arg10 : FVec F S256x512 .f32) (main_arg11 : FVec F S256 .f32) (main_arg12 : FVec F S1x256 .f32) (main_arg13 : FVec F S1 .f32) (main_arg14 : FVec F S256x512 .f32) (main_arg15 : FVec F S256 .f32) (main_arg16 : FVec F S1x256 .f32) (main_arg17 : FVec F S1 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S256x512 .f32 := Host.absf main_arg8
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x512 .f32 := Host.absf main_arg10
  let main_cst_18 : FVec F S_ .f32 := constant S_ .f32 0x7F800000#32
  let main_v50 : FVec F S256x512 .f32 := broadcastInDim S256x512 ![] bcast_S_S256x512 main_cst_18
  fn_part3 (F := F) main_arg11 main_arg12 main_arg13 main_arg14 main_arg15 main_arg16 main_arg17 main_v48 main_v49 main_v50

def fn_part1 {F : FTy → Type} [FloatOps F] (main_arg4 : FVec F S2048x512 .f32) (main_arg5 : FVec F S2048x512 .f32) (main_arg6 : FVec F S2048 .f32) (main_arg7 : FVec F S2048 .f32) (main_arg8 : FVec F S256x512 .f32) (main_arg9 : FVec F S256 .f32) (main_arg10 : FVec F S256x512 .f32) (main_arg11 : FVec F S256 .f32) (main_arg12 : FVec F S1x256 .f32) (main_arg13 : FVec F S1 .f32) (main_arg14 : FVec F S256x512 .f32) (main_arg15 : FVec F S256 .f32) (main_arg16 : FVec F S1x256 .f32) (main_arg17 : FVec F S1 .f32) (main_v13 : IVec S_ 1) (main_v16 : IVec S16384x1 1) : IVec S_ 1 :=
  let main_c_5 : IVec S_ 1 := constantI S_ 1 1#1
  let main_v17 : IVec S_ 1 := (fun x v => Host.reduce IntOp.andi x v reducesTo_S16384x1_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S16384x512 .f32) (main_arg1 : FVec F S1x16384x512 .f32) (main_arg2 : FVec F S1x16384x512 .f32) (main_arg3 : FVec F S16384x1 .f32) (main_arg4 : FVec F S2048x512 .f32) (main_arg5 : FVec F S2048x512 .f32) (main_arg6 : FVec F S2048 .f32) (main_arg7 : FVec F S2048 .f32) (main_arg8 : FVec F S256x512 .f32) (main_arg9 : FVec F S256 .f32) (main_arg10 : FVec F S256x512 .f32) (main_arg11 : FVec F S256 .f32) (main_arg12 : FVec F S1x256 .f32) (main_arg13 : FVec F S1 .f32) (main_arg14 : FVec F S256x512 .f32) (main_arg15 : FVec F S256 .f32) (main_arg16 : FVec F S1x256 .f32) (main_arg17 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1x16384x512 .f32 := Host.absf main_arg1
  let main_cst_0 : FVec F S_ .f32 := constant S_ .f32 0x7F800000#32
  let main_v5 : FVec F S1x16384x512 .f32 := broadcastInDim S1x16384x512 ![] bcast_S_S1x16384x512 main_cst_0
  let main_v6 : IVec S1x16384x512 1 := cmpf .olt main_v4 main_v5
  let main_c_1 : IVec S_ 1 := constantI S_ 1 1#1
  let main_v7 : IVec S_ 1 := (fun x v => Host.reduce IntOp.andi x v reducesTo_S1x16384x512_S_d0_1_2 h_S_) main_v6 main_c_1
  let main_v8 : IVec S_ 1 := andi main_v3 main_v7
  let main_v9 : FVec F S1x16384x512 .f32 := Host.absf main_arg2
  let main_cst_2 : FVec F S_ .f32 := constant S_ .f32 0x7F800000#32
  let main_v10 : FVec F S1x16384x512 .f32 := broadcastInDim S1x16384x512 ![] bcast_S_S1x16384x512 main_cst_2
  let main_v11 : IVec S1x16384x512 1 := cmpf .olt main_v9 main_v10
  let main_c_3 : IVec S_ 1 := constantI S_ 1 1#1
  let main_v12 : IVec S_ 1 := (fun x v => Host.reduce IntOp.andi x v reducesTo_S1x16384x512_S_d0_1_2 h_S_) main_v11 main_c_3
  let main_v13 : IVec S_ 1 := andi main_v8 main_v12
  let main_v14 : FVec F S16384x1 .f32 := Host.absf main_arg3
  let main_cst_4 : FVec F S_ .f32 := constant S_ .f32 0x7F800000#32
  let main_v15 : FVec F S16384x1 .f32 := broadcastInDim S16384x1 ![] bcast_S_S16384x1 main_cst_4
  let main_v16 : IVec S16384x1 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S16384x512 : Shape := ⟨2, ![16384, 512]⟩
abbrev S1x16384x512 : Shape := ⟨3, ![1, 16384, 512]⟩
abbrev S16384x1 : Shape := ⟨2, ![16384, 1]⟩
abbrev S2048x512 : Shape := ⟨2, ![2048, 512]⟩
abbrev S2048 : Shape := ⟨1, ![2048]⟩
abbrev S256x512 : Shape := ⟨2, ![256, 512]⟩
abbrev S256 : Shape := ⟨1, ![256]⟩
abbrev S1x256 : Shape := ⟨2, ![1, 256]⟩
abbrev S1 : Shape := ⟨1, ![1]⟩
abbrev S1x2048 : Shape := ⟨2, ![1, 2048]⟩
abbrev S1x1 : Shape := ⟨2, ![1, 1]⟩
abbrev S512x512 : Shape := ⟨2, ![512, 512]⟩
abbrev S256x1 : Shape := ⟨2, ![256, 1]⟩
abbrev S256x2048 : Shape := ⟨2, ![256, 2048]⟩
abbrev S256x256 : Shape := ⟨2, ![256, 256]⟩

abbrev nBuf : Space → Nat
  | .hbm => 35
  | .vmem => 30
  | .smem => 0
  | _ => 0

abbrev bufTy : (tb : Table) → Fin (tcTables nBuf tb) → BufTy
  | .hbm, ⟨0, _⟩ => ⟨S16384x512, .f32⟩
  | .hbm, ⟨1, _⟩ => ⟨S1x16384x512, .f32⟩
  | .hbm, ⟨2, _⟩ => ⟨S1x16384x512, .f32⟩
  | .hbm, ⟨3, _⟩ => ⟨S16384x1, .f32⟩
  | .hbm, ⟨4, _⟩ => ⟨S2048x512, .f32⟩
  | .hbm, ⟨5, _⟩ => ⟨S2048x512, .f32⟩
  | .hbm, ⟨6, _⟩ => ⟨S2048, .f32⟩
  | .hbm, ⟨7, _⟩ => ⟨S2048, .f32⟩
  | .hbm, ⟨8, _⟩ => ⟨S256x512, .f32⟩
  | .hbm, ⟨9, _⟩ => ⟨S256, .f32⟩
  | .hbm, ⟨10, _⟩ => ⟨S256x512, .f32⟩
  | .hbm, ⟨11, _⟩ => ⟨S256, .f32⟩
  | .hbm, ⟨12, _⟩ => ⟨S1x256, .f32⟩
  | .hbm, ⟨13, _⟩ => ⟨S1, .f32⟩
  | .hbm, ⟨14, _⟩ => ⟨S256x512, .f32⟩
  | .hbm, ⟨15, _⟩ => ⟨S256, .f32⟩
  | .hbm, ⟨16, _⟩ => ⟨S1x256, .f32⟩
  | .hbm, ⟨17, _⟩ => ⟨S1, .f32⟩
  | .hbm, ⟨18, _⟩ => ⟨S16384x512, .f32⟩
  | .hbm, ⟨19, _⟩ => ⟨S16384x512, .f32⟩
  | .hbm, ⟨20, _⟩ => ⟨S2048, .f32⟩
  | .hbm, ⟨21, _⟩ => ⟨S1x2048, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x1, .f32⟩
  | .hbm, ⟨26, _⟩ => ⟨S1x1, .f32⟩
  | .hbm, ⟨27, _⟩ => ⟨S512x512, .f32⟩
  | .hbm, ⟨28, _⟩ => ⟨S16384x512, .f32⟩
  | .hbm, ⟨29, _⟩ => ⟨S16384x512, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S1x16384x512, .f32⟩
  | .hbm, ⟨34, _⟩ => ⟨S1x16384x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1, .f32⟩
  | .local _ .vmem, ⟨7, _⟩ => ⟨S256x1, .f32⟩
  | .local _ .vmem, ⟨8, _⟩ => ⟨S2048x512, .f32⟩
  | .local _ .vmem, ⟨9, _⟩ => ⟨S2048x512, .f32⟩
  | .local _ .vmem, ⟨10, _⟩ => ⟨S1x2048, .f32⟩
  | .local _ .vmem, ⟨11, _⟩ => ⟨S512x512, .f32⟩
  | .local _ .vmem, ⟨12, _⟩ => ⟨S1x256, .f32⟩
  | .local _ .vmem, ⟨13, _⟩ => ⟨S1x256, .f32⟩
  | .local _ .vmem, ⟨14, _⟩ => ⟨S256x512, .f32⟩
  | .local _ .vmem, ⟨15, _⟩ => ⟨S1x256, .f32⟩
  | .local _ .vmem, ⟨16, _⟩ => ⟨S1x256, .f32⟩
  | .local _ .vmem, ⟨17, _⟩ => ⟨S1x1, .f32⟩
  | .local _ .vmem, ⟨18, _⟩ => ⟨S1x256, .f32⟩
  | .local _ .vmem, ⟨19, _⟩ => ⟨S1x1, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x1, .f32⟩
  | .local _ .vmem, ⟨25, _⟩ => ⟨S256x1, .f32⟩
  | .local _ .vmem, ⟨26, _⟩ => ⟨S256x1, .f32⟩
  | .local _ .vmem, ⟨27, _⟩ => ⟨S256x1, .f32⟩
  | .local _ .vmem, ⟨28, _⟩ => ⟨S256x1, .f32⟩
  | .local _ .vmem, ⟨29, _⟩ => ⟨S256x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev main_v10_2 : Ref sig .tc := ⟨.hbm, 30, rfl⟩
abbrev main_v10_3 : Ref sig .tc := ⟨.hbm, 31, rfl⟩
abbrev main_v10_4 : Ref sig .tc := ⟨.hbm, 32, rfl⟩
abbrev main_v11 : Ref sig .tc := ⟨.hbm, 33, rfl⟩
abbrev main_v12 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  shapeCasts_S1x16384x512_S16384x512 : S1x16384x512.ShapeCasts S16384x512
  shapeCasts_S2048_S1x2048 : S2048.ShapeCasts S1x2048
  shapeCasts_S256_S1x256 : S256.ShapeCasts S1x256
  shapeCasts_S1_S1x1 : S1.ShapeCasts S1x1
  concatenates_S256x512_S256x512_S512x512_d0 : Shape.Concatenates [S256x512, S256x512] S512x512 0
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x1_S256x1_0_0 : ∀ a, (![0, 0] : Fin 2 → Nat) a + S256x1.size a ≤ S256x1.size a
  h_S256x1 : 0 < S256x1.numel
  inb_S2048x512_S2048x512_0_0 : ∀ a, (![0, 0] : Fin 2 → Nat) a + S2048x512.size a ≤ S2048x512.size a
  h_S2048x512 : 0 < S2048x512.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x2048_o0_0_S256x512 : S256x2048.Slices ![0, 0] S256x512
  slices_S256x2048_o0_512_S256x512 : S256x2048.Slices ![0, 512] S256x512
  slices_S256x2048_o0_1024_S256x512 : S256x2048.Slices ![0, 1024] S256x512
  slices_S256x2048_o0_1536_S256x512 : S256x2048.Slices ![0, 1536] S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S256x512_o0_0_S256x256 : S256x512.Slices ![0, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  slices_S256x512_o0_256_S256x256 : S256x512.Slices ![0, 256] S256x256
  reduces_S256x256_S256 : S256x256.Reduces [1] S256
  shapeCasts_S256_S256x1 : S256.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  natLt_1_32 : 1 < 32
  shapeCasts_S256x1_S256x1 : S256x1.ShapeCasts S256x1
  broadcasts_S256x1_S256x512 : S256x1.Broadcasts S256x512
  bcast_S16384x512_S1x16384x512_1_2 : S16384x512.BroadcastsInDim S1x16384x512 (![1, 2] : Fin 2 → Fin S1x16384x512.rank)
  dot_S256x512_S2048x512_S256x2048_1_1_0_0_n_n_wf : DotDims.WF S256x512 S2048x512 S256x2048 [1] [1] [0] [0] [] []
  dot_S256x512_S512x512_S256x512_1_1_0_0_n_n_wf : DotDims.WF S256x512 S512x512 S256x512 [1] [1] [0] [0] [] []
  dot_S256x512_S256x512_S256x256_1_1_0_0_n_n_wf : DotDims.WF S256x512 S256x512 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S16384x512.size a
  hwx0_1 : ∀ i : grid0.Coords, EltTy.bits .f32 = 32 ∨ (Rect.block (s := S16384x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S16384x512.size a
  hwx0_2 : ∀ i : grid0.Coords, EltTy.bits .f32 = 32 ∨ (Rect.block (s := S16384x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S16384x1.size a
  hwx0_3 : ∀ i : grid0.Coords, EltTy.bits .f32 = 32 ∨ (Rect.block (s := S16384x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .f32 = 32 ∨ (Rect.block (s := S2048x512) S2048x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S2048x512.size a
  hwx0_5 : ∀ i : grid0.Coords, EltTy.bits .f32 = 32 ∨ (Rect.block (s := S2048x512) S2048x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x512.size a ≤ S256x512.size a
  hwx0_10 : ∀ i : grid0.Coords, EltTy.bits .f32 = 32 ∨ (Rect.block (s := S256x512) S256x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x512.size a ≤ S16384x512.size a
  hwx0_16 : ∀ i : grid0.Coords, EltTy.bits .f32 = 32 ∨ (Rect.block (s := S16384x512) S256x512.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x512.size a ≤ S16384x512.size a
  hwx0_17 : ∀ i : grid0.Coords, EltTy.bits .f32 = 32 ∨ (Rect.block (s := S16384x512) S256x512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x1.size a ≤ S16384x1.size a
  hwx0_18 : ∀ i : grid0.Coords, EltTy.bits .f32 = 32 ∨ (Rect.block (s := S16384x1) S256x1.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S256x1.size a ≤ S16384x1.size a
  hwx0_19 : ∀ i : grid0.Coords, EltTy.bits .f32 = 32 ∨ (Rect.block (s := S16384x1) S256x1.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S256x1.size a ≤ S16384x1.size a
  hwx0_20 : ∀ i : grid0.Coords, EltTy.bits .f32 = 32 ∨ (Rect.block (s := S16384x1) S256x1.size (cc0_transform_20 i) (hinb0_20 i)).WholeWords (EltTy.packing .f32)

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf
def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v10_0) S256x512.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v10_1) S256x512.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v10_2) S256x1.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v10_3) S256x1.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v10_4) S256x1.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S16384x512 : Shape := ⟨2, ![16384, 512]⟩
abbrev S1x16384x512 : Shape := ⟨3, ![1, 16384, 512]⟩
abbrev S16384x1 : Shape := ⟨2, ![16384, 1]⟩
abbrev S2048x512 : Shape := ⟨2, ![2048, 512]⟩
abbrev S2048 : Shape := ⟨1, ![2048]⟩
abbrev S256x512 : Shape := ⟨2, ![256, 512]⟩
abbrev S256 : Shape := ⟨1, ![256]⟩
abbrev S1x256 : Shape := ⟨2, ![1, 256]⟩
abbrev S1 : Shape := ⟨1, ![1]⟩
abbrev S512x2048 : Shape := ⟨2, ![512, 2048]⟩
abbrev S16384x2048 : Shape := ⟨2, ![16384, 2048]⟩
abbrev S1x2048 : Shape := ⟨2, ![1, 2048]⟩
abbrev S_ : Shape := ⟨0, ![]⟩
abbrev S512x256 : Shape := ⟨2, ![512, 256]⟩
abbrev S16384x256 : Shape := ⟨2, ![16384, 256]⟩
abbrev S256x1 : Shape := ⟨2, ![256, 1]⟩
abbrev S1x1 : Shape := ⟨2, ![1, 1]⟩
abbrev S1x16384x1 : Shape := ⟨3, ![1, 16384, 1]⟩

abbrev nBuf : Space → Nat
  | .hbm => 159
  | .vmem => 0
  | .smem => 0
  | _ => 0

abbrev hbmTy0_0 (i : Nat) : BufTy := match i % 128 with
  | 0 => ⟨S16384x512, .f32⟩
  | 1 => ⟨S1x16384x512, .f32⟩
  | 2 => ⟨S1x16384x512, .f32⟩
  | 3 => ⟨S16384x1, .f32⟩
  | 4 => ⟨S2048x512, .f32⟩
  | 5 => ⟨S2048x512, .f32⟩
  | 6 => ⟨S2048, .f32⟩
  | 7 => ⟨S2048, .f32⟩
  | 8 => ⟨S256x512, .f32⟩
  | 9 => ⟨S256, .f32⟩
  | 10 => ⟨S256x512, .f32⟩
  | 11 => ⟨S256, .f32⟩
  | 12 => ⟨S1x256, .f32⟩
  | 13 => ⟨S1, .f32⟩
  | 14 => ⟨S256x512, .f32⟩
  | 15 => ⟨S256, .f32⟩
  | 16 => ⟨S1x256, .f32⟩
  | 17 => ⟨S1, .f32⟩
  | 18 => ⟨S512x2048, .f32⟩
  | 19 => ⟨S16384x2048, .f32⟩
  | 20 => ⟨S1x2048, .f32⟩
  | 21 => ⟨S16384x2048, .f32⟩
  | 22 => ⟨S16384x2048, .f32⟩
  | 23 => ⟨S16384x512, .f32⟩
  | 24 => ⟨S512x2048, .f32⟩
  | 25 => ⟨S16384x2048, .f32⟩
  | 26 => ⟨S16384x2048, .f32⟩
  | 27 => ⟨S1x2048, .f32⟩
  | 28 => ⟨S16384x2048, .f32⟩
  | 29 => ⟨S16384x2048, .f32⟩
  | 30 => ⟨S16384x512, .f32⟩
  | 31 => ⟨S16384x512, .f32⟩
  | 32 => ⟨S16384x512, .f32⟩
  | 33 => ⟨S16384x512, .f32⟩
  | 34 => ⟨S16384x512, .f32⟩
  | 35 => ⟨S16384x512, .f32⟩
  | 36 => ⟨S_, .f32⟩
  | 37 => ⟨S16384x512, .f32⟩
  | 38 => ⟨S16384x512, .f32⟩
  | 39 => ⟨S_, .f32⟩
  | 40 => ⟨S16384x512, .f32⟩
  | 41 => ⟨S16384x512, .f32⟩
  | 42 => ⟨S16384x512, .f32⟩
  | 43 => ⟨S16384x512, .f32⟩
  | 44 => ⟨S_, .f32⟩
  | 45 => ⟨S16384x512, .f32⟩
  | 46 => ⟨S16384x512, .f32⟩
  | 47 => ⟨S_, .f32⟩
  | 48 => ⟨S16384x512, .f32⟩
  | 49 => ⟨S16384x512, .f32⟩
  | 50 => ⟨S16384x512, .f32⟩
  | 51 => ⟨S16384x512, .f32⟩
  | 52 => ⟨S16384x512, .f32⟩
  | 53 => ⟨S_, .f32⟩
  | 54 => ⟨S16384x512, .f32⟩
  | 55 => ⟨S16384x512, .f32⟩
  | 56 => ⟨S_, .f32⟩
  | 57 => ⟨S16384x512, .f32⟩
  | 58 => ⟨S16384x512, .f32⟩
  | 59 => ⟨S16384x512, .f32⟩
  | 60 => ⟨S16384x512, .f32⟩
  | 61 => ⟨S16384x512, .f32⟩
  | 62 => ⟨S16384x512, .f32⟩
  | 63 => ⟨S16384x512, .f32⟩
  | 64 => ⟨S16384x512, .f32⟩
  | 65 => ⟨S1x16384x512, .f32⟩
  | 66 => ⟨S1x16384x512, .f32⟩
  | 67 => ⟨S16384x512, .f32⟩
  | 68 => ⟨S512x256, .f32⟩
  | 69 => ⟨S16384x256, .f32⟩
  | 70 => ⟨S1x256, .f32⟩
  | 71 => ⟨S16384x256, .f32⟩
  | 72 => ⟨S16384x256, .f32⟩
  | 73 => ⟨S16384x512, .f32⟩
  | 74 => ⟨S512x256, .f32⟩
  | 75 => ⟨S16384x256, .f32⟩
  | 76 => ⟨S16384x256, .f32⟩
  | 77 => ⟨S1x256, .f32⟩
  | 78 => ⟨S16384x256, .f32⟩
  | 79 => ⟨S16384x256, .f32⟩
  | 80 => ⟨S_, .f32⟩
  | 81 => ⟨S16384x256, .f32⟩
  | 82 => ⟨S16384x256, .i1⟩
  | 83 => ⟨S_, .f32⟩
  | 84 => ⟨S16384x256, .f32⟩
  | 85 => ⟨S16384x256, .f32⟩
  | 86 => ⟨S16384x256, .f32⟩
  | 87 => ⟨S256x1, .f32⟩
  | 88 => ⟨S16384x1, .f32⟩
  | 89 => ⟨S1x1, .f32⟩
  | 90 => ⟨S16384x1, .f32⟩
  | 91 => ⟨S16384x1, .f32⟩
  | 92 => ⟨S16384x1, .f32⟩
  | 93 => ⟨S16384x1, .f32⟩
  | 94 => ⟨S_, .f32⟩
  | 95 => ⟨S16384x1, .f32⟩
  | 96 => ⟨S16384x1, .f32⟩
  | 97 => ⟨S_, .f32⟩
  | 98 => ⟨S16384x1, .f32⟩
  | 99 => ⟨S16384x1, .f32⟩
  | 100 => ⟨S16384x512, .f32⟩
  | 101 => ⟨S512x256, .f32⟩
  | 102 => ⟨S16384x256, .f32⟩
  | 103 => ⟨S1x256, .f32⟩
  | 104 => ⟨S16384x256, .f32⟩
  | 105 => ⟨S16384x256, .f32⟩
  | 106 => ⟨S_, .f32⟩
  | 107 => ⟨S16384x256, .f32⟩
  | 108 => ⟨S16384x256, .i1⟩
  | 109 => ⟨S_, .f32⟩
  | 110 => ⟨S16384x256, .f32⟩
  | 111 => ⟨S16384x256, .f32⟩
  | 112 => ⟨S16384x256, .f32⟩
  | 113 => ⟨S256x1, .f32⟩
  | 114 => ⟨S16384x1, .f32⟩
  | 115 => ⟨S1x1, .f32⟩
  | 116 => ⟨S16384x1, .f32⟩
  | 117 => ⟨S16384x1, .f32⟩
  | 118 => ⟨S16384x1, .f32⟩
  | 119 => ⟨S16384x1, .f32⟩
  | 120 => ⟨S_, .f32⟩
  | 121 => ⟨S16384x1, .f32⟩
  | 122 => ⟨S16384x1, .f32⟩
  | 123 => ⟨S_, .f32⟩
  | 124 => ⟨S16384x1, .f32⟩
  | 125 => ⟨S16384x1, .f32⟩
  | 126 => ⟨S_, .f32⟩
  | 127 => ⟨S16384x1, .f32⟩
  | _ => ⟨S16384x512, .f32⟩

abbrev hbmTy0_1 (i : Nat) : BufTy := match i % 128 with
  | 0 => ⟨S16384x1, .f32⟩
  | 1 => ⟨S16384x1, .f32⟩
  | 2 => ⟨S16384x1, .f32⟩
  | 3 => ⟨S16384x1, .i1⟩
  | 4 => ⟨S16384x1, .f32⟩
  | 5 => ⟨S16384x1, .f32⟩
  | 6 => ⟨S16384x1, .f32⟩
  | 7 => ⟨S1x16384x1, .f32⟩
  | 8 => ⟨S1x16384x512, .f32⟩
  | 9 => ⟨S1x16384x512, .f32⟩
  | 10 => ⟨S_, .f32⟩
  | 11 => ⟨S16384x1, .f32⟩
  | 12 => ⟨S16384x1, .f32⟩
  | 13 => ⟨S1x16384x1, .f32⟩
  | 14 => ⟨S1x16384x512, .f32⟩
  | 15 => ⟨S1x16384x512, .f32⟩
  | 16 => ⟨S1x16384x512, .f32⟩
  | 17 => ⟨S1x16384x1, .f32⟩
  | 18 => ⟨S1x16384x512, .f32⟩
  | 19 => ⟨S1x16384x512, .f32⟩
  | 20 => ⟨S_, .f32⟩
  | 21 => ⟨S16384x1, .f32⟩
  | 22 => ⟨S16384x1, .f32⟩
  | 23 => ⟨S1x16384x1, .f32⟩
  | 24 => ⟨S1x16384x512, .f32⟩
  | 25 => ⟨S1x16384x512, .f32⟩
  | 26 => ⟨S1x16384x512, .f32⟩
  | 27 => ⟨S_, .f32⟩
  | 28 => ⟨S16384x1, .f32⟩
  | 29 => ⟨S16384x1, .f32⟩
  | 30 => ⟨S16384x1, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_1 : Ref sig .tc := ⟨.hbm, 44, rfl⟩
abbrev main_v24 : Ref sig .tc := ⟨.hbm, 45, rfl⟩
abbrev main_v25 : Ref sig .tc := ⟨.hbm, 46, rfl⟩
abbrev main_cst_2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_5 : Ref sig .tc := ⟨.hbm, 80, rfl⟩
abbrev main_v56 : Ref sig .tc := ⟨.hbm, 81, rfl⟩
abbrev main_v57 : Ref sig .tc := ⟨.hbm, 82, rfl⟩
abbrev main_cst_6 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_7 : Ref sig .tc := ⟨.hbm, 94, rfl⟩
abbrev main_v68 : Ref sig .tc := ⟨.hbm, 95, rfl⟩
abbrev main_v69 : Ref sig .tc := ⟨.hbm, 96, rfl⟩
abbrev main_cst_8 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_9 : Ref sig .tc := ⟨.hbm, 106, rfl⟩
abbrev main_v78 : Ref sig .tc := ⟨.hbm, 107, rfl⟩
abbrev main_v79 : Ref sig .tc := ⟨.hbm, 108, rfl⟩
abbrev main_cst_10 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_11 : Ref sig .tc := ⟨.hbm, 120, rfl⟩
abbrev main_v90 : Ref sig .tc := ⟨.hbm, 121, rfl⟩
abbrev main_v91 : Ref sig .tc := ⟨.hbm, 122, rfl⟩
abbrev main_cst_12 : Ref sig .tc := ⟨.hbm, 123, rfl⟩
abbrev main_v92 : Ref sig .tc := ⟨.hbm, 124, rfl⟩
abbrev main_v93 : Ref sig .tc := ⟨.hbm, 125, rfl⟩
abbrev main_cst_13 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_14 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_15 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_16 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩

abbrev nD : Nat := 1
abbrev τ : Topo := Topo.v7x

variable {F : FTy → Type} [FloatOps F]

class Facts₀ : Prop where
  transposes_S2048x512_S512x2048_1_0 : S2048x512.Transposes [1, 0] S512x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  shapeCasts_S1x16384x512_S16384x512 : S1x16384x512.ShapeCasts S16384x512
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  bcast_S16384x512_S1x16384x512_1_2 : S16384x512.BroadcastsInDim S1x16384x512 (![1, 2] : Fin 2 → Fin S1x16384x512.rank)
  transposes_S256x512_S512x256_1_0 : S256x512.Transposes [1, 0] S512x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S1x256_S256x1_1_0 : S1x256.Transposes [1, 0] S256x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  bcast_S16384x1_S1x16384x1_1_2 : S16384x1.BroadcastsInDim S1x16384x1 (![1, 2] : Fin 2 → Fin S1x16384x1.rank)
  bcast_S1x16384x1_S1x16384x512_0_1_2 : S1x16384x1.BroadcastsInDim S1x16384x512 (![0, 1, 2] : Fin 3 → Fin S1x16384x512.rank)
  dot_S16384x512_S512x2048_S16384x2048_1_0_0_1_n_n_wf : DotDims.WF S16384x512 S512x2048 S16384x2048 [1] [0] [0] [1] [] []
  dot_S16384x512_S512x256_S16384x256_1_0_0_1_n_n_wf : DotDims.WF S16384x512 S512x256 S16384x256 [1] [0] [0] [1] [] []
  dot_S16384x256_S256x1_S16384x1_1_0_0_1_n_n_wf : DotDims.WF S16384x256 S256x1 S16384x1 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

class Facts : Prop extends Facts₀ where

variable [Facts]
-- ==== Proof.Spec.lean ====
/-
  One step of a one-layer LSTM whose new state is gated, row by row, by a hard 0/1 decision.

  For a batch row with input row x, previous hidden and cell rows h and c, and cumulative probability cum:
    gate  = x·W_ihᵀ + h·W_hhᵀ + biases                       (2048 pre-activations, four groups of 512: i, f, g, o)
    c₁    = σ(f)·c + σ(i)·tanh(g)          h₁ = σ(o)·tanh(c₁)
    δ     = σ(⟨lrelu(c·W_spᵀ + b_sp + c₁·W_scᵀ + b_sc), w_so⟩ + b_so)
    θ     = σ(⟨lrelu(c·W_tpᵀ + b_tp), w_to⟩ + b_to)
    p     = cum + min(δ, 1 − cum)          u = [p > θ] ∈ {0, 1}
    h'    = u·h₁ + (1 − u)·h     c' = u·c₁ + (1 − u)·c     cum' = (1 − u)·p
  and the five results are h', c', cum', δ, p.

  Two programs compute this and spell four things differently; the differences are collected in 'Forms':
    * the logistic function σ as one operation, or as 1 / (1 + exp(−x));
    * the indicator u as a signed or an unsigned reading of the comparison bit;
    * the gate actually used: u itself, or p + (u − p), which is u exactly when p is a real number;
    * the bias of 'gate' added as one pre-summed vector, or as two vectors one after the other.
  Over the extended reals the first, second and fourth never matter (σ(x) IS that quotient; a bit reads 0 or 1 either
  way; addition is commutative and associative even at the infinities). The third needs p to be finite, and p is
  finite as soon as cum is: σ takes only real values (0 at −∞, 1 at +∞), and the minimum of anything with the real
  number 1 − cum, added to the real number cum, is real unless that anything is −∞, which a value of σ is not.
-/
import Idealize.ShloMosaic.PureOps.Ideal
import Idealize.ShloMosaic.Lib.ValueIdx

noncomputable section

namespace Cert.GatedLstm

open Idealize.ShloMosaic Idealize.ShloMosaic.ValueIdx

/-! ## The float literals both programs use, as the extended reals their words denote -/

/-- The word of 1.0. -/
def one : EReal := Ideal.ofBits .f32 0x3F800000#32
/-- The word of 0.0. -/
def zero : EReal := Ideal.ofBits .f32 0x00000000#32
/-- The word of the leaky slope (the float nearest 0.01); never evaluated: it is the same word on both sides. -/
def slope : EReal := Ideal.ofBits .f32 0x3C23D70A#32

/-- The inner product of two rows. -/
def dot {n : ℕ} (a w : Fin n → EReal) : EReal := ∑ k, a k * w k

/-- Column q of gate group s (0 = i, 1 = f, 2 = g, 3 = o) among the 2048 pre-activations. -/
def col (s : Fin 4) (q : Fin 512) : Fin 2048 := ⟨q.val + 512 * s.val, by have := q.isLt; have := s.isLt; omega⟩

/-- The leaky rectifier: v where v > 0, slope·v elsewhere. -/
def lrelu (v : EReal) : EReal := Scalar.select (Ideal.cmp .ogt v zero) v (slope * v)

/-- The spellings in which the two programs differ. -/
structure Forms where
  /-- the logistic function -/
  sig : EReal → EReal
  /-- the indicator of prob > threshold as a float -/
  hard : EReal → EReal → EReal
  /-- the gate used, from prob and the indicator -/
  ug : EReal → EReal → EReal

/-- One operation for σ, the comparison bit widened and read signed, the indicator used as it is. -/
def Forms.direct : Forms where
  sig := Ideal.logistic
  hard p t := ((((Ideal.cmp .ogt p t).setWidth 32).toInt : ℝ) : EReal)
  ug _ u := u

/-- σ as the quotient 1 / (1 + exp(−x)), the comparison bit read unsigned, the gate as p + (u − p). -/
def Forms.expanded : Forms where
  sig x := Ideal.div one (one + Ideal.exp (-x))
  hard p t := (((Ideal.cmp .ogt p t).toNat : ℝ) : EReal)
  ug p u := p + (u - p)

/-- Everything one batch row's results depend on: its 2048 gate pre-activations, its previous hidden and cell rows,
    its cumulative probability, and the weights of the two small networks. -/
structure Row where
  gate : Fin 2048 → EReal
  h : Fin 512 → EReal
  c : Fin 512 → EReal
  cum : EReal
  Wsp : Fin 256 → Fin 512 → EReal
  bsp : Fin 256 → EReal
  Wsc : Fin 256 → Fin 512 → EReal
  bsc : Fin 256 → EReal
  wso : Fin 256 → EReal
  bso : EReal
  Wtp : Fin 256 → Fin 512 → EReal
  btp : Fin 256 → EReal
  wto : Fin 256 → EReal
  bto : EReal

namespace Row

variable (F : Forms) (R : Row)

/-- The candidate cell state. -/
def c1 (q : Fin 512) : EReal :=
  F.sig (R.gate (col 1 q)) * R.c q + F.sig (R.gate (col 0 q)) * Ideal.tanh (R.gate (col 2 q))
/-- The candidate hidden state. -/
def h1 (q : Fin 512) : EReal := F.sig (R.gate (col 3 q)) * Ideal.tanh (R.c1 F q)
/-- The skip network's hidden pre-activation. -/
def sgPre (j : Fin 256) : EReal := dot R.c (R.Wsp j) + R.bsp j + dot (R.c1 F) (R.Wsc j) + R.bsc j
/-- The probability increment δ. -/
def delta : EReal := F.sig ((∑ j, lrelu (R.sgPre F j) * R.wso j) + R.bso)
/-- The threshold network's hidden pre-activation. -/
def tgPre (j : Fin 256) : EReal := dot R.c (R.Wtp j) + R.btp j
/-- The threshold θ. -/
def thr : EReal := F.sig ((∑ j, lrelu (R.tgPre j) * R.wto j) + R.bto)
/-- The update probability p. -/
def prob : EReal := R.cum + min (R.delta F) (one - R.cum)
/-- The gate used. -/
def ugate : EReal := F.ug (R.prob F) (F.hard (R.prob F) (R.thr F))
/-- The new hidden state. -/
def newH (q : Fin 512) : EReal := R.ugate F * R.h1 F q + (one - R.ugate F) * R.h q
/-- The new cell state. -/
def newC (q : Fin 512) : EReal := R.ugate F * R.c1 F q + (one - R.ugate F) * R.c q
/-- The new cumulative probability. -/
def newCum : EReal := (one - R.ugate F) * R.prob F

end Row

/-! ## The two bias orders of the gate pre-activations -/

/-- Both products first, then the pre-summed bias. -/
def gateSummed (x h : Fin 512 → EReal) (Wih Whh : Fin 2048 → Fin 512 → EReal) (bih bhh : Fin 2048 → EReal)
    (j : Fin 2048) : EReal := dot x (Wih j) + dot h (Whh j) + (bih j + bhh j)

/-- Product, bias, product, bias. -/
def gateChained (x h : Fin 512 → EReal) (Wih Whh : Fin 2048 → Fin 512 → EReal) (bih bhh : Fin 2048 → EReal)
    (j : Fin 2048) : EReal := dot x (Wih j) + bih j + dot h (Whh j) + bhh j

/-- Addition of extended reals is commutative and associative, so the two orders agree. -/
theorem gateChained_eq (x h : Fin 512 → EReal) (Wih Whh : Fin 2048 → Fin 512 → EReal) (bih bhh : Fin 2048 → EReal) :
    gateChained x h Wih Whh bih bhh = gateSummed x h Wih Whh bih bhh := by
  funext j
  unfold gateChained gateSummed
  abel

/-! ## The two spellings agree -/

/-- The word of 1.0 denotes 1. -/
theorem one_eq : one = 1 := by
  unfold one
  simp [Ideal.ofBits, Ideal.ieee, -EReal.coe_mul]; norm_num

/-- σ written out is σ. -/
theorem sig_expanded : Forms.expanded.sig = Forms.direct.sig := by
  funext x
  show Ideal.div one (one + Ideal.exp (-x)) = Ideal.logistic x
  rw [one_eq]; rfl

/-- A bit reads 0 or 1 whether widened and read signed or read unsigned. -/
theorem hard_expanded : Forms.expanded.hard = Forms.direct.hard := by
  funext p t
  show (((Ideal.cmp .ogt p t).toNat : ℝ) : EReal) = ((((Ideal.cmp .ogt p t).setWidth 32).toInt : ℝ) : EReal)
  have h : ∀ b : BitVec 1, ((b.setWidth 32).toInt : ℝ) = (b.toNat : ℝ) := by
    intro b
    have hb : b = 0#1 ∨ b = 1#1 := by
      rcases Nat.lt_or_ge b.toNat 1 with h | h
      · left; apply BitVec.eq_of_toNat_eq; simp; omega
      · right; apply BitVec.eq_of_toNat_eq; have := b.isLt; simp; omega
    rcases hb with rfl | rfl <;> norm_num
  rw [h]

/-- σ takes real values only. -/
theorem logistic_real (x : EReal) : ∃ r : ℝ, Ideal.logistic x = (r : EReal) := by
  induction x using EReal.rec with
  | bot => exact ⟨0, by simp⟩
  | coe r => exact ⟨_, Ideal.logistic_coe (r := r)⟩
  | top => exact ⟨1, by simp⟩

/-- With a finite cumulative probability the update probability is a real number. -/
theorem prob_real (R : Row) (hc : ∃ r : ℝ, R.cum = (r : EReal)) : ∃ r : ℝ, R.prob Forms.direct = (r : EReal) := by
  obtain ⟨a, ha⟩ := hc
  obtain ⟨d, hd⟩ := logistic_real ((∑ j, lrelu (R.sgPre Forms.direct j) * R.wso j) + R.bso)
  refine ⟨a + min d (1 - a), ?_⟩
  unfold Row.prob Row.delta
  show R.cum + min (Ideal.logistic _) (one - R.cum) = _
  rw [hd, ha, one_eq]
  norm_cast

/-- The indicator is a real number. -/
theorem hard_real (p t : EReal) : ∃ r : ℝ, Forms.direct.hard p t = (r : EReal) := ⟨_, rfl⟩

/-- p + (u − p) = u for real p and u. -/
theorem ug_expanded_of_real (p u : EReal) (hp : ∃ r : ℝ, p = (r : EReal)) (hu : ∃ r : ℝ, u = (r : EReal)) :
    Forms.expanded.ug p u = Forms.direct.ug p u := by
  obtain ⟨a, rfl⟩ := hp
  obtain ⟨b, rfl⟩ := hu
  show (a : EReal) + ((b : EReal) - (a : EReal)) = (b : EReal)
  norm_cast
  ring

/-- The expanded spelling's record is the direct one's except for the gate used. -/
theorem expanded_eq : Forms.expanded = ⟨Forms.direct.sig, Forms.direct.hard, Forms.expanded.ug⟩ := by
  show (⟨Forms.expanded.sig, Forms.expanded.hard, Forms.expanded.ug⟩ : Forms) = _
  rw [sig_expanded, hard_expanded]

/-- THE LAW THAT JOINS THE TWO PROGRAMS: for a row with a finite cumulative probability, every result under the
    expanded spelling is the result under the direct one. -/
theorem ugate_expanded (R : Row) (hc : ∃ r : ℝ, R.cum = (r : EReal)) :
    R.ugate Forms.expanded = R.ugate Forms.direct := by
  rw [expanded_eq]
  exact ug_expanded_of_real _ _ (prob_real R hc) (hard_real _ _)

theorem prob_expanded (R : Row) : R.prob Forms.expanded = R.prob Forms.direct := by rw [expanded_eq]; rfl
theorem delta_expanded (R : Row) : R.delta Forms.expanded = R.delta Forms.direct := by rw [expanded_eq]; rfl
theorem c1_expanded (R : Row) : R.c1 Forms.expanded = R.c1 Forms.direct := by rw [expanded_eq]; rfl
theorem h1_expanded (R : Row) : R.h1 Forms.expanded = R.h1 Forms.direct := by rw [expanded_eq]; rfl

theorem newH_expanded (R : Row) (hc : ∃ r : ℝ, R.cum = (r : EReal)) (q : Fin 512) :
    R.newH Forms.expanded q = R.newH Forms.direct q := by
  unfold Row.newH; rw [ugate_expanded R hc, h1_expanded]
theorem newC_expanded (R : Row) (hc : ∃ r : ℝ, R.cum = (r : EReal)) (q : Fin 512) :
    R.newC Forms.expanded q = R.newC Forms.direct q := by
  unfold Row.newC; rw [ugate_expanded R hc, c1_expanded]
theorem newCum_expanded (R : Row) (hc : ∃ r : ℝ, R.cum = (r : EReal)) :
    R.newCum Forms.expanded = R.newCum Forms.direct := by
  unfold Row.newCum; rw [ugate_expanded R hc, prob_expanded]

/-! ## From the eighteen argument arrays to rows, and the five result arrays -/

/-- The eighteen argument arrays, in the order both programs take them. -/
structure Args where
  x : (⟨2, ![16384, 512]⟩ : Shape).Idx → EReal
  h0 : (⟨3, ![1, 16384, 512]⟩ : Shape).Idx → EReal
  c0 : (⟨3, ![1, 16384, 512]⟩ : Shape).Idx → EReal
  cum : (⟨2, ![16384, 1]⟩ : Shape).Idx → EReal
  Wih : (⟨2, ![2048, 512]⟩ : Shape).Idx → EReal
  Whh : (⟨2, ![2048, 512]⟩ : Shape).Idx → EReal
  bih : (⟨1, ![2048]⟩ : Shape).Idx → EReal
  bhh : (⟨1, ![2048]⟩ : Shape).Idx → EReal
  Wsp : (⟨2, ![256, 512]⟩ : Shape).Idx → EReal
  bsp : (⟨1, ![256]⟩ : Shape).Idx → EReal
  Wsc : (⟨2, ![256, 512]⟩ : Shape).Idx → EReal
  bsc : (⟨1, ![256]⟩ : Shape).Idx → EReal
  Wso : (⟨2, ![1, 256]⟩ : Shape).Idx → EReal
  bso : (⟨1, ![1]⟩ : Shape).Idx → EReal
  Wtp : (⟨2, ![256, 512]⟩ : Shape).Idx → EReal
  btp : (⟨1, ![256]⟩ : Shape).Idx → EReal
  Wto : (⟨2, ![1, 256]⟩ : Shape).Idx → EReal
  bto : (⟨1, ![1]⟩ : Shape).Idx → EReal

/-- The way a row's 2048 pre-activations are formed from its input and hidden rows, the two big weight matrices and
    the two bias vectors ('gateSummed' or 'gateChained'). -/
abbrev GateForm := (Fin 512 → EReal) → (Fin 512 → EReal) → (Fin 2048 → Fin 512 → EReal) → (Fin 2048 → Fin 512 → EReal) →
  (Fin 2048 → EReal) → (Fin 2048 → EReal) → Fin 2048 → EReal

/-- Batch row r's record. -/
def Args.row (A : Args) (g : GateForm) (r : Fin 16384) : Row where
  gate := g (fun k => A.x (ix2 r k)) (fun k => A.h0 (ix3 (0 : Fin 1) r k)) (fun j k => A.Wih (ix2 j k)) (fun j k => A.Whh (ix2 j k))
    (fun j => A.bih (ix1 j)) (fun j => A.bhh (ix1 j))
  h := fun k => A.h0 (ix3 (0 : Fin 1) r k)
  c := fun k => A.c0 (ix3 (0 : Fin 1) r k)
  cum := A.cum (ix2 r (0 : Fin 1))
  Wsp := fun j k => A.Wsp (ix2 j k)
  bsp := fun j => A.bsp (ix1 j)
  Wsc := fun j k => A.Wsc (ix2 j k)
  bsc := fun j => A.bsc (ix1 j)
  wso := fun j => A.Wso (ix2 (0 : Fin 1) j)
  bso := A.bso (ix1 (0 : Fin 1))
  Wtp := fun j k => A.Wtp (ix2 j k)
  btp := fun j => A.btp (ix1 j)
  wto := fun j => A.Wto (ix2 (0 : Fin 1) j)
  bto := A.bto (ix1 (0 : Fin 1))

/-- The new hidden state, [1, 16384, 512]. -/
def outH (F : Forms) (rows : Fin 16384 → Row) : (⟨3, ![1, 16384, 512]⟩ : Shape).Idx → EReal :=
  fun i => (rows ⟨(i 1).val, (i 1).isLt⟩).newH F ⟨(i 2).val, (i 2).isLt⟩
/-- The new cell state, [1, 16384, 512]. -/
def outC (F : Forms) (rows : Fin 16384 → Row) : (⟨3, ![1, 16384, 512]⟩ : Shape).Idx → EReal :=
  fun i => (rows ⟨(i 1).val, (i 1).isLt⟩).newC F ⟨(i 2).val, (i 2).isLt⟩
/-- The new cumulative probability, [16384, 1]. -/
def outCum (F : Forms) (rows : Fin 16384 → Row) : (⟨2, ![16384, 1]⟩ : Shape).Idx → EReal :=
  fun i => (rows ⟨(i 0).val, (i 0).isLt⟩).newCum F
/-- The probability increment, [16384, 1]. -/
def outDelta (F : Forms) (rows : Fin 16384 → Row) : (⟨2, ![16384, 1]⟩ : Shape).Idx → EReal :=
  fun i => (rows ⟨(i 0).val, (i 0).isLt⟩).delta F
/-- The update probability, [16384, 1]. -/
def outProb (F : Forms) (rows : Fin 16384 → Row) : (⟨2, ![16384, 1]⟩ : Shape).Idx → EReal :=
  fun i => (rows ⟨(i 0).val, (i 0).isLt⟩).prob F

/-- The two bias orders give the same rows. -/
theorem Args.row_chained (A : Args) : A.row gateChained = A.row gateSummed := by
  funext r
  unfold Args.row
  rw [gateChained_eq]

/-- Every cumulative probability of the batch is finite. -/
def Args.CumFinite (A : Args) : Prop := ∀ i, ∃ r : ℝ, A.cum i = (r : EReal)

theorem Args.row_cum_real (A : Args) (hA : A.CumFinite) (g : GateForm) (r : Fin 16384) :
    ∃ a : ℝ, (A.row g r).cum = (a : EReal) := hA _

/-- THE FIVE RESULTS AGREE: the expanded spelling over chained biases against the direct spelling over the summed
    bias, for finite cumulative probabilities. -/
theorem outH_agree (A : Args) (hA : A.CumFinite) :
    outH Forms.expanded (A.row gateChained) = outH Forms.direct (A.row gateSummed) := by
  rw [A.row_chained]; funext i; exact newH_expanded _ (A.row_cum_real hA _ _) _
theorem outC_agree (A : Args) (hA : A.CumFinite) :
    outC Forms.expanded (A.row gateChained) = outC Forms.direct (A.row gateSummed) := by
  rw [A.row_chained]; funext i; exact newC_expanded _ (A.row_cum_real hA _ _) _
theorem outCum_agree (A : Args) (hA : A.CumFinite) :
    outCum Forms.expanded (A.row gateChained) = outCum Forms.direct (A.row gateSummed) := by
  rw [A.row_chained]; funext i; exact newCum_expanded _ (A.row_cum_real hA _ _)
theorem outDelta_agree (A : Args) :
    outDelta Forms.expanded (A.row gateChained) = outDelta Forms.direct (A.row gateSummed) := by
  rw [A.row_chained]; funext i; exact delta_expanded _
theorem outProb_agree (A : Args) :
    outProb Forms.expanded (A.row gateChained) = outProb Forms.direct (A.row gateSummed) := by
  rw [A.row_chained]; funext i; exact prob_expanded _

end Cert.GatedLstm

end
-- ==== Proof.LibAbsLtInf.lean ====
/-
  Finiteness of an extended real, read off a printed comparison.

  A precondition "every entry is finite" prints, entry by entry, as the comparison |x| < +∞, with |x| spelt
  max x (−x) and +∞ as the f32 word 0x7F800000. That word denotes ⊤; and max x (−x) < ⊤ excludes x = ⊤ (then the
  maximum is ⊤) and x = ⊥ (then −x = ⊤), so x is a real number.
-/
import Idealize.ShloMosaic.PureOps.Ideal

namespace Cert.LibAbsLtInf

open Idealize.ShloMosaic

/-- The word 0x7F800000 denotes +∞. -/
theorem inf_eq : Ideal.ofBits .f32 0x7F800000#32 = ⊤ := by
  simp [Ideal.ofBits, Ideal.ieee]

/-- A comparison bit that is 1 came from a true comparison. -/
theorem ofBool_one {b : Bool} (h : BitVec.ofBool b = 1#1) : b = true := by
  cases b
  · exact absurd h (by decide)
  · rfl

/-- |x| < +∞, as the ordered less-than of max x (−x) against the word of +∞, says that x is a real number. -/
theorem real_of_abs_lt (x : EReal) (h : Ideal.cmp .olt (max x (-x)) (Ideal.ofBits .f32 0x7F800000#32) = 1#1) :
    ∃ r : ℝ, x = (r : EReal) := by
  rw [inf_eq] at h
  have hlt : max x (-x) < ⊤ := by
    have h' := ofBool_one h
    simpa using h'
  induction x using EReal.rec with
  | bot => simp at hlt
  | coe r => exact ⟨r, rfl⟩
  | top => simp at hlt

end Cert.LibAbsLtInf
-- ==== Proof.Finite.lean ====
/-
  What the precondition gives: every cumulative probability is a real number.

  The precondition is one bit: the conjunction, over the eighteen argument arrays, of "every entry has |x| < +∞".
  It is printed as a chain of 'and's, each joining what came before with one array's 'all'. The fourth array's
  conjunct is reached by taking the left operand of the last fourteen 'and's and then the right operand of the next;
  an 'all' that is 1 had a 1 at every entry; and |x| < +∞ on the extended reals says that x is neither infinity,
  hence a real number.
-/
import proofs.«123674_j80513456930853_2_alg».proof.Pre_finite_inputs
import Idealize.ShloMosaic.Lib.ReduceAll
import Idealize.ShloMosaic.Lib.ValueIdx
import Idealize.ShloMosaic.PureOps.Ideal
import proofs.«123674_j80513456930853_2_alg».proof.Proof.LibAbsLtInf

noncomputable section

namespace Cert.Pre_finite_inputs.Finite

open Cert.Pre_finite_inputs Idealize.ShloMosaic

instance : Subsingleton S_.Idx := ⟨fun a b => funext fun d => d.elim0⟩

/-- An 'and' of two bits that is 1 had two 1s. -/
theorem andi_at (a b : IVec S_ 1) (i : S_.Idx) (h : andi a b i = 1#1) : a i = 1#1 ∧ b i = 1#1 :=
  IntOp.andi_eq_one.1 h

/-- Under the precondition every entry of the fourth argument array (the cumulative probabilities) is a real number. -/
theorem cum_real [Facts] (a0 : FVec Ideal S16384x512 .f32) (a1 a2 : FVec Ideal S1x16384x512 .f32) (a3 : FVec Ideal S16384x1 .f32)
    (a4 a5 : FVec Ideal S2048x512 .f32) (a6 a7 : FVec Ideal S2048 .f32) (a8 : FVec Ideal S256x512 .f32) (a9 : FVec Ideal S256 .f32)
    (a10 : FVec Ideal S256x512 .f32) (a11 : FVec Ideal S256 .f32) (a12 : FVec Ideal S1x256 .f32) (a13 : FVec Ideal S1 .f32)
    (a14 : FVec Ideal S256x512 .f32) (a15 : FVec Ideal S256 .f32) (a16 : FVec Ideal S1x256 .f32) (a17 : FVec Ideal S1 .f32)
    (h : fn (F := Ideal) a0 a1 a2 a3 a4 a5 a6 a7 a8 a9 a10 a11 a12 a13 a14 a15 a16 a17 = fun _ => 1#1) (i : S16384x1.Idx) :
    ∃ r : ℝ, a3 i = (r : EReal) := by
  have h0 := congrFun h ValueIdx.ix0
  dsimp only [fn, fn_part1, fn_part2, fn_part3, fn_part4, fn_part5] at h0
  have p1 := (andi_at _ _ _ h0).1
  have p2 := (andi_at _ _ _ p1).1
  have p3 := (andi_at _ _ _ p2).1
  have p4 := (andi_at _ _ _ p3).1
  have p5 := (andi_at _ _ _ p4).1
  have p6 := (andi_at _ _ _ p5).1
  have p7 := (andi_at _ _ _ p6).1
  have p8 := (andi_at _ _ _ p7).1
  have p9 := (andi_at _ _ _ p8).1
  have p10 := (andi_at _ _ _ p9).1
  have p11 := (andi_at _ _ _ p10).1
  have p12 := (andi_at _ _ _ p11).1
  have p13 := (andi_at _ _ _ p12).1
  have p14 := (andi_at _ _ _ p13).1
  have q := (andi_at _ _ _ p14).2
  have e := Host.reduce_andi_all _ _ _ _ _ q i
  exact Cert.LibAbsLtInf.real_of_abs_lt (a3 i) e

end Cert.Pre_finite_inputs.Finite

end
-- ==== Proof.LibMatmulNT.lean ====
/-
  A matrix product that contracts the LAST axis of both operands, accumulated into zero, read at coordinates.

  For `l : [M, K]` and `w : [N, K]` the product `l · wᵀ : [M, N]` has entry `(r, j)` equal to `∑ k, l (r, k) · w (j, k)`:
  the accumulator's zero drops out, and the contraction index, a one-axis multi-index, is re-indexed by its one
  coordinate. The dimension record enters through four coordinate facts (which operand coordinate is the output's row,
  which the output's column, which the contraction's coordinate); for a printed record each is one line.
-/
import Idealize.ShloMosaic.PureOps.Ideal.Laws
import Idealize.ShloMosaic.Lib.ValueIdx

namespace Cert.LibMatmulNT

open Idealize.ShloMosaic Idealize.ShloMosaic.ValueIdx

/-- Entry `(r, j)` of `l · wᵀ` accumulated into the zero splat is `∑ k, l (r, k) · w (j, k)`. -/
theorem matmulNT_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (l : FVec Ideal ⟨2, ![M, K]⟩ φ₁) (w : FVec Ideal ⟨2, ![N, K]⟩ φ₂) (r : Fin M) (j : Fin N) :
    FloatOps.matmul D prec l w (constant (F := Ideal) ⟨2, ![M, N]⟩ .f32 0x00000000#32) (ix2 r j)
      = ∑ k : Fin K, l (ix2 r k) * w (ix2 j k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r j) ((contrEquiv1 D K hr hs).symm k) = ix2 r k := funext fun a => Fin.ext (by
    match a with
    | ⟨0, _⟩ => exact hl0 _ _
    | ⟨1, _⟩ => exact (hl1 _ _).trans hk)
  have er : D.rhsIdx (ix2 r j) ((contrEquiv1 D K hr hs).symm k) = ix2 j k := funext fun a => Fin.ext (by
    match a with
    | ⟨0, _⟩ => exact hr0 _ _
    | ⟨1, _⟩ => exact (hr1 _ _).trans hk)
  rw [el, er]

end Cert.LibMatmulNT
-- ==== Proof.KerMatmul.lean ====
/-
  The kernel's four matrix products, read at coordinates.

  Every product of the body contracts the LAST axis of both operands and accumulates into zero: for a block of rows
  l : [256, 512] and a weight matrix w : [N, 512], entry (p, j) of the product is ∑ k, l (p, k) · w (j, k), the inner
  product of row p of the block with row j of the weights. Three output widths occur: 2048 (the gates), 512 (the
  two small networks' first layers, stacked) and 256 (the skip network's second term). For each printed dimension
  record the four coordinate facts are read off the record: the output's row is the left operand's row, its column the
  right operand's row, and the one contraction coordinate is both operands' column.
-/
import proofs.«123674_j80513456930853_2_alg».proof.Proof.Gen.KernelIdeal
import proofs.«123674_j80513456930853_2_alg».proof.Proof.LibMatmulNT

noncomputable section

namespace Cert.KernelIdeal.Body

open Cert.KernelIdeal Idealize.ShloMosaic Idealize.ShloMosaic.ValueIdx

theorem dotG_l0 (i : S256x2048.Idx) (q : dot_S256x512_S2048x512_S256x2048_1_1_0_0_n_n.contr.Idx) : (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide), dif_pos (show (0 : Fin S256x512.rank) ∈ dot_S256x512_S2048x512_S256x2048_1_1_0_0_n_n.lhsNonContracting by decide)]
  rfl
theorem dotG_l1 (i : S256x2048.Idx) (q : dot_S256x512_S2048x512_S256x2048_1_1_0_0_n_n.contr.Idx) : (dot_S256x512_S2048x512_S256x2048_1_1_0_0_n_n.lhsIdx i q 1).val = (q ⟨0, by decide⟩).val :=
  dot_S256x512_S2048x512_S256x2048_1_1_0_0_n_n.lhsIdx_val_of_single rfl i q
theorem dotG_r0 (i : S256x2048.Idx) (q : dot_S256x512_S2048x512_S256x2048_1_1_0_0_n_n.contr.Idx) : (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide), dif_pos (show (0 : Fin S2048x512.rank) ∈ dot_S256x512_S2048x512_S256x2048_1_1_0_0_n_n.rhsNonContracting by decide)]
  rfl
theorem dotG_r1 (i : S256x2048.Idx) (q : dot_S256x512_S2048x512_S256x2048_1_1_0_0_n_n.contr.Idx) : (dot_S256x512_S2048x512_S256x2048_1_1_0_0_n_n.rhsIdx i q 1).val = (q ⟨0, by decide⟩).val :=
  dot_S256x512_S2048x512_S256x2048_1_1_0_0_n_n.rhsIdx_val_of_single rfl i q

theorem dotC_l0 (i : S256x512.Idx) (q : dot_S256x512_S512x512_S256x512_1_1_0_0_n_n.contr.Idx) : (dot_S256x512_S512x512_S256x512_1_1_0_0_n_n.lhsIdx i q 0).val = (i 0).val := by
  unfold DotDims.lhsIdx
  rw [dif_neg (show ¬(0 : Fin S256x512.rank) ∈ dot_S256x512_S512x512_S256x512_1_1_0_0_n_n.lhsBatch by decide), dif_pos (show (0 : Fin S256x512.rank) ∈ dot_S256x512_S512x512_S256x512_1_1_0_0_n_n.lhsNonContracting by decide)]
  rfl
theorem dotC_l1 (i : S256x512.Idx) (q : dot_S256x512_S512x512_S256x512_1_1_0_0_n_n.contr.Idx) : (dot_S256x512_S512x512_S256x512_1_1_0_0_n_n.lhsIdx i q 1).val = (q ⟨0, by decide⟩).val :=
  dot_S256x512_S512x512_S256x512_1_1_0_0_n_n.lhsIdx_val_of_single rfl i q
theorem dotC_r0 (i : S256x512.Idx) (q : dot_S256x512_S512x512_S256x512_1_1_0_0_n_n.contr.Idx) : (dot_S256x512_S512x512_S256x512_1_1_0_0_n_n.rhsIdx i q 0).val = (i 1).val := by
  unfold DotDims.rhsIdx
  rw [dif_neg (show ¬(0 : Fin S512x512.rank) ∈ dot_S256x512_S512x512_S256x512_1_1_0_0_n_n.rhsBatch by decide), dif_pos (show (0 : Fin S512x512.rank) ∈ dot_S256x512_S512x512_S256x512_1_1_0_0_n_n.rhsNonContracting by decide)]
  rfl
theorem dotC_r1 (i : S256x512.Idx) (q : dot_S256x512_S512x512_S256x512_1_1_0_0_n_n.contr.Idx) : (dot_S256x512_S512x512_S256x512_1_1_0_0_n_n.rhsIdx i q 1).val = (q ⟨0, by decide⟩).val :=
  dot_S256x512_S512x512_S256x512_1_1_0_0_n_n.rhsIdx_val_of_single rfl i q

theorem dotS_l0 (i : S256x256.Idx) (q : dot_S256x512_S256x512_S256x256_1_1_0_0_n_n.contr.Idx) : (dot_S256x512_S256x512_S256x256_1_1_0_0_n_n.lhsIdx i q 0).val = (i 0).val := by
  unfold DotDims.lhsIdx
  rw [dif_neg (show ¬(0 : Fin S256x512.rank) ∈ dot_S256x512_S256x512_S256x256_1_1_0_0_n_n.lhsBatch by decide), dif_pos (show (0 : Fin S256x512.rank) ∈ dot_S256x512_S256x512_S256x256_1_1_0_0_n_n.lhsNonContracting by decide)]
  rfl
theorem dotS_l1 (i : S256x256.Idx) (q : dot_S256x512_S256x512_S256x256_1_1_0_0_n_n.contr.Idx) : (dot_S256x512_S256x512_S256x256_1_1_0_0_n_n.lhsIdx i q 1).val = (q ⟨0, by decide⟩).val :=
  dot_S256x512_S256x512_S256x256_1_1_0_0_n_n.lhsIdx_val_of_single rfl i q
theorem dotS_r0 (i : S256x256.Idx) (q : dot_S256x512_S256x512_S256x256_1_1_0_0_n_n.contr.Idx) : (dot_S256x512_S256x512_S256x256_1_1_0_0_n_n.rhsIdx i q 0).val = (i 1).val := by
  unfold DotDims.rhsIdx
  rw [dif_neg (show ¬(0 : Fin S256x512.rank) ∈ dot_S256x512_S256x512_S256x256_1_1_0_0_n_n.rhsBatch by decide), dif_pos (show (0 : Fin S256x512.rank) ∈ dot_S256x512_S256x512_S256x256_1_1_0_0_n_n.rhsNonContracting by decide)]
  rfl
theorem dotS_r1 (i : S256x256.Idx) (q : dot_S256x512_S256x512_S256x256_1_1_0_0_n_n.contr.Idx) : (dot_S256x512_S256x512_S256x256_1_1_0_0_n_n.rhsIdx i q 1).val = (q ⟨0, by decide⟩).val :=
  dot_S256x512_S256x512_S256x256_1_1_0_0_n_n.rhsIdx_val_of_single rfl i q

/-- Entry (p, j) of a block of rows against the 2048 gate weight rows. -/
theorem matmulG_at (l : FVec Ideal S256x512 .f32) (w : FVec Ideal S2048x512 .f32) (p : Fin 256) (j : Fin 2048) :
    matmul dot_S256x512_S2048x512_S256x2048_1_1_0_0_n_n (some .fp32) l w (constant (F := Ideal) S256x2048 .f32 0x00000000#32) (ix2 p j)
      = ∑ k : Fin 512, l (ix2 p k) * w (ix2 j k) :=
  Cert.LibMatmulNT.matmulNT_zero_apply dot_S256x512_S2048x512_S256x2048_1_1_0_0_n_n rfl rfl dotG_l0 dotG_l1 dotG_r0 dotG_r1 (some .fp32) l w p j

/-- Entry (p, j) of a block of rows against the 512 stacked first-layer weight rows. -/
theorem matmulC_at (l : FVec Ideal S256x512 .f32) (w : FVec Ideal S512x512 .f32) (p : Fin 256) (j : Fin 512) :
    matmul dot_S256x512_S512x512_S256x512_1_1_0_0_n_n (some .fp32) l w (constant (F := Ideal) S256x512 .f32 0x00000000#32) (ix2 p j)
      = ∑ k : Fin 512, l (ix2 p k) * w (ix2 j k) :=
  Cert.LibMatmulNT.matmulNT_zero_apply dot_S256x512_S512x512_S256x512_1_1_0_0_n_n rfl rfl dotC_l0 dotC_l1 dotC_r0 dotC_r1 (some .fp32) l w p j

/-- Entry (p, j) of a block of rows against the 256 second-term weight rows. -/
theorem matmulS_at (l : FVec Ideal S256x512 .f32) (w : FVec Ideal S256x512 .f32) (p : Fin 256) (j : Fin 256) :
    matmul dot_S256x512_S256x512_S256x256_1_1_0_0_n_n (some .fp32) l w (constant (F := Ideal) S256x256 .f32 0x00000000#32) (ix2 p j)
      = ∑ k : Fin 512, l (ix2 p k) * w (ix2 j k) :=
  Cert.LibMatmulNT.matmulNT_zero_apply dot_S256x512_S256x512_S256x256_1_1_0_0_n_n rfl rfl dotS_l0 dotS_l1 dotS_r0 dotS_r1 (some .fp32) l w p j

end Cert.KernelIdeal.Body

end
-- ==== Proof.LibKeepdims.lean ====
/-
  Column forms of the keepdims layout operations, read at an index given by coordinates.

  A reduction over the lanes of a rank-2 value leaves a vector of length `a`; a kernel then re-lays it as a column
  `[a, 1]` (a shape cast) and spreads the column over `b` lanes (a broadcast). Element `(i, j)` of the spread
  column is element `i` of the vector, whatever `j` is. The row forms (`[a] → [1, a]`, `[1, b] → [a, b]`) are in
  the library (Lib/ValueLayout.lean); these are their transposed counterparts, in the same style: the parent lemma of
  Lib/Pipeline/Value.lean with both indices written `ixN …`.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- A vector re-laid as a column: element `(i, u)` of the `[a, 1]` column is element `i` of the vector (the only
    value of the unit coordinate `u` is `0`, so the two row-major positions agree). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column re-laid as a vector: element `i` of the vector is element `(i, 0)` of the `[a, 1]` column. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- ONE COLUMN BROADCAST over many lanes: element `(i, j)` of the `[a, b]` result is element `(i, 0)` of the column. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibReduceRead.lean ====
/-
  One-axis reductions of a rank-2 value, read at coordinates, over the extended reals.

  A reduction of an `[a, b]` value along its lanes (axis 1) leaves a vector of length `a` whose element `i` is
  the sum (or the maximum) of row `i`; along its sublanes (axis 0) a vector of length `b` whose element `j` is the
  sum (or the maximum) of column `j`. The library states these over `Shape.Reduces.lift` (the result index with the
  reduced coordinate inserted); here the inserted index is written out as `ix2 i k` resp. `ix2 k j`, so that the
  terms of the sum are the operand at plain coordinates and can be rewritten one by one.
-/
import Idealize.ShloMosaic.PureOps.Ideal.Laws
import Idealize.ShloMosaic.Lib.ValueIdx

namespace Cert.LibReduceRead

open Idealize.ShloMosaic Idealize.ShloMosaic.ValueIdx

/-- Row `i`'s sum: the lane reduction of an `[a, b]` value at `i` is `∑ k, src (i, k)`. -/
theorem laneSum_apply {a b : ℕ} (src : FVec Ideal ⟨2, ![a, b]⟩ .f32) (acc : BitVec FTy.f32.bits)
    (h : (⟨2, ![a, b]⟩ : Shape).Reduces [1] ⟨1, ![a]⟩) (hφ : FKind.Formats .f32)
    (hacc : acc = FKind.add.neutral .f32 hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src ?_
  funext c; apply Fin.ext
  match c with
  | ⟨0, _⟩ => rfl
  | ⟨1, _⟩ => rfl

/-- Column `j`'s sum: the sublane reduction of an `[a, b]` value at `j` is `∑ k, src (k, j)`. -/
theorem sublaneSum_apply {a b : ℕ} (src : FVec Ideal ⟨2, ![a, b]⟩ .f32) (acc : BitVec FTy.f32.bits)
    (h : (⟨2, ![a, b]⟩ : Shape).Reduces [0] ⟨1, ![b]⟩) (hφ : FKind.Formats .f32)
    (hacc : acc = FKind.add.neutral .f32 hφ) (j : Fin b) :
    multiReduction .add [0] ⟨1, ![b]⟩ src acc h hφ hacc (ix1 j) = ∑ k : Fin a, src (ix2 k j) := by
  refine (Ideal.multiReduction_add_single src acc h hφ hacc (ix1 j)).trans ?_
  refine Finset.sum_congr rfl fun k _ => congrArg src ?_
  funext c; apply Fin.ext
  match c with
  | ⟨0, _⟩ => rfl
  | ⟨1, _⟩ => rfl

/-- Row `i`'s maximum: the lane max-reduction at `i` is the fold of `max` over row `i`, from the accumulator's value. -/
theorem laneMax_apply {a b : ℕ} (src : FVec Ideal ⟨2, ![a, b]⟩ .f32) (acc : BitVec FTy.f32.bits)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (FloatOps.ofBits (F := Ideal) .f32 acc) (fun k => src (ix2 i k)) := by
  refine (Ideal.multiReduction_maximumf_single src acc h hφ hacc (ix1 i)).trans ?_
  refine congrArg (fun f => (Finset.univ : Finset (Fin b)).fold max (FloatOps.ofBits (F := Ideal) .f32 acc) f) ?_
  funext k
  refine congrArg src ?_
  funext c; apply Fin.ext
  match c with
  | ⟨0, _⟩ => rfl
  | ⟨1, _⟩ => rfl

/-- Column `j`'s maximum: the sublane max-reduction at `j` is the fold of `max` over column `j`. -/
theorem sublaneMax_apply {a b : ℕ} (src : FVec Ideal ⟨2, ![a, b]⟩ .f32) (acc : BitVec FTy.f32.bits)
    (h : (⟨2, ![a, b]⟩ : Shape).Reduces [0] ⟨1, ![b]⟩) (hφ : FKind.Formats .f32)
    (hacc : acc = FKind.maximumf.neutral .f32 hφ) (j : Fin b) :
    multiReduction .maximumf [0] ⟨1, ![b]⟩ src acc h hφ hacc (ix1 j)
      = (Finset.univ : Finset (Fin a)).fold max (FloatOps.ofBits (F := Ideal) .f32 acc) (fun k => src (ix2 k j)) := by
  refine (Ideal.multiReduction_maximumf_single src acc h hφ hacc (ix1 j)).trans ?_
  refine congrArg (fun f => (Finset.univ : Finset (Fin a)).fold max (FloatOps.ofBits (F := Ideal) .f32 acc) f) ?_
  funext k
  refine congrArg src ?_
  funext c; apply Fin.ext
  match c with
  | ⟨0, _⟩ => rfl
  | ⟨1, _⟩ => rfl

end Cert.LibReduceRead
-- ==== Proof.KerBody.lean ====
/-
  The kernel body's arithmetic, read at coordinates.

  The body loads sixteen blocks (a block of 256 rows of x, h, c and cum, and every weight whole) and stores five.
  Row p of what it stores depends only on row p of the four row blocks and on the weights: it is the gated LSTM step
  of 'blockRow … p' in the direct spelling (one logistic operation, the comparison bit widened and read signed, the
  indicator used as the gate). Each printed payload is read at (p, q) — through the pointwise operations, the
  matrix products (inner products of rows), the column slices of the 2048 gates and of the two stacked first
  layers, the lane sums of the two output heads, and the row / column broadcasts — and identified with the named
  quantity of the row's record.
-/
import proofs.«123674_j80513456930853_2_alg».proof.Proof.Gen.KernelIdeal.Skeleton
import proofs.«123674_j80513456930853_2_alg».proof.Proof.Spec
import proofs.«123674_j80513456930853_2_alg».proof.Proof.KerMatmul
import proofs.«123674_j80513456930853_2_alg».proof.Proof.LibKeepdims
import proofs.«123674_j80513456930853_2_alg».proof.Proof.LibReduceRead
import Idealize.ShloMosaic.Lib.ValueLayout
import Idealize.ShloMosaic.Lib.Pipeline.Value

noncomputable section

namespace Cert.KernelIdeal.Body

open Cert.KernelIdeal Cert.KernelIdeal.Gen Cert.GatedLstm Idealize.ShloMosaic Idealize.ShloMosaic.ValueIdx

/-- Rows 0 … 255 of the two stacked first-layer matrices are the skip network's. -/
def lo (j : Fin 256) : Fin 512 := ⟨j.val, by have := j.isLt; omega⟩
/-- Rows 256 … 511 are the threshold network's. -/
def hi (j : Fin 256) : Fin 512 := ⟨j.val + 256, by have := j.isLt; omega⟩

/-- The record of row p of one block of 256 batch rows, from the sixteen blocks the body loads: the row's gate
    pre-activations with the pre-summed bias row, its hidden, cell and cumulative entries, and the small networks'
    weights (the two first-layer matrices stacked in one [512, 512] block). -/
def blockRow (x0 x1 x2 : FVec Ideal S256x512 .f32) (x3 : FVec Ideal S256x1 .f32) (w4 w5 : FVec Ideal S2048x512 .f32)
    (b6 : FVec Ideal S1x2048 .f32) (w7 : FVec Ideal S512x512 .f32) (b8 b9 : FVec Ideal S1x256 .f32) (w10 : FVec Ideal S256x512 .f32)
    (b11 w12 : FVec Ideal S1x256 .f32) (b13 : FVec Ideal S1x1 .f32) (w14 : FVec Ideal S1x256 .f32) (b15 : FVec Ideal S1x1 .f32)
    (p : Fin 256) : Row where
  gate := fun j => dot (fun k => x0 (ix2 p k)) (fun k => w4 (ix2 j k)) + dot (fun k => x1 (ix2 p k)) (fun k => w5 (ix2 j k)) + b6 (ix2 (0 : Fin 1) j)
  h := fun k => x1 (ix2 p k)
  c := fun k => x2 (ix2 p k)
  cum := x3 (ix2 p (0 : Fin 1))
  Wsp := fun j k => w7 (ix2 (lo j) k)
  bsp := fun j => b8 (ix2 (0 : Fin 1) j)
  Wsc := fun j k => w10 (ix2 j k)
  bsc := fun j => b11 (ix2 (0 : Fin 1) j)
  wso := fun j => w12 (ix2 (0 : Fin 1) j)
  bso := b13 (ix2 (0 : Fin 1) (0 : Fin 1))
  Wtp := fun j k => w7 (ix2 (hi j) k)
  btp := fun j => b9 (ix2 (0 : Fin 1) j)
  wto := fun j => w14 (ix2 (0 : Fin 1) j)
  bto := b15 (ix2 (0 : Fin 1) (0 : Fin 1))

/-- The logistic operation and the hyperbolic tangent act entry by entry. -/
theorem logistic_at {s : Shape} (v : FVec Ideal s .f32) (i : s.Idx) : logistic v i = Ideal.logistic (v i) := rfl
theorem tanh_at {s : Shape} (v : FVec Ideal s .f32) (i : s.Idx) : tanh v i = Ideal.tanh (v i) := rfl

section
variable (x0 x1 x2 : FVec Ideal S256x512 .f32) (x3 : FVec Ideal S256x1 .f32) (w4 w5 : FVec Ideal S2048x512 .f32)
    (b6 : FVec Ideal S1x2048 .f32) (w7 : FVec Ideal S512x512 .f32) (b8 b9 : FVec Ideal S1x256 .f32) (w10 : FVec Ideal S256x512 .f32)
    (b11 w12 : FVec Ideal S1x256 .f32) (b13 : FVec Ideal S1x1 .f32) (w14 : FVec Ideal S1x256 .f32) (b15 : FVec Ideal S1x1 .f32)
    (p : Fin 256)

/-- The 2048 gate pre-activations of row p. -/
theorem pay9_at (j : Fin 2048) :
    k0_pay9 (F := Ideal) x0 x1 w4 w5 b6 (ix2 p j) = (blockRow x0 x1 x2 x3 w4 w5 b6 w7 b8 b9 w10 b11 w12 b13 w14 b15 p).gate j := by
  unfold k0_pay9 k0_pay7
  rw [shapeCast_self, shapeCast_self, addf_apply, addf_apply, matmulG_at, matmulG_at, broadcastTo_1b_ab_apply]
  rfl

/-- The candidate cell state of row p. -/
theorem pay10_at (q : Fin 512) :
    k0_pay10 (F := Ideal) x0 x1 x2 w4 w5 b6 (ix2 p q) = (blockRow x0 x1 x2 x3 w4 w5 b6 w7 b8 b9 w10 b11 w12 b13 w14 b15 p).c1 Forms.direct q := by
  unfold k0_pay10 k0_pay8
  rw [shapeCast_self, addf_apply, mulf_apply, mulf_apply, logistic_at, logistic_at, tanh_at,
    slice2_axis1_apply 512 _ _ p q (col 1 q) (by show q.val + 512 * 1 = 512 + q.val; omega),
    slice2_axis1_apply 0 _ _ p q (col 0 q) (by show q.val + 512 * 0 = 0 + q.val; omega),
    slice2_axis1_apply 1024 _ _ p q (col 2 q) (by show q.val + 512 * 2 = 1024 + q.val; omega),
    pay9_at x0 x1 x2 x3 w4 w5 b6 w7 b8 b9 w10 b11 w12 b13 w14 b15 p, pay9_at x0 x1 x2 x3 w4 w5 b6 w7 b8 b9 w10 b11 w12 b13 w14 b15 p, pay9_at x0 x1 x2 x3 w4 w5 b6 w7 b8 b9 w10 b11 w12 b13 w14 b15 p]
  rfl

/-- The candidate hidden state of row p. -/
theorem pay11_at (q : Fin 512) :
    k0_pay11 (F := Ideal) x0 x1 x2 w4 w5 b6 (ix2 p q) = (blockRow x0 x1 x2 x3 w4 w5 b6 w7 b8 b9 w10 b11 w12 b13 w14 b15 p).h1 Forms.direct q := by
  unfold k0_pay11
  rw [mulf_apply, logistic_at, tanh_at,
    slice2_axis1_apply 1536 _ _ p q (col 3 q) (by show q.val + 512 * 3 = 1536 + q.val; omega),
    pay9_at x0 x1 x2 x3 w4 w5 b6 w7 b8 b9 w10 b11 w12 b13 w14 b15 p, pay10_at x0 x1 x2 x3 w4 w5 b6 w7 b8 b9 w10 b11 w12 b13 w14 b15 p]
  rfl

/-- The cell row against the 512 stacked first-layer rows. -/
theorem pay12_at (j : Fin 512) :
    k0_pay12 (F := Ideal) x2 w7 (ix2 p j) = ∑ k : Fin 512, x2 (ix2 p k) * w7 (ix2 j k) := by
  unfold k0_pay12 k0_pay8
  rw [shapeCast_self, shapeCast_self, matmulC_at]

/-- The skip network's cell term with its bias. -/
theorem pay13_at (j : Fin 256) :
    k0_pay13 (F := Ideal) x2 w7 b8 (ix2 p j) = dot (blockRow x0 x1 x2 x3 w4 w5 b6 w7 b8 b9 w10 b11 w12 b13 w14 b15 p).c ((blockRow x0 x1 x2 x3 w4 w5 b6 w7 b8 b9 w10 b11 w12 b13 w14 b15 p).Wsp j) + (blockRow x0 x1 x2 x3 w4 w5 b6 w7 b8 b9 w10 b11 w12 b13 w14 b15 p).bsp j := by
  unfold k0_pay13
  rw [addf_apply, slice2_axis1_apply 0 _ _ p j (lo j) (by show j.val = 0 + j.val; omega), pay12_at, shapeCast_self,
    broadcastTo_1b_ab_apply]
  rfl

/-- The threshold network's cell term. -/
theorem pay14_at (j : Fin 256) :
    k0_pay14 (F := Ideal) x2 w7 (ix2 p j) = dot (blockRow x0 x1 x2 x3 w4 w5 b6 w7 b8 b9 w10 b11 w12 b13 w14 b15 p).c ((blockRow x0 x1 x2 x3 w4 w5 b6 w7 b8 b9 w10 b11 w12 b13 w14 b15 p).Wtp j) := by
  unfold k0_pay14
  rw [slice2_axis1_apply 256 _ _ p j (hi j) (by show j.val + 256 = 256 + j.val; omega), pay12_at]
  rfl

/-- The probability increment of row p, from any candidate cell block and cell-term block that are row p's. -/
theorem pay15_at (v25 : FVec Ideal S256x512 .f32) (v35 : FVec Ideal S256x256 .f32)
    (h25 : ∀ q, v25 (ix2 p q) = (blockRow x0 x1 x2 x3 w4 w5 b6 w7 b8 b9 w10 b11 w12 b13 w14 b15 p).c1 Forms.direct q)
    (h35 : ∀ j, v35 (ix2 p j) = dot (blockRow x0 x1 x2 x3 w4 w5 b6 w7 b8 b9 w10 b11 w12 b13 w14 b15 p).c ((blockRow x0 x1 x2 x3 w4 w5 b6 w7 b8 b9 w10 b11 w12 b13 w14 b15 p).Wsp j) + (blockRow x0 x1 x2 x3 w4 w5 b6 w7 b8 b9 w10 b11 w12 b13 w14 b15 p).bsp j) :
    k0_pay15 (F := Ideal) v25 v35 w10 b11 w12 b13 (ix2 p (0 : Fin 1)) = (blockRow x0 x1 x2 x3 w4 w5 b6 w7 b8 b9 w10 b11 w12 b13 w14 b15 p).delta Forms.direct := by
  unfold k0_pay15
  simp only [shapeCast_self]
  rw [logistic_at, addf_apply, LibKeepdims.shapeCast_a_a1_apply, broadcastTo_1b_ab_apply]
  show Ideal.logistic _ = Ideal.logistic _
  refine congrArg Ideal.logistic (congrArg₂ (· + ·) ((LibReduceRead.laneSum_apply _ _ _ _ _ p).trans (Finset.sum_congr rfl fun j _ => ?_)) rfl)
  have hpre : v35 (ix2 p j) + (∑ k : Fin 512, v25 (ix2 p k) * w10 (ix2 j k)) + b11 (ix2 (0 : Fin 1) j) = (blockRow x0 x1 x2 x3 w4 w5 b6 w7 b8 b9 w10 b11 w12 b13 w14 b15 p).sgPre Forms.direct j := by
    rw [h35]
    unfold Row.sgPre
    refine congrArg₂ (· + ·) (congrArg₂ (· + ·) rfl (Finset.sum_congr rfl fun k _ => ?_)) rfl
    rw [h25]; rfl
  rw [mulf_apply, select_apply, cmpf_apply, mulf_apply, broadcast_apply, broadcast_apply, broadcastTo_1b_ab_apply,
    addf_apply, addf_apply, matmulS_at, broadcastTo_1b_ab_apply, hpre]
  rfl

/-- The threshold's pre-activation of row p, from any cell-term block that is row p's. -/
theorem pay16_at (v36 : FVec Ideal S256x256 .f32) (h36 : ∀ j, v36 (ix2 p j) = dot (blockRow x0 x1 x2 x3 w4 w5 b6 w7 b8 b9 w10 b11 w12 b13 w14 b15 p).c ((blockRow x0 x1 x2 x3 w4 w5 b6 w7 b8 b9 w10 b11 w12 b13 w14 b15 p).Wtp j)) :
    k0_pay16 (F := Ideal) v36 b9 w14 b15 (ix2 p (0 : Fin 1))
      = (∑ j, lrelu ((blockRow x0 x1 x2 x3 w4 w5 b6 w7 b8 b9 w10 b11 w12 b13 w14 b15 p).tgPre j) * (blockRow x0 x1 x2 x3 w4 w5 b6 w7 b8 b9 w10 b11 w12 b13 w14 b15 p).wto j) + (blockRow x0 x1 x2 x3 w4 w5 b6 w7 b8 b9 w10 b11 w12 b13 w14 b15 p).bto := by
  unfold k0_pay16
  simp only [shapeCast_self]
  rw [addf_apply, LibKeepdims.shapeCast_a_a1_apply, broadcastTo_1b_ab_apply]
  refine congrArg₂ (· + ·) ((LibReduceRead.laneSum_apply _ _ _ _ _ p).trans (Finset.sum_congr rfl fun j _ => ?_)) rfl
  have hpre : v36 (ix2 p j) + b9 (ix2 (0 : Fin 1) j) = (blockRow x0 x1 x2 x3 w4 w5 b6 w7 b8 b9 w10 b11 w12 b13 w14 b15 p).tgPre j := by
    rw [h36]; rfl
  rw [mulf_apply, select_apply, cmpf_apply, mulf_apply, broadcast_apply, broadcast_apply, broadcastTo_1b_ab_apply,
    addf_apply, broadcastTo_1b_ab_apply, hpre]
  rfl

/-- The update probability of row p. -/
theorem pay1_at (v67 : FVec Ideal S256x1 .f32) (h67 : v67 (ix2 p (0 : Fin 1)) = (blockRow x0 x1 x2 x3 w4 w5 b6 w7 b8 b9 w10 b11 w12 b13 w14 b15 p).delta Forms.direct) :
    k0_pay1 (F := Ideal) x3 v67 (ix2 p (0 : Fin 1)) = (blockRow x0 x1 x2 x3 w4 w5 b6 w7 b8 b9 w10 b11 w12 b13 w14 b15 p).prob Forms.direct := by
  unfold k0_pay1
  rw [addf_apply, minimumf_apply, subf_apply, broadcast_apply, h67]
  rfl

/-- The indicator of row p: the gate used, in the direct spelling. -/
theorem pay2_at (v67 v76 : FVec Ideal S256x1 .f32) (h67 : v67 (ix2 p (0 : Fin 1)) = (blockRow x0 x1 x2 x3 w4 w5 b6 w7 b8 b9 w10 b11 w12 b13 w14 b15 p).delta Forms.direct)
    (h76 : v76 (ix2 p (0 : Fin 1)) = (∑ j, lrelu ((blockRow x0 x1 x2 x3 w4 w5 b6 w7 b8 b9 w10 b11 w12 b13 w14 b15 p).tgPre j) * (blockRow x0 x1 x2 x3 w4 w5 b6 w7 b8 b9 w10 b11 w12 b13 w14 b15 p).wto j) + (blockRow x0 x1 x2 x3 w4 w5 b6 w7 b8 b9 w10 b11 w12 b13 w14 b15 p).bto) :
    k0_pay2 (F := Ideal) x3 v67 v76 (ix2 p (0 : Fin 1)) = (blockRow x0 x1 x2 x3 w4 w5 b6 w7 b8 b9 w10 b11 w12 b13 w14 b15 p).ugate Forms.direct := by
  unfold k0_pay2
  rw [sitofp_apply, extui_apply, cmpf_apply, logistic_at, pay1_at x0 x1 x2 x3 w4 w5 b6 w7 b8 b9 w10 b11 w12 b13 w14 b15 p v67 h67, h76]
  rfl

/-- The indicator spread over the 512 lanes. -/
theorem pay3_at (v67 v76 : FVec Ideal S256x1 .f32) (h67 : v67 (ix2 p (0 : Fin 1)) = (blockRow x0 x1 x2 x3 w4 w5 b6 w7 b8 b9 w10 b11 w12 b13 w14 b15 p).delta Forms.direct)
    (h76 : v76 (ix2 p (0 : Fin 1)) = (∑ j, lrelu ((blockRow x0 x1 x2 x3 w4 w5 b6 w7 b8 b9 w10 b11 w12 b13 w14 b15 p).tgPre j) * (blockRow x0 x1 x2 x3 w4 w5 b6 w7 b8 b9 w10 b11 w12 b13 w14 b15 p).wto j) + (blockRow x0 x1 x2 x3 w4 w5 b6 w7 b8 b9 w10 b11 w12 b13 w14 b15 p).bto) (q : Fin 512) :
    k0_pay3 (F := Ideal) x3 v67 v76 (ix2 p q) = (blockRow x0 x1 x2 x3 w4 w5 b6 w7 b8 b9 w10 b11 w12 b13 w14 b15 p).ugate Forms.direct := by
  unfold k0_pay3
  rw [LibKeepdims.broadcastTo_a1_ab_apply, shapeCast_self, pay2_at x0 x1 x2 x3 w4 w5 b6 w7 b8 b9 w10 b11 w12 b13 w14 b15 p v67 v76 h67 h76]

/-- The new hidden state of row p. -/
theorem pay4_at (v2 v27 : FVec Ideal S256x512 .f32) (v67 v76 : FVec Ideal S256x1 .f32)
    (h2 : ∀ q, v2 (ix2 p q) = (blockRow x0 x1 x2 x3 w4 w5 b6 w7 b8 b9 w10 b11 w12 b13 w14 b15 p).h q) (h27 : ∀ q, v27 (ix2 p q) = (blockRow x0 x1 x2 x3 w4 w5 b6 w7 b8 b9 w10 b11 w12 b13 w14 b15 p).h1 Forms.direct q)
    (h67 : v67 (ix2 p (0 : Fin 1)) = (blockRow x0 x1 x2 x3 w4 w5 b6 w7 b8 b9 w10 b11 w12 b13 w14 b15 p).delta Forms.direct)
    (h76 : v76 (ix2 p (0 : Fin 1)) = (∑ j, lrelu ((blockRow x0 x1 x2 x3 w4 w5 b6 w7 b8 b9 w10 b11 w12 b13 w14 b15 p).tgPre j) * (blockRow x0 x1 x2 x3 w4 w5 b6 w7 b8 b9 w10 b11 w12 b13 w14 b15 p).wto j) + (blockRow x0 x1 x2 x3 w4 w5 b6 w7 b8 b9 w10 b11 w12 b13 w14 b15 p).bto) (q : Fin 512) :
    k0_pay4 (F := Ideal) v2 x3 v27 v67 v76 (ix2 p q) = (blockRow x0 x1 x2 x3 w4 w5 b6 w7 b8 b9 w10 b11 w12 b13 w14 b15 p).newH Forms.direct q := by
  unfold k0_pay4
  rw [addf_apply, mulf_apply, mulf_apply, subf_apply, broadcast_apply, pay3_at x0 x1 x2 x3 w4 w5 b6 w7 b8 b9 w10 b11 w12 b13 w14 b15 p v67 v76 h67 h76, h2, h27]
  rfl

/-- The new cell state of row p. -/
theorem pay5_at (v4 v25 : FVec Ideal S256x512 .f32) (v67 v76 : FVec Ideal S256x1 .f32)
    (h4 : ∀ q, v4 (ix2 p q) = (blockRow x0 x1 x2 x3 w4 w5 b6 w7 b8 b9 w10 b11 w12 b13 w14 b15 p).c q) (h25 : ∀ q, v25 (ix2 p q) = (blockRow x0 x1 x2 x3 w4 w5 b6 w7 b8 b9 w10 b11 w12 b13 w14 b15 p).c1 Forms.direct q)
    (h67 : v67 (ix2 p (0 : Fin 1)) = (blockRow x0 x1 x2 x3 w4 w5 b6 w7 b8 b9 w10 b11 w12 b13 w14 b15 p).delta Forms.direct)
    (h76 : v76 (ix2 p (0 : Fin 1)) = (∑ j, lrelu ((blockRow x0 x1 x2 x3 w4 w5 b6 w7 b8 b9 w10 b11 w12 b13 w14 b15 p).tgPre j) * (blockRow x0 x1 x2 x3 w4 w5 b6 w7 b8 b9 w10 b11 w12 b13 w14 b15 p).wto j) + (blockRow x0 x1 x2 x3 w4 w5 b6 w7 b8 b9 w10 b11 w12 b13 w14 b15 p).bto) (q : Fin 512) :
    k0_pay5 (F := Ideal) v4 x3 v25 v67 v76 (ix2 p q) = (blockRow x0 x1 x2 x3 w4 w5 b6 w7 b8 b9 w10 b11 w12 b13 w14 b15 p).newC Forms.direct q := by
  unfold k0_pay5
  rw [addf_apply, mulf_apply, mulf_apply, subf_apply, broadcast_apply, pay3_at x0 x1 x2 x3 w4 w5 b6 w7 b8 b9 w10 b11 w12 b13 w14 b15 p v67 v76 h67 h76, h4, h25]
  rfl

/-- The new cumulative probability of row p. -/
theorem pay6_at (v67 v76 : FVec Ideal S256x1 .f32) (h67 : v67 (ix2 p (0 : Fin 1)) = (blockRow x0 x1 x2 x3 w4 w5 b6 w7 b8 b9 w10 b11 w12 b13 w14 b15 p).delta Forms.direct)
    (h76 : v76 (ix2 p (0 : Fin 1)) = (∑ j, lrelu ((blockRow x0 x1 x2 x3 w4 w5 b6 w7 b8 b9 w10 b11 w12 b13 w14 b15 p).tgPre j) * (blockRow x0 x1 x2 x3 w4 w5 b6 w7 b8 b9 w10 b11 w12 b13 w14 b15 p).wto j) + (blockRow x0 x1 x2 x3 w4 w5 b6 w7 b8 b9 w10 b11 w12 b13 w14 b15 p).bto) :
    k0_pay6 (F := Ideal) x3 v67 v76 (ix2 p (0 : Fin 1)) = (blockRow x0 x1 x2 x3 w4 w5 b6 w7 b8 b9 w10 b11 w12 b13 w14 b15 p).newCum Forms.direct := by
  unfold k0_pay6
  rw [mulf_apply, subf_apply, broadcast_apply, pay2_at x0 x1 x2 x3 w4 w5 b6 w7 b8 b9 w10 b11 w12 b13 w14 b15 p v67 v76 h67 h76, pay1_at x0 x1 x2 x3 w4 w5 b6 w7 b8 b9 w10 b11 w12 b13 w14 b15 p v67 h67]
  rfl

end

end Cert.KernelIdeal.Body

end
-- ==== Proof.KerReads.lean ====
/-
  The blocks the body loads, as entries of the argument arrays.

  The grid has 64 points; point t stages rows 256·t … 256·t + 255 of the four row-blocked arrays (input, hidden,
  cell, cumulative probability) and every weight whole. Six of the staged arrays are not arguments but what the
  host lines before the call made of them: the hidden and cell arrays with their leading unit axis dropped, the two
  gate biases added and laid as a row, four bias vectors laid as rows, and the two first-layer matrices stacked.
  Reading each block at coordinates and each host line at an index gives the main fact: the record of row p of
  block t ('blockRow') is the record of batch row 256·t + p of the argument arrays over the summed bias.
-/
import proofs.«123674_j80513456930853_2_alg».proof.Proof.Gen.KernelIdeal.Frame
import proofs.«123674_j80513456930853_2_alg».proof.Proof.Spec
import proofs.«123674_j80513456930853_2_alg».proof.Proof.KerBody
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Cert.GatedLstm Idealize.ShloMosaic Idealize.ShloMosaic.ValueIdx Idealize.SL.Sem Cert.KernelIdeal.Body

variable (m : (ℓ : Loc nD τ sig) → Buf (Elt Ideal) ℓ)

/-- The eighteen argument arrays of core c as launched. -/
def kArgs (c : Dev nD) : Args where
  x := m ((c.tc : Thread nD τ).loc main_arg0)
  h0 := m ((c.tc : Thread nD τ).loc main_arg1)
  c0 := m ((c.tc : Thread nD τ).loc main_arg2)
  cum := m ((c.tc : Thread nD τ).loc main_arg3)
  Wih := m ((c.tc : Thread nD τ).loc main_arg4)
  Whh := m ((c.tc : Thread nD τ).loc main_arg5)
  bih := m ((c.tc : Thread nD τ).loc main_arg6)
  bhh := m ((c.tc : Thread nD τ).loc main_arg7)
  Wsp := m ((c.tc : Thread nD τ).loc main_arg8)
  bsp := m ((c.tc : Thread nD τ).loc main_arg9)
  Wsc := m ((c.tc : Thread nD τ).loc main_arg10)
  bsc := m ((c.tc : Thread nD τ).loc main_arg11)
  Wso := m ((c.tc : Thread nD τ).loc main_arg12)
  bso := m ((c.tc : Thread nD τ).loc main_arg13)
  Wtp := m ((c.tc : Thread nD τ).loc main_arg14)
  btp := m ((c.tc : Thread nD τ).loc main_arg15)
  Wto := m ((c.tc : Thread nD τ).loc main_arg16)
  bto := m ((c.tc : Thread nD τ).loc main_arg17)

/-- The grid has 64 points. -/
theorem t_lt (t : Fin cfg0.N) : t.val < 64 := lt_of_lt_of_eq t.isLt N_0

/-- The batch row that row p of block t is. -/
def rowOf (t : Fin cfg0.N) (p : Fin 256) : Fin 16384 := ⟨t.val * 256 + p.val, by have := t_lt t; have := p.isLt; omega⟩

/-! ## The printed index maps, decided over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)

/-! ## Each staged block at coordinates -/

theorem blk0_read (c : Dev nD) (t : Fin cfg0.N) (p : Fin 256) (k : Fin 512) :
    iblk m c 0 t (ix2 p k) = V m c main_arg0 (ix2 (rowOf t p) k) := by
  show V m c main_arg0 (((cfg0.win 0).blk t).view.emb (ix2 p k)) = V m c main_arg0 (ix2 (rowOf t p) k)
  refine congrArg (V m c main_arg0) (funext fun a => Fin.ext ?_)
  match a with
  | ⟨0, _⟩ => show win0_0.index t (0 : Fin 2) * 256 + 1 * p.val = t.val * 256 + p.val; rw [(idx0 t).1]; omega
  | ⟨1, _⟩ => show win0_0.index t (1 : Fin 2) * 512 + 1 * k.val = k.val; rw [(idx0 t).2]; omega

theorem blk1_read (c : Dev nD) (t : Fin cfg0.N) (p : Fin 256) (k : Fin 512) :
    iblk m c 1 t (ix2 p k) = V m c main_v0 (ix2 (rowOf t p) k) := by
  show V m c main_v0 (((cfg0.win 1).blk t).view.emb (ix2 p k)) = V m c main_v0 (ix2 (rowOf t p) k)
  refine congrArg (V m c main_v0) (funext fun a => Fin.ext ?_)
  match a with
  | ⟨0, _⟩ => show win0_1.index t (0 : Fin 2) * 256 + 1 * p.val = t.val * 256 + p.val; rw [(idx1 t).1]; omega
  | ⟨1, _⟩ => show win0_1.index t (1 : Fin 2) * 512 + 1 * k.val = k.val; rw [(idx1 t).2]; omega

theorem blk2_read (c : Dev nD) (t : Fin cfg0.N) (p : Fin 256) (k : Fin 512) :
    iblk m c 2 t (ix2 p k) = V m c main_v1 (ix2 (rowOf t p) k) := by
  show V m c main_v1 (((cfg0.win 2).blk t).view.emb (ix2 p k)) = V m c main_v1 (ix2 (rowOf t p) k)
  refine congrArg (V m c main_v1) (funext fun a => Fin.ext ?_)
  match a with
  | ⟨0, _⟩ => show win0_2.index t (0 : Fin 2) * 256 + 1 * p.val = t.val * 256 + p.val; rw [(idx2 t).1]; omega
  | ⟨1, _⟩ => show win0_2.index t (1 : Fin 2) * 512 + 1 * k.val = k.val; rw [(idx2 t).2]; omega

theorem blk3_read (c : Dev nD) (t : Fin cfg0.N) (p : Fin 256) (k : Fin 1) :
    iblk m c 3 t (ix2 p k) = V m c main_arg3 (ix2 (rowOf t p) k) := by
  show V m c main_arg3 (((cfg0.win 3).blk t).view.emb (ix2 p k)) = V m c main_arg3 (ix2 (rowOf t p) k)
  refine congrArg (V m c main_arg3) (funext fun a => Fin.ext ?_)
  match a with
  | ⟨0, _⟩ => show win0_3.index t (0 : Fin 2) * 256 + 1 * p.val = t.val * 256 + p.val; rw [(idx3 t).1]; omega
  | ⟨1, _⟩ => show win0_3.index t (1 : Fin 2) * 1 + 1 * k.val = k.val; rw [(idx3 t).2]; omega

theorem blk4_read (c : Dev nD) (t : Fin cfg0.N) (j : Fin 2048) (k : Fin 512) :
    iblk m c 4 t (ix2 j k) = V m c main_arg4 (ix2 j k) := by
  show V m c main_arg4 (((cfg0.win 4).blk t).view.emb (ix2 j k)) = V m c main_arg4 (ix2 j k)
  refine congrArg (V m c main_arg4) (funext fun a => Fin.ext ?_)
  match a with
  | ⟨0, _⟩ => show win0_4.index t (0 : Fin 2) * 2048 + 1 * j.val = j.val; rw [(idx4 t).1]; omega
  | ⟨1, _⟩ => show win0_4.index t (1 : Fin 2) * 512 + 1 * k.val = k.val; rw [(idx4 t).2]; omega

theorem blk5_read (c : Dev nD) (t : Fin cfg0.N) (j : Fin 2048) (k : Fin 512) :
    iblk m c 5 t (ix2 j k) = V m c main_arg5 (ix2 j k) := by
  show V m c main_arg5 (((cfg0.win 5).blk t).view.emb (ix2 j k)) = V m c main_arg5 (ix2 j k)
  refine congrArg (V m c main_arg5) (funext fun a => Fin.ext ?_)
  match a with
  | ⟨0, _⟩ => show win0_5.index t (0 : Fin 2) * 2048 + 1 * j.val = j.val; rw [(idx5 t).1]; omega
  | ⟨1, _⟩ => show win0_5.index t (1 : Fin 2) * 512 + 1 * k.val = k.val; rw [(idx5 t).2]; omega

theorem blk6_read (c : Dev nD) (t : Fin cfg0.N) (j : Fin 1) (k : Fin 2048) :
    iblk m c 6 t (ix2 j k) = V m c main_v3 (ix2 j k) := by
  show V m c main_v3 (((cfg0.win 6).blk t).view.emb (ix2 j k)) = V m c main_v3 (ix2 j k)
  refine congrArg (V m c main_v3) (funext fun a => Fin.ext ?_)
  match a with
  | ⟨0, _⟩ => show win0_6.index t (0 : Fin 2) * 1 + 1 * j.val = j.val; rw [(idx6 t).1]; omega
  | ⟨1, _⟩ => show win0_6.index t (1 : Fin 2) * 2048 + 1 * k.val = k.val; rw [(idx6 t).2]; omega

theorem blk7_read (c : Dev nD) (t : Fin cfg0.N) (j : Fin 512) (k : Fin 512) :
    iblk m c 7 t (ix2 j k) = V m c main_v9 (ix2 j k) := by
  show V m c main_v9 (((cfg0.win 7).blk t).view.emb (ix2 j k)) = V m c main_v9 (ix2 j k)
  refine congrArg (V m c main_v9) (funext fun a => Fin.ext ?_)
  match a with
  | ⟨0, _⟩ => show win0_7.index t (0 : Fin 2) * 512 + 1 * j.val = j.val; rw [(idx7 t).1]; omega
  | ⟨1, _⟩ => show win0_7.index t (1 : Fin 2) * 512 + 1 * k.val = k.val; rw [(idx7 t).2]; omega

theorem blk8_read (c : Dev nD) (t : Fin cfg0.N) (j : Fin 1) (k : Fin 256) :
    iblk m c 8 t (ix2 j k) = V m c main_v4 (ix2 j k) := by
  show V m c main_v4 (((cfg0.win 8).blk t).view.emb (ix2 j k)) = V m c main_v4 (ix2 j k)
  refine congrArg (V m c main_v4) (funext fun a => Fin.ext ?_)
  match a with
  | ⟨0, _⟩ => show win0_8.index t (0 : Fin 2) * 1 + 1 * j.val = j.val; rw [(idx8 t).1]; omega
  | ⟨1, _⟩ => show win0_8.index t (1 : Fin 2) * 256 + 1 * k.val = k.val; rw [(idx8 t).2]; omega

theorem blk9_read (c : Dev nD) (t : Fin cfg0.N) (j : Fin 1) (k : Fin 256) :
    iblk m c 9 t (ix2 j k) = V m c main_v6 (ix2 j k) := by
  show V m c main_v6 (((cfg0.win 9).blk t).view.emb (ix2 j k)) = V m c main_v6 (ix2 j k)
  refine congrArg (V m c main_v6) (funext fun a => Fin.ext ?_)
  match a with
  | ⟨0, _⟩ => show win0_9.index t (0 : Fin 2) * 1 + 1 * j.val = j.val; rw [(idx9 t).1]; omega
  | ⟨1, _⟩ => show win0_9.index t (1 : Fin 2) * 256 + 1 * k.val = k.val; rw [(idx9 t).2]; omega

theorem blk10_read (c : Dev nD) (t : Fin cfg0.N) (j : Fin 256) (k : Fin 512) :
    iblk m c 10 t (ix2 j k) = V m c main_arg10 (ix2 j k) := by
  show V m c main_arg10 (((cfg0.win 10).blk t).view.emb (ix2 j k)) = V m c main_arg10 (ix2 j k)
  refine congrArg (V m c main_arg10) (funext fun a => Fin.ext ?_)
  match a with
  | ⟨0, _⟩ => show win0_10.index t (0 : Fin 2) * 256 + 1 * j.val = j.val; rw [(idx10 t).1]; omega
  | ⟨1, _⟩ => show win0_10.index t (1 : Fin 2) * 512 + 1 * k.val = k.val; rw [(idx10 t).2]; omega

theorem blk11_read (c : Dev nD) (t : Fin cfg0.N) (j : Fin 1) (k : Fin 256) :
    iblk m c 11 t (ix2 j k) = V m c main_v5 (ix2 j k) := by
  show V m c main_v5 (((cfg0.win 11).blk t).view.emb (ix2 j k)) = V m c main_v5 (ix2 j k)
  refine congrArg (V m c main_v5) (funext fun a => Fin.ext ?_)
  match a with
  | ⟨0, _⟩ => show win0_11.index t (0 : Fin 2) * 1 + 1 * j.val = j.val; rw [(idx11 t).1]; omega
  | ⟨1, _⟩ => show win0_11.index t (1 : Fin 2) * 256 + 1 * k.val = k.val; rw [(idx11 t).2]; omega

theorem blk12_read (c : Dev nD) (t : Fin cfg0.N) (j : Fin 1) (k : Fin 256) :
    iblk m c 12 t (ix2 j k) = V m c main_arg12 (ix2 j k) := by
  show V m c main_arg12 (((cfg0.win 12).blk t).view.emb (ix2 j k)) = V m c main_arg12 (ix2 j k)
  refine congrArg (V m c main_arg12) (funext fun a => Fin.ext ?_)
  match a with
  | ⟨0, _⟩ => show win0_12.index t (0 : Fin 2) * 1 + 1 * j.val = j.val; rw [(idx12 t).1]; omega
  | ⟨1, _⟩ => show win0_12.index t (1 : Fin 2) * 256 + 1 * k.val = k.val; rw [(idx12 t).2]; omega

theorem blk13_read (c : Dev nD) (t : Fin cfg0.N) (j : Fin 1) (k : Fin 1) :
    iblk m c 13 t (ix2 j k) = V m c main_v7 (ix2 j k) := by
  show V m c main_v7 (((cfg0.win 13).blk t).view.emb (ix2 j k)) = V m c main_v7 (ix2 j k)
  refine congrArg (V m c main_v7) (funext fun a => Fin.ext ?_)
  match a with
  | ⟨0, _⟩ => show win0_13.index t (0 : Fin 2) * 1 + 1 * j.val = j.val; rw [(idx13 t).1]; omega
  | ⟨1, _⟩ => show win0_13.index t (1 : Fin 2) * 1 + 1 * k.val = k.val; rw [(idx13 t).2]; omega

theorem blk14_read (c : Dev nD) (t : Fin cfg0.N) (j : Fin 1) (k : Fin 256) :
    iblk m c 14 t (ix2 j k) = V m c main_arg16 (ix2 j k) := by
  show V m c main_arg16 (((cfg0.win 14).blk t).view.emb (ix2 j k)) = V m c main_arg16 (ix2 j k)
  refine congrArg (V m c main_arg16) (funext fun a => Fin.ext ?_)
  match a with
  | ⟨0, _⟩ => show win0_14.index t (0 : Fin 2) * 1 + 1 * j.val = j.val; rw [(idx14 t).1]; omega
  | ⟨1, _⟩ => show win0_14.index t (1 : Fin 2) * 256 + 1 * k.val = k.val; rw [(idx14 t).2]; omega

theorem blk15_read (c : Dev nD) (t : Fin cfg0.N) (j : Fin 1) (k : Fin 1) :
    iblk m c 15 t (ix2 j k) = V m c main_v8 (ix2 j k) := by
  show V m c main_v8 (((cfg0.win 15).blk t).view.emb (ix2 j k)) = V m c main_v8 (ix2 j k)
  refine congrArg (V m c main_v8) (funext fun a => Fin.ext ?_)
  match a with
  | ⟨0, _⟩ => show win0_15.index t (0 : Fin 2) * 1 + 1 * j.val = j.val; rw [(idx15 t).1]; omega
  | ⟨1, _⟩ => show win0_15.index t (1 : Fin 2) * 1 + 1 * k.val = k.val; rw [(idx15 t).2]; omega

/-! ## The staged arrays the host lines wrote -/

theorem V_v0 (c : Dev nD) (r : Fin 16384) (k : Fin 512) :
    V m c main_v0 (ix2 r k) = (kArgs m c).h0 (ix3 (0 : Fin 1) r k) := by
  have e : (V m c main_v0 : S16384x512.Idx → EReal) = shapeCast S16384x512 (kArgs m c).h0 shapeCasts_S1x16384x512_S16384x512 := by
    show StableHlo.after hostOps0 (fun b => m (c, b)) (Proc.devRef .tc main_v0) = _
    after_results
    rfl
  rw [e]
  rw [shapeCast_1ab_ab_apply]

theorem V_v1 (c : Dev nD) (r : Fin 16384) (k : Fin 512) :
    V m c main_v1 (ix2 r k) = (kArgs m c).c0 (ix3 (0 : Fin 1) r k) := by
  have e : (V m c main_v1 : S16384x512.Idx → EReal) = shapeCast S16384x512 (kArgs m c).c0 shapeCasts_S1x16384x512_S16384x512 := by
    show StableHlo.after hostOps0 (fun b => m (c, b)) (Proc.devRef .tc main_v1) = _
    after_results
    rfl
  rw [e]
  rw [shapeCast_1ab_ab_apply]

theorem V_v3 (c : Dev nD) (j : Fin 2048) :
    V m c main_v3 (ix2 (0 : Fin 1) j) = (kArgs m c).bih (ix1 j) + (kArgs m c).bhh (ix1 j) := by
  have e : (V m c main_v3 : S1x2048.Idx → EReal) = shapeCast S1x2048 (addf (F := Ideal) (s := S2048) (φ := .f32) (kArgs m c).bih (kArgs m c).bhh) shapeCasts_S2048_S1x2048 := by
    show StableHlo.after hostOps0 (fun b => m (c, b)) (Proc.devRef .tc main_v3) = _
    after_results
    rfl
  rw [e]
  rw [shapeCast_a_1a_apply]; rfl

theorem V_v4 (c : Dev nD) (j : Fin 256) :
    V m c main_v4 (ix2 (0 : Fin 1) j) = (kArgs m c).bsp (ix1 j) := by
  have e : (V m c main_v4 : S1x256.Idx → EReal) = shapeCast S1x256 (kArgs m c).bsp shapeCasts_S256_S1x256 := by
    show StableHlo.after hostOps0 (fun b => m (c, b)) (Proc.devRef .tc main_v4) = _
    after_results
    rfl
  rw [e]
  rw [shapeCast_a_1a_apply]

theorem V_v5 (c : Dev nD) (j : Fin 256) :
    V m c main_v5 (ix2 (0 : Fin 1) j) = (kArgs m c).bsc (ix1 j) := by
  have e : (V m c main_v5 : S1x256.Idx → EReal) = shapeCast S1x256 (kArgs m c).bsc shapeCasts_S256_S1x256 := by
    show StableHlo.after hostOps0 (fun b => m (c, b)) (Proc.devRef .tc main_v5) = _
    after_results
    rfl
  rw [e]
  rw [shapeCast_a_1a_apply]

theorem V_v6 (c : Dev nD) (j : Fin 256) :
    V m c main_v6 (ix2 (0 : Fin 1) j) = (kArgs m c).btp (ix1 j) := by
  have e : (V m c main_v6 : S1x256.Idx → EReal) = shapeCast S1x256 (kArgs m c).btp shapeCasts_S256_S1x256 := by
    show StableHlo.after hostOps0 (fun b => m (c, b)) (Proc.devRef .tc main_v6) = _
    after_results
    rfl
  rw [e]
  rw [shapeCast_a_1a_apply]

theorem V_v7 (c : Dev nD)  :
    V m c main_v7 (ix2 (0 : Fin 1) (0 : Fin 1)) = (kArgs m c).bso (ix1 (0 : Fin 1)) := by
  have e : (V m c main_v7 : S1x1.Idx → EReal) = shapeCast S1x1 (kArgs m c).bso shapeCasts_S1_S1x1 := by
    show StableHlo.after hostOps0 (fun b => m (c, b)) (Proc.devRef .tc main_v7) = _
    after_results
    rfl
  rw [e]
  rw [shapeCast_a_1a_apply]

theorem V_v8 (c : Dev nD)  :
    V m c main_v8 (ix2 (0 : Fin 1) (0 : Fin 1)) = (kArgs m c).bto (ix1 (0 : Fin 1)) := by
  have e : (V m c main_v8 : S1x1.Idx → EReal) = shapeCast S1x1 (kArgs m c).bto shapeCasts_S1_S1x1 := by
    show StableHlo.after hostOps0 (fun b => m (c, b)) (Proc.devRef .tc main_v8) = _
    after_results
    rfl
  rw [e]
  rw [shapeCast_a_1a_apply]

/-- The two first-layer matrices stacked: what the region finds. -/
theorem V_v9_eq (c : Dev nD) : (V m c main_v9 : S512x512.Idx → EReal)
    = concatenate S512x512 0 [⟨S256x512, (kArgs m c).Wsp⟩, ⟨S256x512, (kArgs m c).Wtp⟩] concatenates_S256x512_S256x512_S512x512_d0 := by
  show StableHlo.after hostOps0 (fun b => m (c, b)) (Proc.devRef .tc main_v9) = _
  after_results
  rfl

/-- Rows 0 … 255 of the stack are the skip network's first layer. -/
theorem V_v9_lo (c : Dev nD) (j : Fin 256) (k : Fin 512) :
    V m c main_v9 (ix2 (lo j) k) = (kArgs m c).Wsp (ix2 j k) := by
  rw [V_v9_eq]
  exact concatenate_pair_apply_left (0 : Fin 2) (kArgs m c).Wsp (kArgs m c).Wtp concatenates_S256x512_S256x512_S512x512_d0 (ix2 (lo j) k) rfl (ix2 j k) (fun b => by
    match b with
    | ⟨0, _⟩ => rfl
    | ⟨1, _⟩ => rfl)

/-- Rows 256 … 511 are the threshold network's first layer. -/
theorem V_v9_hi (c : Dev nD) (j : Fin 256) (k : Fin 512) :
    V m c main_v9 (ix2 (hi j) k) = (kArgs m c).Wtp (ix2 j k) := by
  rw [V_v9_eq]
  exact concatenate_pair_apply_right (0 : Fin 2) (kArgs m c).Wsp (kArgs m c).Wtp concatenates_S256x512_S256x512_S512x512_d0 (ix2 (hi j) k) rfl rfl (ix2 j k) (fun b hb => by
    match b with
    | ⟨0, _⟩ => exact absurd rfl hb
    | ⟨1, _⟩ => rfl) rfl

/-! ## Each staged block as entries of the argument arrays -/

theorem rd0 (c : Dev nD) (t : Fin cfg0.N) (p : Fin 256) (k : Fin 512) :
    iblk m c 0 t (ix2 p k) = (kArgs m c).x (ix2 (rowOf t p) k) :=
  (blk0_read m c t p k).trans (congrFun (V_main_arg0 m c) _)
theorem rd1 (c : Dev nD) (t : Fin cfg0.N) (p : Fin 256) (k : Fin 512) :
    iblk m c 1 t (ix2 p k) = (kArgs m c).h0 (ix3 (0 : Fin 1) (rowOf t p) k) :=
  (blk1_read m c t p k).trans (V_v0 m c _ _)
theorem rd2 (c : Dev nD) (t : Fin cfg0.N) (p : Fin 256) (k : Fin 512) :
    iblk m c 2 t (ix2 p k) = (kArgs m c).c0 (ix3 (0 : Fin 1) (rowOf t p) k) :=
  (blk2_read m c t p k).trans (V_v1 m c _ _)
theorem rd3 (c : Dev nD) (t : Fin cfg0.N) (p : Fin 256) (u : Fin 1) :
    iblk m c 3 t (ix2 p u) = (kArgs m c).cum (ix2 (rowOf t p) u) :=
  (blk3_read m c t p u).trans (congrFun (V_main_arg3 m c) _)
theorem rd4 (c : Dev nD) (t : Fin cfg0.N) (j : Fin 2048) (k : Fin 512) :
    iblk m c 4 t (ix2 j k) = (kArgs m c).Wih (ix2 j k) :=
  (blk4_read m c t j k).trans (congrFun (V_main_arg4 m c) _)
theorem rd5 (c : Dev nD) (t : Fin cfg0.N) (j : Fin 2048) (k : Fin 512) :
    iblk m c 5 t (ix2 j k) = (kArgs m c).Whh (ix2 j k) :=
  (blk5_read m c t j k).trans (congrFun (V_main_arg5 m c) _)
theorem rd6 (c : Dev nD) (t : Fin cfg0.N) (j : Fin 2048) :
    iblk m c 6 t (ix2 (0 : Fin 1) j) = (kArgs m c).bih (ix1 j) + (kArgs m c).bhh (ix1 j) :=
  (blk6_read m c t 0 j).trans (V_v3 m c j)
theorem rd7lo (c : Dev nD) (t : Fin cfg0.N) (j : Fin 256) (k : Fin 512) :
    iblk m c 7 t (ix2 (lo j) k) = (kArgs m c).Wsp (ix2 j k) :=
  (blk7_read m c t (lo j) k).trans (V_v9_lo m c j k)
theorem rd7hi (c : Dev nD) (t : Fin cfg0.N) (j : Fin 256) (k : Fin 512) :
    iblk m c 7 t (ix2 (hi j) k) = (kArgs m c).Wtp (ix2 j k) :=
  (blk7_read m c t (hi j) k).trans (V_v9_hi m c j k)
theorem rd8 (c : Dev nD) (t : Fin cfg0.N) (j : Fin 256) :
    iblk m c 8 t (ix2 (0 : Fin 1) j) = (kArgs m c).bsp (ix1 j) :=
  (blk8_read m c t 0 j).trans (V_v4 m c j)
theorem rd9 (c : Dev nD) (t : Fin cfg0.N) (j : Fin 256) :
    iblk m c 9 t (ix2 (0 : Fin 1) j) = (kArgs m c).btp (ix1 j) :=
  (blk9_read m c t 0 j).trans (V_v6 m c j)
theorem rd10 (c : Dev nD) (t : Fin cfg0.N) (j : Fin 256) (k : Fin 512) :
    iblk m c 10 t (ix2 j k) = (kArgs m c).Wsc (ix2 j k) :=
  (blk10_read m c t j k).trans (congrFun (V_main_arg10 m c) _)
theorem rd11 (c : Dev nD) (t : Fin cfg0.N) (j : Fin 256) :
    iblk m c 11 t (ix2 (0 : Fin 1) j) = (kArgs m c).bsc (ix1 j) :=
  (blk11_read m c t 0 j).trans (V_v5 m c j)
theorem rd12 (c : Dev nD) (t : Fin cfg0.N) (j : Fin 256) :
    iblk m c 12 t (ix2 (0 : Fin 1) j) = (kArgs m c).Wso (ix2 (0 : Fin 1) j) :=
  (blk12_read m c t 0 j).trans (congrFun (V_main_arg12 m c) _)
theorem rd13 (c : Dev nD) (t : Fin cfg0.N) :
    iblk m c 13 t (ix2 (0 : Fin 1) (0 : Fin 1)) = (kArgs m c).bso (ix1 (0 : Fin 1)) :=
  (blk13_read m c t 0 0).trans (V_v7 m c)
theorem rd14 (c : Dev nD) (t : Fin cfg0.N) (j : Fin 256) :
    iblk m c 14 t (ix2 (0 : Fin 1) j) = (kArgs m c).Wto (ix2 (0 : Fin 1) j) :=
  (blk14_read m c t 0 j).trans (congrFun (V_main_arg16 m c) _)
theorem rd15 (c : Dev nD) (t : Fin cfg0.N) :
    iblk m c 15 t (ix2 (0 : Fin 1) (0 : Fin 1)) = (kArgs m c).bto (ix1 (0 : Fin 1)) :=
  (blk15_read m c t 0 0).trans (V_v8 m c)

/-! ## Row p of block t is batch row 256·t + p -/

/-- Two row records with equal fields are equal. -/
theorem row_eq_of_fields (R R' : Row) (h1 : R.gate = R'.gate) (h2 : R.h = R'.h) (h3 : R.c = R'.c) (h4 : R.cum = R'.cum)
    (h5 : R.Wsp = R'.Wsp) (h6 : R.bsp = R'.bsp) (h7 : R.Wsc = R'.Wsc) (h8 : R.bsc = R'.bsc) (h9 : R.wso = R'.wso)
    (h10 : R.bso = R'.bso) (h11 : R.Wtp = R'.Wtp) (h12 : R.btp = R'.btp) (h13 : R.wto = R'.wto) (h14 : R.bto = R'.bto) : R = R' := by
  cases R; cases R'
  simp only at h1 h2 h3 h4 h5 h6 h7 h8 h9 h10 h11 h12 h13 h14
  subst h1 h2 h3 h4 h5 h6 h7 h8 h9 h10 h11 h12 h13 h14
  rfl

set_option maxHeartbeats 2000000 in
theorem blockRow_eq (c : Dev nD) (t : Fin cfg0.N) (p : Fin 256) :
    blockRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p = (kArgs m c).row gateSummed (rowOf t p) := by
  apply row_eq_of_fields
  · funext j
    show dot (fun k => iblk m c 0 t (ix2 p k)) (fun k => iblk m c 4 t (ix2 j k)) + dot (fun k => iblk m c 1 t (ix2 p k)) (fun k => iblk m c 5 t (ix2 j k)) + iblk m c 6 t (ix2 (0 : Fin 1) j) = _
    simp only [rd0, rd1, rd4, rd5, rd6]
    rfl
  · funext k; exact rd1 m c t p k
  · funext k; exact rd2 m c t p k
  · exact rd3 m c t p 0
  · funext j k; exact rd7lo m c t j k
  · funext j; exact rd8 m c t j
  · funext j k; exact rd10 m c t j k
  · funext j; exact rd11 m c t j
  · funext j; exact rd12 m c t j
  · exact rd13 m c t
  · funext j k; exact rd7hi m c t j k
  · funext j; exact rd9 m c t j
  · funext j; exact rd14 m c t j
  · exact rd15 m c t

end Cert.KernelIdeal.Blocks

end
-- ==== Proof.KerOut.lean ====
/-
  What the body leaves in each of its five output blocks, at row p.

  The five stored values are compositions of the payloads of the body; composing the payload lemmas in the same
  order gives, for row p of the block: the new hidden row, the new cell row, the new cumulative probability, the
  probability increment and the update probability of 'blockRow … p' in the direct spelling.
-/
import proofs.«123674_j80513456930853_2_alg».proof.Proof.KerBody

noncomputable section

namespace Cert.KernelIdeal.Body

open Cert.KernelIdeal Cert.KernelIdeal.Gen Cert.GatedLstm Idealize.ShloMosaic Idealize.ShloMosaic.ValueIdx

section
variable (x0 x1 x2 : FVec Ideal S256x512 .f32) (x3 : FVec Ideal S256x1 .f32) (w4 w5 : FVec Ideal S2048x512 .f32)
    (b6 : FVec Ideal S1x2048 .f32) (w7 : FVec Ideal S512x512 .f32) (b8 b9 : FVec Ideal S1x256 .f32) (w10 : FVec Ideal S256x512 .f32)
    (b11 w12 : FVec Ideal S1x256 .f32) (b13 : FVec Ideal S1x1 .f32) (w14 : FVec Ideal S1x256 .f32) (b15 : FVec Ideal S1x1 .f32)
    (p : Fin 256)

/-- The hidden block as loaded is the row's hidden entries. -/
theorem pay7_at (q : Fin 512) : k0_pay7 (F := Ideal) x1 (ix2 p q) = (blockRow x0 x1 x2 x3 w4 w5 b6 w7 b8 b9 w10 b11 w12 b13 w14 b15 p).h q := by
  unfold k0_pay7; rw [shapeCast_self]; rfl
/-- The cell block as loaded is the row's cell entries. -/
theorem pay8_at (q : Fin 512) : k0_pay8 (F := Ideal) x2 (ix2 p q) = (blockRow x0 x1 x2 x3 w4 w5 b6 w7 b8 b9 w10 b11 w12 b13 w14 b15 p).c q := by
  unfold k0_pay8; rw [shapeCast_self]; rfl

/-- The first output block: the new hidden state. -/
theorem outH_at (q : Fin 512) :
    k0_pay4 (F := Ideal) (k0_pay7 (F := Ideal) x1) x3 (k0_pay11 (F := Ideal) x0 x1 x2 w4 w5 b6) (k0_pay15 (F := Ideal) (k0_pay10 (F := Ideal) x0 x1 x2 w4 w5 b6) (k0_pay13 (F := Ideal) x2 w7 b8) w10 b11 w12 b13) (k0_pay16 (F := Ideal) (k0_pay14 (F := Ideal) x2 w7) b9 w14 b15) (ix2 p q) = (blockRow x0 x1 x2 x3 w4 w5 b6 w7 b8 b9 w10 b11 w12 b13 w14 b15 p).newH Forms.direct q :=
  pay4_at x0 x1 x2 x3 w4 w5 b6 w7 b8 b9 w10 b11 w12 b13 w14 b15 p (k0_pay7 (F := Ideal) x1) (k0_pay11 (F := Ideal) x0 x1 x2 w4 w5 b6) (k0_pay15 (F := Ideal) (k0_pay10 (F := Ideal) x0 x1 x2 w4 w5 b6) (k0_pay13 (F := Ideal) x2 w7 b8) w10 b11 w12 b13) (k0_pay16 (F := Ideal) (k0_pay14 (F := Ideal) x2 w7) b9 w14 b15) (pay7_at x0 x1 x2 x3 w4 w5 b6 w7 b8 b9 w10 b11 w12 b13 w14 b15 p) (pay11_at x0 x1 x2 x3 w4 w5 b6 w7 b8 b9 w10 b11 w12 b13 w14 b15 p) (pay15_at x0 x1 x2 x3 w4 w5 b6 w7 b8 b9 w10 b11 w12 b13 w14 b15 p (k0_pay10 (F := Ideal) x0 x1 x2 w4 w5 b6) (k0_pay13 (F := Ideal) x2 w7 b8) (pay10_at x0 x1 x2 x3 w4 w5 b6 w7 b8 b9 w10 b11 w12 b13 w14 b15 p) (pay13_at x0 x1 x2 x3 w4 w5 b6 w7 b8 b9 w10 b11 w12 b13 w14 b15 p)) (pay16_at x0 x1 x2 x3 w4 w5 b6 w7 b8 b9 w10 b11 w12 b13 w14 b15 p (k0_pay14 (F := Ideal) x2 w7) (pay14_at x0 x1 x2 x3 w4 w5 b6 w7 b8 b9 w10 b11 w12 b13 w14 b15 p)) q

/-- The second output block: the new cell state. -/
theorem outC_at (q : Fin 512) :
    k0_pay5 (F := Ideal) (k0_pay8 (F := Ideal) x2) x3 (k0_pay10 (F := Ideal) x0 x1 x2 w4 w5 b6) (k0_pay15 (F := Ideal) (k0_pay10 (F := Ideal) x0 x1 x2 w4 w5 b6) (k0_pay13 (F := Ideal) x2 w7 b8) w10 b11 w12 b13) (k0_pay16 (F := Ideal) (k0_pay14 (F := Ideal) x2 w7) b9 w14 b15) (ix2 p q) = (blockRow x0 x1 x2 x3 w4 w5 b6 w7 b8 b9 w10 b11 w12 b13 w14 b15 p).newC Forms.direct q :=
  pay5_at x0 x1 x2 x3 w4 w5 b6 w7 b8 b9 w10 b11 w12 b13 w14 b15 p (k0_pay8 (F := Ideal) x2) (k0_pay10 (F := Ideal) x0 x1 x2 w4 w5 b6) (k0_pay15 (F := Ideal) (k0_pay10 (F := Ideal) x0 x1 x2 w4 w5 b6) (k0_pay13 (F := Ideal) x2 w7 b8) w10 b11 w12 b13) (k0_pay16 (F := Ideal) (k0_pay14 (F := Ideal) x2 w7) b9 w14 b15) (pay8_at x0 x1 x2 x3 w4 w5 b6 w7 b8 b9 w10 b11 w12 b13 w14 b15 p) (pay10_at x0 x1 x2 x3 w4 w5 b6 w7 b8 b9 w10 b11 w12 b13 w14 b15 p) (pay15_at x0 x1 x2 x3 w4 w5 b6 w7 b8 b9 w10 b11 w12 b13 w14 b15 p (k0_pay10 (F := Ideal) x0 x1 x2 w4 w5 b6) (k0_pay13 (F := Ideal) x2 w7 b8) (pay10_at x0 x1 x2 x3 w4 w5 b6 w7 b8 b9 w10 b11 w12 b13 w14 b15 p) (pay13_at x0 x1 x2 x3 w4 w5 b6 w7 b8 b9 w10 b11 w12 b13 w14 b15 p)) (pay16_at x0 x1 x2 x3 w4 w5 b6 w7 b8 b9 w10 b11 w12 b13 w14 b15 p (k0_pay14 (F := Ideal) x2 w7) (pay14_at x0 x1 x2 x3 w4 w5 b6 w7 b8 b9 w10 b11 w12 b13 w14 b15 p)) q

/-- The third output block: the new cumulative probability. -/
theorem outCum_at :
    k0_pay6 (F := Ideal) x3 (k0_pay15 (F := Ideal) (k0_pay10 (F := Ideal) x0 x1 x2 w4 w5 b6) (k0_pay13 (F := Ideal) x2 w7 b8) w10 b11 w12 b13) (k0_pay16 (F := Ideal) (k0_pay14 (F := Ideal) x2 w7) b9 w14 b15) (ix2 p (0 : Fin 1)) = (blockRow x0 x1 x2 x3 w4 w5 b6 w7 b8 b9 w10 b11 w12 b13 w14 b15 p).newCum Forms.direct :=
  pay6_at x0 x1 x2 x3 w4 w5 b6 w7 b8 b9 w10 b11 w12 b13 w14 b15 p (k0_pay15 (F := Ideal) (k0_pay10 (F := Ideal) x0 x1 x2 w4 w5 b6) (k0_pay13 (F := Ideal) x2 w7 b8) w10 b11 w12 b13) (k0_pay16 (F := Ideal) (k0_pay14 (F := Ideal) x2 w7) b9 w14 b15) (pay15_at x0 x1 x2 x3 w4 w5 b6 w7 b8 b9 w10 b11 w12 b13 w14 b15 p (k0_pay10 (F := Ideal) x0 x1 x2 w4 w5 b6) (k0_pay13 (F := Ideal) x2 w7 b8) (pay10_at x0 x1 x2 x3 w4 w5 b6 w7 b8 b9 w10 b11 w12 b13 w14 b15 p) (pay13_at x0 x1 x2 x3 w4 w5 b6 w7 b8 b9 w10 b11 w12 b13 w14 b15 p)) (pay16_at x0 x1 x2 x3 w4 w5 b6 w7 b8 b9 w10 b11 w12 b13 w14 b15 p (k0_pay14 (F := Ideal) x2 w7) (pay14_at x0 x1 x2 x3 w4 w5 b6 w7 b8 b9 w10 b11 w12 b13 w14 b15 p))

/-- The fourth output block: the probability increment. -/
theorem outDelta_at :
    k0_pay15 (F := Ideal) (k0_pay10 (F := Ideal) x0 x1 x2 w4 w5 b6) (k0_pay13 (F := Ideal) x2 w7 b8) w10 b11 w12 b13 (ix2 p (0 : Fin 1)) = (blockRow x0 x1 x2 x3 w4 w5 b6 w7 b8 b9 w10 b11 w12 b13 w14 b15 p).delta Forms.direct := (pay15_at x0 x1 x2 x3 w4 w5 b6 w7 b8 b9 w10 b11 w12 b13 w14 b15 p (k0_pay10 (F := Ideal) x0 x1 x2 w4 w5 b6) (k0_pay13 (F := Ideal) x2 w7 b8) (pay10_at x0 x1 x2 x3 w4 w5 b6 w7 b8 b9 w10 b11 w12 b13 w14 b15 p) (pay13_at x0 x1 x2 x3 w4 w5 b6 w7 b8 b9 w10 b11 w12 b13 w14 b15 p))

/-- The fifth output block: the update probability. -/
theorem outProb_at :
    k0_pay1 (F := Ideal) x3 (k0_pay15 (F := Ideal) (k0_pay10 (F := Ideal) x0 x1 x2 w4 w5 b6) (k0_pay13 (F := Ideal) x2 w7 b8) w10 b11 w12 b13) (ix2 p (0 : Fin 1)) = (blockRow x0 x1 x2 x3 w4 w5 b6 w7 b8 b9 w10 b11 w12 b13 w14 b15 p).prob Forms.direct :=
  pay1_at x0 x1 x2 x3 w4 w5 b6 w7 b8 b9 w10 b11 w12 b13 w14 b15 p (k0_pay15 (F := Ideal) (k0_pay10 (F := Ideal) x0 x1 x2 w4 w5 b6) (k0_pay13 (F := Ideal) x2 w7 b8) w10 b11 w12 b13) (pay15_at x0 x1 x2 x3 w4 w5 b6 w7 b8 b9 w10 b11 w12 b13 w14 b15 p (k0_pay10 (F := Ideal) x0 x1 x2 w4 w5 b6) (k0_pay13 (F := Ideal) x2 w7 b8) (pay10_at x0 x1 x2 x3 w4 w5 b6 w7 b8 b9 w10 b11 w12 b13 w14 b15 p) (pay13_at x0 x1 x2 x3 w4 w5 b6 w7 b8 b9 w10 b11 w12 b13 w14 b15 p))

end

end Cert.KernelIdeal.Body

end
-- ==== Proof.KerFinal.lean ====
/-
  From blocks to arrays: each of the kernel's five result arrays after the run, as one function of the arguments.

  Point t writes back rows 256·t … 256·t + 255 of each result, and row p of what it writes is the gated LSTM step
  of batch row 256·t + p (the body read at coordinates, and the block's record identified with the batch row's). So
  every flushed block is the restriction of ONE whole-array function of the arguments, the 64 blocks tile the
  16384 rows, and the array ends holding that function.
-/
import proofs.«123674_j80513456930853_2_alg».proof.Proof.KerReads
import proofs.«123674_j80513456930853_2_alg».proof.Proof.KerOut

noncomputable section

namespace Cert.KernelIdeal.Blocks

open Cert.KernelIdeal Cert.KernelIdeal.Gen Cert.GatedLstm Idealize.ShloMosaic Idealize.ShloMosaic.ValueIdx Idealize.SL.Sem Cert.KernelIdeal.Body Idealize.ShloMosaic.Pipeline

variable (m : (ℓ : Loc nD τ sig) → Buf (Elt Ideal) ℓ)

theorem hz : (![0, 0] : Fin 2 → Nat) = fun _ => 0 := funext fun a => by fin_cases a <;> rfl

/-- The new hidden state as the kernel writes it, [16384, 512]: before the host adds the leading unit axis. -/
def GH (A : Args) : S16384x512.Idx → EReal :=
  fun i => (A.row gateSummed ⟨(i 0).val, (i 0).isLt⟩).newH Forms.direct ⟨(i 1).val, (i 1).isLt⟩
/-- The new cell state as the kernel writes it, [16384, 512]. -/
def GC (A : Args) : S16384x512.Idx → EReal :=
  fun i => (A.row gateSummed ⟨(i 0).val, (i 0).isLt⟩).newC Forms.direct ⟨(i 1).val, (i 1).isLt⟩

/-! ## Output window 16 -/

theorem idx16 : ∀ t : Fin cfg0.N, win0_16.index t (0 : Fin 2) = t.val ∧ win0_16.index t (1 : Fin 2) = 0 :=
  (by decide +kernel : ∀ t : Fin grid0.N, _)

/-- Where entry (p, q) of block t sits in the array: row 256·t + p, the same column. -/
theorem emb16 (t : Fin cfg0.N) (p : Fin 256) (q : Fin 512) : ((cfg0.win 16).blk t).view.emb (ix2 p q) = ix2 (rowOf t p) q :=
  funext fun a => Fin.ext (by
    match a with
    | ⟨0, _⟩ => show win0_16.index t (0 : Fin 2) * 256 + 1 * p.val = t.val * 256 + p.val; rw [(idx16 t).1]; omega
    | ⟨1, _⟩ => show win0_16.index t (1 : Fin 2) * 512 + 1 * q.val = q.val; rw [(idx16 t).2]; omega)

/-- What point t writes back is block t of the result array's function of the arguments. -/
theorem flushed16_eq (c : Dev nD) (t : Fin cfg0.N) :
    (dats m 0 c).flushed 16 t = ((cfg0.win 16).blk t).view.read (Elt Ideal) (GH (kArgs m c)) := by
  show (cfg0.win 16).cut (grid0.coords t) ((dats m 0 c).after 16 t) = _
  rw [after0_16]
  unfold out0_16
  rw [View.canon_unit_zero hz]
  simp only [View.ld_unit_zero (S := S256x512) hz, View.ld_unit_zero (S := S256x1) hz, View.ld_unit_zero (S := S2048x512) hz, View.ld_unit_zero (S := S1x2048) hz, View.ld_unit_zero (S := S512x512) hz, View.ld_unit_zero (S := S1x256) hz, View.ld_unit_zero (S := S1x1) hz]
  funext y
  obtain ⟨p, q, rfl⟩ : ∃ (p : Fin 256) (q : Fin 512), y = ix2 p q := ⟨y 0, y 1, eq_ix2 y⟩
  refine (outH_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p q).trans ?_
  rw [blockRow_eq]
  show _ = (GH (kArgs m c)) (((cfg0.win 16).blk t).view.emb (ix2 p q))
  rw [emb16]
  rfl

/-- An index of the array is in point t's block iff each coordinate is in the block's range on its axis. -/
theorem mem_blk16 (t : Fin cfg0.N) (i : S16384x512.Idx) :
    i ∈ ((cfg0.win 16).blk t).view.set ↔ ∀ a : Fin 2, win0_16.index t a * S256x512.size a ≤ (i a).val ∧ (i a).val < win0_16.index t a * S256x512.size a + S256x512.size a := by
  show i ∈ ((View.whole main_v10_0).slice (win0_16.rect t)).set ↔ _
  rw [View.set_slice_whole, Rect.mem_set_unit]
  exact Iff.rfl

/-- Every index of the array is in the block of the point its row belongs to. -/
theorem cover16 (i : S16384x512.Idx) : ∃ t : Fin cfg0.N, (cfg0.win 16).flush t = true ∧ i ∈ ((cfg0.win 16).blk t).view.set := by
  have hi0 : (i 0).val < 16384 := (i 0).isLt
  have hi1 : (i 1).val < 512 := (i 1).isLt
  let t : Fin cfg0.N := ⟨(i 0).val / 256, by show _ < grid0.N; rw [N_0]; omega⟩
  have ht : t.val = (i 0).val / 256 := rfl
  refine ⟨t, flush0_16 t, ?_⟩
  rw [mem_blk16]
  intro a
  match a with
  | ⟨0, _⟩ =>
    show win0_16.index t (0 : Fin 2) * 256 ≤ (i 0).val ∧ (i 0).val < win0_16.index t (0 : Fin 2) * 256 + 256
    rw [(idx16 t).1, ht]; omega
  | ⟨1, _⟩ =>
    show win0_16.index t (1 : Fin 2) * 512 ≤ (i 1).val ∧ (i 1).val < win0_16.index t (1 : Fin 2) * 512 + 512
    rw [(idx16 t).2]; omega

/-- The array after the run. -/
theorem final16 (c : Dev nD) : (dats m 0 c).arrAt 16 cfg0.N = (GH (kArgs m c)) :=
  (dats m 0 c).arrAt_eq_of_cover 16 (GH (kArgs m c)) (fun t _ => flushed16_eq m c t) cover16

/-! ## Output window 17 -/

theorem idx17 : ∀ t : Fin cfg0.N, win0_17.index t (0 : Fin 2) = t.val ∧ win0_17.index t (1 : Fin 2) = 0 :=
  (by decide +kernel : ∀ t : Fin grid0.N, _)

/-- Where entry (p, q) of block t sits in the array: row 256·t + p, the same column. -/
theorem emb17 (t : Fin cfg0.N) (p : Fin 256) (q : Fin 512) : ((cfg0.win 17).blk t).view.emb (ix2 p q) = ix2 (rowOf t p) q :=
  funext fun a => Fin.ext (by
    match a with
    | ⟨0, _⟩ => show win0_17.index t (0 : Fin 2) * 256 + 1 * p.val = t.val * 256 + p.val; rw [(idx17 t).1]; omega
    | ⟨1, _⟩ => show win0_17.index t (1 : Fin 2) * 512 + 1 * q.val = q.val; rw [(idx17 t).2]; omega)

/-- What point t writes back is block t of the result array's function of the arguments. -/
theorem flushed17_eq (c : Dev nD) (t : Fin cfg0.N) :
    (dats m 0 c).flushed 17 t = ((cfg0.win 17).blk t).view.read (Elt Ideal) (GC (kArgs m c)) := by
  show (cfg0.win 17).cut (grid0.coords t) ((dats m 0 c).after 17 t) = _
  rw [after0_17]
  unfold out0_17
  rw [View.canon_unit_zero hz]
  simp only [View.ld_unit_zero (S := S256x512) hz, View.ld_unit_zero (S := S256x1) hz, View.ld_unit_zero (S := S2048x512) hz, View.ld_unit_zero (S := S1x2048) hz, View.ld_unit_zero (S := S512x512) hz, View.ld_unit_zero (S := S1x256) hz, View.ld_unit_zero (S := S1x1) hz]
  funext y
  obtain ⟨p, q, rfl⟩ : ∃ (p : Fin 256) (q : Fin 512), y = ix2 p q := ⟨y 0, y 1, eq_ix2 y⟩
  refine (outC_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p q).trans ?_
  rw [blockRow_eq]
  show _ = (GC (kArgs m c)) (((cfg0.win 17).blk t).view.emb (ix2 p q))
  rw [emb17]
  rfl

/-- An index of the array is in point t's block iff each coordinate is in the block's range on its axis. -/
theorem mem_blk17 (t : Fin cfg0.N) (i : S16384x512.Idx) :
    i ∈ ((cfg0.win 17).blk t).view.set ↔ ∀ a : Fin 2, win0_17.index t a * S256x512.size a ≤ (i a).val ∧ (i a).val < win0_17.index t a * S256x512.size a + S256x512.size a := by
  show i ∈ ((View.whole main_v10_1).slice (win0_17.rect t)).set ↔ _
  rw [View.set_slice_whole, Rect.mem_set_unit]
  exact Iff.rfl

/-- Every index of the array is in the block of the point its row belongs to. -/
theorem cover17 (i : S16384x512.Idx) : ∃ t : Fin cfg0.N, (cfg0.win 17).flush t = true ∧ i ∈ ((cfg0.win 17).blk t).view.set := by
  have hi0 : (i 0).val < 16384 := (i 0).isLt
  have hi1 : (i 1).val < 512 := (i 1).isLt
  let t : Fin cfg0.N := ⟨(i 0).val / 256, by show _ < grid0.N; rw [N_0]; omega⟩
  have ht : t.val = (i 0).val / 256 := rfl
  refine ⟨t, flush0_17 t, ?_⟩
  rw [mem_blk17]
  intro a
  match a with
  | ⟨0, _⟩ =>
    show win0_17.index t (0 : Fin 2) * 256 ≤ (i 0).val ∧ (i 0).val < win0_17.index t (0 : Fin 2) * 256 + 256
    rw [(idx17 t).1, ht]; omega
  | ⟨1, _⟩ =>
    show win0_17.index t (1 : Fin 2) * 512 ≤ (i 1).val ∧ (i 1).val < win0_17.index t (1 : Fin 2) * 512 + 512
    rw [(idx17 t).2]; omega

/-- The array after the run. -/
theorem final17 (c : Dev nD) : (dats m 0 c).arrAt 17 cfg0.N = (GC (kArgs m c)) :=
  (dats m 0 c).arrAt_eq_of_cover 17 (GC (kArgs m c)) (fun t _ => flushed17_eq m c t) cover17

/-! ## Output window 18 -/

theorem idx18 : ∀ t : Fin cfg0.N, win0_18.index t (0 : Fin 2) = t.val ∧ win0_18.index t (1 : Fin 2) = 0 :=
  (by decide +kernel : ∀ t : Fin grid0.N, _)

/-- Where entry (p, q) of block t sits in the array: row 256·t + p, the same column. -/
theorem emb18 (t : Fin cfg0.N) (p : Fin 256) (q : Fin 1) : ((cfg0.win 18).blk t).view.emb (ix2 p q) = ix2 (rowOf t p) q :=
  funext fun a => Fin.ext (by
    match a with
    | ⟨0, _⟩ => show win0_18.index t (0 : Fin 2) * 256 + 1 * p.val = t.val * 256 + p.val; rw [(idx18 t).1]; omega
    | ⟨1, _⟩ => show win0_18.index t (1 : Fin 2) * 1 + 1 * q.val = q.val; rw [(idx18 t).2]; omega)

/-- What point t writes back is block t of the result array's function of the arguments. -/
theorem flushed18_eq (c : Dev nD) (t : Fin cfg0.N) :
    (dats m 0 c).flushed 18 t = ((cfg0.win 18).blk t).view.read (Elt Ideal) (outCum Forms.direct ((kArgs m c).row gateSummed)) := by
  show (cfg0.win 18).cut (grid0.coords t) ((dats m 0 c).after 18 t) = _
  rw [after0_18]
  unfold out0_18
  rw [View.canon_unit_zero hz]
  simp only [View.ld_unit_zero (S := S256x512) hz, View.ld_unit_zero (S := S256x1) hz, View.ld_unit_zero (S := S2048x512) hz, View.ld_unit_zero (S := S1x2048) hz, View.ld_unit_zero (S := S512x512) hz, View.ld_unit_zero (S := S1x256) hz, View.ld_unit_zero (S := S1x1) hz]
  funext y
  obtain ⟨p, q, rfl⟩ : ∃ (p : Fin 256) (q : Fin 1), y = ix2 p q := ⟨y 0, y 1, eq_ix2 y⟩
  obtain rfl : q = 0 := Subsingleton.elim _ _
  refine (outCum_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p).trans ?_
  rw [blockRow_eq]
  show _ = (outCum Forms.direct ((kArgs m c).row gateSummed)) (((cfg0.win 18).blk t).view.emb (ix2 p (0 : Fin 1)))
  rw [emb18]
  rfl

/-- An index of the array is in point t's block iff each coordinate is in the block's range on its axis. -/
theorem mem_blk18 (t : Fin cfg0.N) (i : S16384x1.Idx) :
    i ∈ ((cfg0.win 18).blk t).view.set ↔ ∀ a : Fin 2, win0_18.index t a * S256x1.size a ≤ (i a).val ∧ (i a).val < win0_18.index t a * S256x1.size a + S256x1.size a := by
  show i ∈ ((View.whole main_v10_2).slice (win0_18.rect t)).set ↔ _
  rw [View.set_slice_whole, Rect.mem_set_unit]
  exact Iff.rfl

/-- Every index of the array is in the block of the point its row belongs to. -/
theorem cover18 (i : S16384x1.Idx) : ∃ t : Fin cfg0.N, (cfg0.win 18).flush t = true ∧ i ∈ ((cfg0.win 18).blk t).view.set := by
  have hi0 : (i 0).val < 16384 := (i 0).isLt
  have hi1 : (i 1).val < 1 := (i 1).isLt
  let t : Fin cfg0.N := ⟨(i 0).val / 256, by show _ < grid0.N; rw [N_0]; omega⟩
  have ht : t.val = (i 0).val / 256 := rfl
  refine ⟨t, flush0_18 t, ?_⟩
  rw [mem_blk18]
  intro a
  match a with
  | ⟨0, _⟩ =>
    show win0_18.index t (0 : Fin 2) * 256 ≤ (i 0).val ∧ (i 0).val < win0_18.index t (0 : Fin 2) * 256 + 256
    rw [(idx18 t).1, ht]; omega
  | ⟨1, _⟩ =>
    show win0_18.index t (1 : Fin 2) * 1 ≤ (i 1).val ∧ (i 1).val < win0_18.index t (1 : Fin 2) * 1 + 1
    rw [(idx18 t).2]; omega

/-- The array after the run. -/
theorem final18 (c : Dev nD) : (dats m 0 c).arrAt 18 cfg0.N = (outCum Forms.direct ((kArgs m c).row gateSummed)) :=
  (dats m 0 c).arrAt_eq_of_cover 18 (outCum Forms.direct ((kArgs m c).row gateSummed)) (fun t _ => flushed18_eq m c t) cover18

/-! ## Output window 19 -/

theorem idx19 : ∀ t : Fin cfg0.N, win0_19.index t (0 : Fin 2) = t.val ∧ win0_19.index t (1 : Fin 2) = 0 :=
  (by decide +kernel : ∀ t : Fin grid0.N, _)

/-- Where entry (p, q) of block t sits in the array: row 256·t + p, the same column. -/
theorem emb19 (t : Fin cfg0.N) (p : Fin 256) (q : Fin 1) : ((cfg0.win 19).blk t).view.emb (ix2 p q) = ix2 (rowOf t p) q :=
  funext fun a => Fin.ext (by
    match a with
    | ⟨0, _⟩ => show win0_19.index t (0 : Fin 2) * 256 + 1 * p.val = t.val * 256 + p.val; rw [(idx19 t).1]; omega
    | ⟨1, _⟩ => show win0_19.index t (1 : Fin 2) * 1 + 1 * q.val = q.val; rw [(idx19 t).2]; omega)

/-- What point t writes back is block t of the result array's function of the arguments. -/
theorem flushed19_eq (c : Dev nD) (t : Fin cfg0.N) :
    (dats m 0 c).flushed 19 t = ((cfg0.win 19).blk t).view.read (Elt Ideal) (outDelta Forms.direct ((kArgs m c).row gateSummed)) := by
  show (cfg0.win 19).cut (grid0.coords t) ((dats m 0 c).after 19 t) = _
  rw [after0_19]
  unfold out0_19
  rw [View.canon_unit_zero hz]
  simp only [View.ld_unit_zero (S := S256x512) hz, View.ld_unit_zero (S := S256x1) hz, View.ld_unit_zero (S := S2048x512) hz, View.ld_unit_zero (S := S1x2048) hz, View.ld_unit_zero (S := S512x512) hz, View.ld_unit_zero (S := S1x256) hz, View.ld_unit_zero (S := S1x1) hz]
  funext y
  obtain ⟨p, q, rfl⟩ : ∃ (p : Fin 256) (q : Fin 1), y = ix2 p q := ⟨y 0, y 1, eq_ix2 y⟩
  obtain rfl : q = 0 := Subsingleton.elim _ _
  refine (outDelta_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p).trans ?_
  rw [blockRow_eq]
  show _ = (outDelta Forms.direct ((kArgs m c).row gateSummed)) (((cfg0.win 19).blk t).view.emb (ix2 p (0 : Fin 1)))
  rw [emb19]
  rfl

/-- An index of the array is in point t's block iff each coordinate is in the block's range on its axis. -/
theorem mem_blk19 (t : Fin cfg0.N) (i : S16384x1.Idx) :
    i ∈ ((cfg0.win 19).blk t).view.set ↔ ∀ a : Fin 2, win0_19.index t a * S256x1.size a ≤ (i a).val ∧ (i a).val < win0_19.index t a * S256x1.size a + S256x1.size a := by
  show i ∈ ((View.whole main_v10_3).slice (win0_19.rect t)).set ↔ _
  rw [View.set_slice_whole, Rect.mem_set_unit]
  exact Iff.rfl

/-- Every index of the array is in the block of the point its row belongs to. -/
theorem cover19 (i : S16384x1.Idx) : ∃ t : Fin cfg0.N, (cfg0.win 19).flush t = true ∧ i ∈ ((cfg0.win 19).blk t).view.set := by
  have hi0 : (i 0).val < 16384 := (i 0).isLt
  have hi1 : (i 1).val < 1 := (i 1).isLt
  let t : Fin cfg0.N := ⟨(i 0).val / 256, by show _ < grid0.N; rw [N_0]; omega⟩
  have ht : t.val = (i 0).val / 256 := rfl
  refine ⟨t, flush0_19 t, ?_⟩
  rw [mem_blk19]
  intro a
  match a with
  | ⟨0, _⟩ =>
    show win0_19.index t (0 : Fin 2) * 256 ≤ (i 0).val ∧ (i 0).val < win0_19.index t (0 : Fin 2) * 256 + 256
    rw [(idx19 t).1, ht]; omega
  | ⟨1, _⟩ =>
    show win0_19.index t (1 : Fin 2) * 1 ≤ (i 1).val ∧ (i 1).val < win0_19.index t (1 : Fin 2) * 1 + 1
    rw [(idx19 t).2]; omega

/-- The array after the run. -/
theorem final19 (c : Dev nD) : (dats m 0 c).arrAt 19 cfg0.N = (outDelta Forms.direct ((kArgs m c).row gateSummed)) :=
  (dats m 0 c).arrAt_eq_of_cover 19 (outDelta Forms.direct ((kArgs m c).row gateSummed)) (fun t _ => flushed19_eq m c t) cover19

/-! ## Output window 20 -/

theorem idx20 : ∀ t : Fin cfg0.N, win0_20.index t (0 : Fin 2) = t.val ∧ win0_20.index t (1 : Fin 2) = 0 :=
  (by decide +kernel : ∀ t : Fin grid0.N, _)

/-- Where entry (p, q) of block t sits in the array: row 256·t + p, the same column. -/
theorem emb20 (t : Fin cfg0.N) (p : Fin 256) (q : Fin 1) : ((cfg0.win 20).blk t).view.emb (ix2 p q) = ix2 (rowOf t p) q :=
  funext fun a => Fin.ext (by
    match a with
    | ⟨0, _⟩ => show win0_20.index t (0 : Fin 2) * 256 + 1 * p.val = t.val * 256 + p.val; rw [(idx20 t).1]; omega
    | ⟨1, _⟩ => show win0_20.index t (1 : Fin 2) * 1 + 1 * q.val = q.val; rw [(idx20 t).2]; omega)

/-- What point t writes back is block t of the result array's function of the arguments. -/
theorem flushed20_eq (c : Dev nD) (t : Fin cfg0.N) :
    (dats m 0 c).flushed 20 t = ((cfg0.win 20).blk t).view.read (Elt Ideal) (outProb Forms.direct ((kArgs m c).row gateSummed)) := by
  show (cfg0.win 20).cut (grid0.coords t) ((dats m 0 c).after 20 t) = _
  rw [after0_20]
  unfold out0_20
  rw [View.canon_unit_zero hz]
  simp only [View.ld_unit_zero (S := S256x512) hz, View.ld_unit_zero (S := S256x1) hz, View.ld_unit_zero (S := S2048x512) hz, View.ld_unit_zero (S := S1x2048) hz, View.ld_unit_zero (S := S512x512) hz, View.ld_unit_zero (S := S1x256) hz, View.ld_unit_zero (S := S1x1) hz]
  funext y
  obtain ⟨p, q, rfl⟩ : ∃ (p : Fin 256) (q : Fin 1), y = ix2 p q := ⟨y 0, y 1, eq_ix2 y⟩
  obtain rfl : q = 0 := Subsingleton.elim _ _
  refine (outProb_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p).trans ?_
  rw [blockRow_eq]
  show _ = (outProb Forms.direct ((kArgs m c).row gateSummed)) (((cfg0.win 20).blk t).view.emb (ix2 p (0 : Fin 1)))
  rw [emb20]
  rfl

/-- An index of the array is in point t's block iff each coordinate is in the block's range on its axis. -/
theorem mem_blk20 (t : Fin cfg0.N) (i : S16384x1.Idx) :
    i ∈ ((cfg0.win 20).blk t).view.set ↔ ∀ a : Fin 2, win0_20.index t a * S256x1.size a ≤ (i a).val ∧ (i a).val < win0_20.index t a * S256x1.size a + S256x1.size a := by
  show i ∈ ((View.whole main_v10_4).slice (win0_20.rect t)).set ↔ _
  rw [View.set_slice_whole, Rect.mem_set_unit]
  exact Iff.rfl

/-- Every index of the array is in the block of the point its row belongs to. -/
theorem cover20 (i : S16384x1.Idx) : ∃ t : Fin cfg0.N, (cfg0.win 20).flush t = true ∧ i ∈ ((cfg0.win 20).blk t).view.set := by
  have hi0 : (i 0).val < 16384 := (i 0).isLt
  have hi1 : (i 1).val < 1 := (i 1).isLt
  let t : Fin cfg0.N := ⟨(i 0).val / 256, by show _ < grid0.N; rw [N_0]; omega⟩
  have ht : t.val = (i 0).val / 256 := rfl
  refine ⟨t, flush0_20 t, ?_⟩
  rw [mem_blk20]
  intro a
  match a with
  | ⟨0, _⟩ =>
    show win0_20.index t (0 : Fin 2) * 256 ≤ (i 0).val ∧ (i 0).val < win0_20.index t (0 : Fin 2) * 256 + 256
    rw [(idx20 t).1, ht]; omega
  | ⟨1, _⟩ =>
    show win0_20.index t (1 : Fin 2) * 1 ≤ (i 1).val ∧ (i 1).val < win0_20.index t (1 : Fin 2) * 1 + 1
    rw [(idx20 t).2]; omega

/-- The array after the run. -/
theorem final20 (c : Dev nD) : (dats m 0 c).arrAt 20 cfg0.N = (outProb Forms.direct ((kArgs m c).row gateSummed)) :=
  (dats m 0 c).arrAt_eq_of_cover 20 (outProb Forms.direct ((kArgs m c).row gateSummed)) (fun t _ => flushed20_eq m c t) cover20

end Cert.KernelIdeal.Blocks

end
-- ==== Proof.KerRun.lean ====
/-
  The idealized kernel's run, with its five results named.

  Every weakly fair execution of the program terminates; the three [16384, 1] results are arrays the call itself
  writes, and end at the cumulative, increment and probability columns of the gated step; the two state results are
  what the host's two lines after the call make of the arrays the call wrote — the same entries under a leading
  unit axis; and the eighteen argument arrays end as they were launched.
-/
import proofs.«123674_j80513456930853_2_alg».proof.Proof.KerFinal

noncomputable section

namespace Cert.KernelIdeal.Blocks

open Cert.KernelIdeal Cert.KernelIdeal.Gen Cert.GatedLstm Idealize.ShloMosaic Idealize.ShloMosaic.ValueIdx Idealize.SL.Sem Cert.KernelIdeal.Body Idealize.ShloMosaic.Pipeline

variable (m : (ℓ : Loc nD τ sig) → Buf (Elt Ideal) ℓ) (ρ : Dev nD → PrngReg)

/-- The host's line after the call gives the new hidden state its leading unit axis: entry (0, r, q) of the result is
    entry (r, q) of what the kernel wrote. -/
theorem tail_v11 (c : Dev nD) :
    Pipeline.afterTail₀ cfgs (dats m) 0 (V0 m) [hostOps1] c main_v11 = outH Forms.direct ((kArgs m c).row gateSummed) := by
  unfold Pipeline.afterTail₀
  show StableHlo.after hostOps1 _ (Proc.devRef .tc main_v11) = _
  after_results
  rw [Pipeline.withArrays_arr spec0 launch0.win.arr_inj c _ _ 16, final16]
  funext i
  refine (broadcastInDim_apply _ _ (GH (kArgs m c)) i (ix2 ⟨(i 1).val, (i 1).isLt⟩ ⟨(i 2).val, (i 2).isLt⟩) (fun a => ?_)).trans rfl
  match a with
  | ⟨0, _⟩ => rfl
  | ⟨1, _⟩ => rfl

/-- The host's line after the call gives the new cell state its leading unit axis: entry (0, r, q) of the result is
    entry (r, q) of what the kernel wrote. -/
theorem tail_v12 (c : Dev nD) :
    Pipeline.afterTail₀ cfgs (dats m) 0 (V0 m) [hostOps1] c main_v12 = outC Forms.direct ((kArgs m c).row gateSummed) := by
  unfold Pipeline.afterTail₀
  show StableHlo.after hostOps1 _ (Proc.devRef .tc main_v12) = _
  after_results
  rw [Pipeline.withArrays_arr spec0 launch0.win.arr_inj c _ _ 17, final17]
  funext i
  refine (broadcastInDim_apply _ _ (GC (kArgs m c)) i (ix2 ⟨(i 1).val, (i 1).isLt⟩ ⟨(i 2).val, (i 2).isLt⟩) (fun a => ?_)).trans rfl
  match a with
  | ⟨0, _⟩ => rfl
  | ⟨1, _⟩ => rfl

set_option maxHeartbeats 2000000 in
/-- The run: the five results at their functions of the arguments, the arguments unchanged. -/
theorem run : θ_run defs (onTc (τ := τ) (main (F := Ideal))) ⟨m, fun _ => 0, ρ⟩ fun r => ∀ c : Dev nD,
      r.2.mem ((c.tc : Thread nD τ).loc main_v11) = outH Forms.direct ((kArgs m c).row gateSummed)
      ∧ r.2.mem ((c.tc : Thread nD τ).loc main_v12) = outC Forms.direct ((kArgs m c).row gateSummed)
      ∧ r.2.mem ((c.tc : Thread nD τ).loc main_v10_2) = outCum Forms.direct ((kArgs m c).row gateSummed)
      ∧ r.2.mem ((c.tc : Thread nD τ).loc main_v10_3) = outDelta Forms.direct ((kArgs m c).row gateSummed)
      ∧ r.2.mem ((c.tc : Thread nD τ).loc main_v10_4) = outProb Forms.direct ((kArgs m c).row gateSummed)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r h c => ⟨
      ((h c).2 main_v11 (Pipeline.mem_restRefs_of main_v11 (by decide) (by decide))).trans (tail_v11 m c),
      ((h c).2 main_v12 (Pipeline.mem_restRefs_of main_v12 (by decide) (by decide))).trans (tail_v12 m c),
      ((h c).1 18).trans (final18 m c),
      ((h c).1 19).trans (final19 m c),
      ((h c).1 20).trans (final20 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      ((h c).1 10).trans (((dats m 0 c).arrAt_in 10 rfl _).trans ((A_eq m c 10).trans (V_main_arg10 m c))),
      (((h c).2 main_arg11 (Pipeline.mem_restRefs_of main_arg11 (by decide) (by decide))).trans (W_main_arg11 m (dats m) c)),
      ((h c).1 12).trans (((dats m 0 c).arrAt_in 12 rfl _).trans ((A_eq m c 12).trans (V_main_arg12 m c))),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      ((h c).1 14).trans (((dats m 0 c).arrAt_in 14 rfl _).trans ((A_eq m c 14).trans (V_main_arg16 m c))),
      (((h c).2 main_arg17 (Pipeline.mem_restRefs_of main_arg17 (by decide) (by decide))).trans (W_main_arg17 m (dats m) c))⟩)
    (run_main m ρ)

end Cert.KernelIdeal.Blocks

end
-- ==== Proof.RefGate.lean ====
import proofs.«123674_j80513456930853_2_alg».proof.Proof.Gen.ReferenceIdeal.Read
import proofs.«123674_j80513456930853_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Cert.GatedLstm Idealize.ShloMosaic Idealize.ShloMosaic.ValueIdx

/-- The eighteen argument arrays as one record. -/
abbrev args (x0 : (⟨S16384x512, .f32⟩ : BufTy).Contents (Elt Ideal)) (x1 : (⟨S1x16384x512, .f32⟩ : BufTy).Contents (Elt Ideal)) (x2 : (⟨S1x16384x512, .f32⟩ : BufTy).Contents (Elt Ideal)) (x3 : (⟨S16384x1, .f32⟩ : BufTy).Contents (Elt Ideal)) (x4 : (⟨S2048x512, .f32⟩ : BufTy).Contents (Elt Ideal)) (x5 : (⟨S2048x512, .f32⟩ : BufTy).Contents (Elt Ideal)) (x6 : (⟨S2048, .f32⟩ : BufTy).Contents (Elt Ideal)) (x7 : (⟨S2048, .f32⟩ : BufTy).Contents (Elt Ideal)) (x8 : (⟨S256x512, .f32⟩ : BufTy).Contents (Elt Ideal)) (x9 : (⟨S256, .f32⟩ : BufTy).Contents (Elt Ideal)) (x10 : (⟨S256x512, .f32⟩ : BufTy).Contents (Elt Ideal)) (x11 : (⟨S256, .f32⟩ : BufTy).Contents (Elt Ideal)) (x12 : (⟨S1x256, .f32⟩ : BufTy).Contents (Elt Ideal)) (x13 : (⟨S1, .f32⟩ : BufTy).Contents (Elt Ideal)) (x14 : (⟨S256x512, .f32⟩ : BufTy).Contents (Elt Ideal)) (x15 : (⟨S256, .f32⟩ : BufTy).Contents (Elt Ideal)) (x16 : (⟨S1x256, .f32⟩ : BufTy).Contents (Elt Ideal)) (x17 : (⟨S1, .f32⟩ : BufTy).Contents (Elt Ideal)) : Args :=
  Args.mk x0 x1 x2 x3 x4 x5 x6 x7 x8 x9 x10 x11 x12 x13 x14 x15 x16 x17

/-! ## The 2048 gate pre-activations of a batch row

The reference forms them as ((x·W_ihᵀ + b_ih) + h·W_hhᵀ) + b_hh, with the weight matrices transposed before the
product, the hidden state read through a reshape that drops its leading unit axis, and each bias vector spread
over the rows by two broadcasts. Read at row r and column j, every one of these layout steps lands on the
coordinates (r, k), (j, k), (0, r, k) or (j). -/

variable (x0 : (⟨S16384x512, .f32⟩ : BufTy).Contents (Elt Ideal))
  (x1 : (⟨S1x16384x512, .f32⟩ : BufTy).Contents (Elt Ideal))
  (x2 : (⟨S1x16384x512, .f32⟩ : BufTy).Contents (Elt Ideal))
  (x3 : (⟨S16384x1, .f32⟩ : BufTy).Contents (Elt Ideal))
  (x4 : (⟨S2048x512, .f32⟩ : BufTy).Contents (Elt Ideal))
  (x5 : (⟨S2048x512, .f32⟩ : BufTy).Contents (Elt Ideal))
  (x6 : (⟨S2048, .f32⟩ : BufTy).Contents (Elt Ideal))
  (x7 : (⟨S2048, .f32⟩ : BufTy).Contents (Elt Ideal))
  (x8 : (⟨S256x512, .f32⟩ : BufTy).Contents (Elt Ideal))
  (x9 : (⟨S256, .f32⟩ : BufTy).Contents (Elt Ideal))
  (x10 : (⟨S256x512, .f32⟩ : BufTy).Contents (Elt Ideal))
  (x11 : (⟨S256, .f32⟩ : BufTy).Contents (Elt Ideal))
  (x12 : (⟨S1x256, .f32⟩ : BufTy).Contents (Elt Ideal))
  (x13 : (⟨S1, .f32⟩ : BufTy).Contents (Elt Ideal))
  (x14 : (⟨S256x512, .f32⟩ : BufTy).Contents (Elt Ideal))
  (x15 : (⟨S256, .f32⟩ : BufTy).Contents (Elt Ideal))
  (x16 : (⟨S1x256, .f32⟩ : BufTy).Contents (Elt Ideal))
  (x17 : (⟨S1, .f32⟩ : BufTy).Contents (Elt Ideal))

theorem lidx1 (r : Fin 16384) (j : Fin 2048) (k : Fin 512) : lidx_main_v1 (ix2 r j) k = ix2 r k :=
  funext fun a => Fin.ext (by match a with | ⟨0, _⟩ => rfl | ⟨1, _⟩ => rfl)
theorem ridx1 (r : Fin 16384) (j : Fin 2048) (k : Fin 512) : idx_main_v0 (ridx_main_v1 (ix2 r j) k) = ix2 j k :=
  funext fun a => Fin.ext (by match a with | ⟨0, _⟩ => rfl | ⟨1, _⟩ => rfl)
theorem bidx3 (r : Fin 16384) (j : Fin 2048) : idx_main_v2 (idx_main_v3 (ix2 r j)) = ix1 j :=
  funext fun a => Fin.ext (by match a with | ⟨0, _⟩ => rfl)
/-- Row r, column k of the array [1, 16384, 512] flattened to [16384, 512] is its element (0, r, k). -/
theorem lidx7 (r : Fin 16384) (j : Fin 2048) (k : Fin 512) :
    idx_main_v5 (lidx_main_v7 (ix2 r j) k) = ix3 (0 : Fin 1) r k := by
  funext a
  apply Fin.ext
  match a with
  | ⟨0, _⟩ => rfl
  | ⟨1, _⟩ => show (r.val * 512 + k.val) / 512 % 16384 = r.val; have := r.isLt; have := k.isLt; omega
  | ⟨2, _⟩ => show (r.val * 512 + k.val) % 512 = k.val; have := r.isLt; have := k.isLt; omega
theorem ridx7 (r : Fin 16384) (j : Fin 2048) (k : Fin 512) : idx_main_v6 (ridx_main_v7 (ix2 r j) k) = ix2 j k :=
  funext fun a => Fin.ext (by match a with | ⟨0, _⟩ => rfl | ⟨1, _⟩ => rfl)
theorem bidx10 (r : Fin 16384) (j : Fin 2048) : idx_main_v9 (idx_main_v10 (ix2 r j)) = ix1 j :=
  funext fun a => Fin.ext (by match a with | ⟨0, _⟩ => rfl)

/-- The gate pre-activations (%11) at row r, column j. -/
theorem gate_apply (r : Fin 16384) (j : Fin 2048) :
    val_main_v11 (F := Ideal) x0 x1 x4 x5 x6 x7 (ix2 r j)
      = gateChained (fun k => x0 (ix2 r k)) (fun k => x1 (ix3 (0 : Fin 1) r k)) (fun j k => x4 (ix2 j k))
          (fun j k => x5 (ix2 j k)) (fun j => x6 (ix1 j)) (fun j => x7 (ix1 j)) j := by
  rw [val_main_v11_apply, val_main_v8_apply, val_main_v4_apply, val_main_v1_apply, val_main_v3_apply, val_main_v2_apply,
    val_main_v7_apply, val_main_v10_apply, val_main_v9_apply]
  simp only [val_main_v0_apply, val_main_v5_apply, val_main_v6_apply, lidx1, ridx1, bidx3, lidx7, ridx7, bidx10]
  rfl

/-- The record's gate row is that same function of the column. -/
theorem gate_row (r : Fin 16384) (j : Fin 2048) :
    val_main_v11 (F := Ideal) x0 x1 x4 x5 x6 x7 (ix2 r j)
      = ((args x0 x1 x2 x3 x4 x5 x6 x7 x8 x9 x10 x11 x12 x13 x14 x15 x16 x17).row gateChained r).gate j :=
  gate_apply x0 x1 x4 x5 x6 x7 r j

end Cert.ReferenceIdeal.RefValue

end
-- ==== Proof.RefCell.lean ====
import proofs.«123674_j80513456930853_2_alg».proof.Proof.Gen.ReferenceIdeal.Read
import proofs.«123674_j80513456930853_2_alg».proof.Proof.Spec
import Idealize.ShloMosaic.Lib.ValueIdx
import Idealize.ShloMosaic.PureOps.Ideal.Laws
import proofs.«123674_j80513456930853_2_alg».proof.Proof.RefGate

noncomputable section

namespace Cert.ReferenceIdeal.RefValue

open Cert.ReferenceIdeal Cert.ReferenceIdeal.Read Cert.GatedLstm Idealize.ShloMosaic Idealize.ShloMosaic.ValueIdx

/-! ## The candidate cell and hidden states

The four gate groups are the column ranges [0, 512), [512, 1024), [1024, 1536), [1536, 2048) of the pre-activations;
the logistic function is spelt 1 / (1 + exp(−v)). -/

variable (x0 : (⟨S16384x512, .f32⟩ : BufTy).Contents (Elt Ideal))
  (x1 : (⟨S1x16384x512, .f32⟩ : BufTy).Contents (Elt Ideal))
  (x2 : (⟨S1x16384x512, .f32⟩ : BufTy).Contents (Elt Ideal))
  (x3 : (⟨S16384x1, .f32⟩ : BufTy).Contents (Elt Ideal))
  (x4 : (⟨S2048x512, .f32⟩ : BufTy).Contents (Elt Ideal))
  (x5 : (⟨S2048x512, .f32⟩ : BufTy).Contents (Elt Ideal))
  (x6 : (⟨S2048, .f32⟩ : BufTy).Contents (Elt Ideal))
  (x7 : (⟨S2048, .f32⟩ : BufTy).Contents (Elt Ideal))
  (x8 : (⟨S256x512, .f32⟩ : BufTy).Contents (Elt Ideal))
  (x9 : (⟨S256, .f32⟩ : BufTy).Contents (Elt Ideal))
  (x10 : (⟨S256x512, .f32⟩ : BufTy).Contents (Elt Ideal))
  (x11 : (⟨S256, .f32⟩ : BufTy).Contents (Elt Ideal))
  (x12 : (⟨S1x256, .f32⟩ : BufTy).Contents (Elt Ideal))
  (x13 : (⟨S1, .f32⟩ : BufTy).Contents (Elt Ideal))
  (x14 : (⟨S256x512, .f32⟩ : BufTy).Contents (Elt Ideal))
  (x15 : (⟨S256, .f32⟩ : BufTy).Contents (Elt Ideal))
  (x16 : (⟨S1x256, .f32⟩ : BufTy).Contents (Elt Ideal))
  (x17 : (⟨S1, .f32⟩ : BufTy).Contents (Elt Ideal))

theorem sl12 (r : Fin 16384) (q : Fin 512) : idx_main_v12 (ix2 r q) = ix2 r (col 0 q) :=
  funext fun a => Fin.ext (by
    match a with
    | ⟨0, _⟩ => rfl
    | ⟨1, _⟩ => show q.val = q.val + 512 * 0; omega)
theorem sl13 (r : Fin 16384) (q : Fin 512) : idx_main_v13 (ix2 r q) = ix2 r (col 1 q) :=
  funext fun a => Fin.ext (by
    match a with
    | ⟨0, _⟩ => rfl
    | ⟨1, _⟩ => show 512 + q.val = q.val + 512 * 1; omega)
theorem sl14 (r : Fin 16384) (q : Fin 512) : idx_main_v14 (ix2 r q) = ix2 r (col 2 q) :=
  funext fun a => Fin.ext (by
    match a with
    | ⟨0, _⟩ => rfl
    | ⟨1, _⟩ => show 1024 + q.val = q.val + 512 * 2; omega)
theorem sl15 (r : Fin 16384) (q : Fin 512) : idx_main_v15 (ix2 r q) = ix2 r (col 3 q) :=
  funext fun a => Fin.ext (by
    match a with
    | ⟨0, _⟩ => rfl
    | ⟨1, _⟩ => show 1536 + q.val = q.val + 512 * 3; omega)
/-- Row r, column q of the previous cell state flattened to [16384, 512] is its element (0, r, q). -/
theorem fl35 (r : Fin 16384) (q : Fin 512) : idx_main_v35 (ix2 r q) = ix3 (0 : Fin 1) r q := by
  funext a
  apply Fin.ext
  match a with
  | ⟨0, _⟩ => rfl
  | ⟨1, _⟩ => show (r.val * 512 + q.val) / 512 % 16384 = r.val; have := r.isLt; have := q.isLt; omega
  | ⟨2, _⟩ => show (r.val * 512 + q.val) % 512 = q.val; have := r.isLt; have := q.isLt; omega

/-- The candidate cell state (%38): σ(f)·c + σ(i)·tanh(g). -/
theorem c1_apply (r : Fin 16384) (q : Fin 512) :
    val_main_v38 (F := Ideal) x0 x1 x2 x4 x5 x6 x7 (ix2 r q) = ((args x0 x1 x2 x3 x4 x5 x6 x7 x8 x9 x10 x11 x12 x13 x14 x15 x16 x17).row gateChained r).c1 Forms.expanded q := by
  rw [val_main_v38_apply, val_main_v36_apply, val_main_v37_apply,
    val_main_v27_apply, val_main_v26_apply, val_main_cst_2_apply, val_main_v25_apply, val_main_v24_apply,
    val_main_cst_1_apply, val_main_v23_apply, val_main_v22_apply, val_main_v13_apply, val_main_v35_apply,
    val_main_v21_apply, val_main_v20_apply, val_main_cst_0_apply, val_main_v19_apply, val_main_v18_apply,
    val_main_cst_apply, val_main_v17_apply, val_main_v16_apply, val_main_v12_apply,
    val_main_v28_apply, val_main_v14_apply, sl12, sl13, sl14, fl35,
    gate_row x0 x1 x2 x3 x4 x5 x6 x7 x8 x9 x10 x11 x12 x13 x14 x15 x16 x17 r (col 1 q), gate_row x0 x1 x2 x3 x4 x5 x6 x7 x8 x9 x10 x11 x12 x13 x14 x15 x16 x17 r (col 0 q), gate_row x0 x1 x2 x3 x4 x5 x6 x7 x8 x9 x10 x11 x12 x13 x14 x15 x16 x17 r (col 2 q)]
  rfl

/-- The candidate hidden state (%40): σ(o)·tanh(c₁). -/
theorem h1_apply (r : Fin 16384) (q : Fin 512) :
    val_main_v40 (F := Ideal) x0 x1 x2 x4 x5 x6 x7 (ix2 r q) = ((args x0 x1 x2 x3 x4 x5 x6 x7 x8 x9 x10 x11 x12 x13 x14 x15 x16 x17).row gateChained r).h1 Forms.expanded q := by
  rw [val_main_v40_apply, val_main_v39_apply, c1_apply x0 x1 x2 x3 x4 x5 x6 x7 x8 x9 x10 x11 x12 x13 x14 x15 x16 x17 r q,
    val_main_v34_apply, val_main_v33_apply, val_main_cst_4_apply, val_main_v32_apply, val_main_v31_apply,
    val_main_cst_3_apply, val_main_v30_apply, val_main_v29_apply, val_main_v15_apply, sl15,
    gate_row x0 x1 x2 x3 x4 x5 x6 x7 x8 x9 x10 x11 x12 x13 x14 x15 x16 x17 r (col 3 q)]
  rfl

end Cert.ReferenceIdeal.RefValue

end
-- ==== Proof.RefSkip.lean ====
import proofs.«123674_j80513456930853_2_alg».proof.Proof.Gen.ReferenceIdeal.Read
import proofs.«123674_j80513456930853_2_alg».proof.Proof.Spec
import Idealize.ShloMosaic.Lib.ValueIdx
import Idealize.ShloMosaic.PureOps.Ideal.Laws
import proofs.«123674_j80513456930853_2_alg».proof.Proof.RefCell

noncomputable section

namespace Cert.ReferenceIdeal.RefValue

open Cert.ReferenceIdeal Cert.ReferenceIdeal.Read Cert.GatedLstm Idealize.ShloMosaic Idealize.ShloMosaic.ValueIdx

/-! ## The skip network: hidden pre-activation, leaky rectifier, probability increment δ -/

variable (x0 : (⟨S16384x512, .f32⟩ : BufTy).Contents (Elt Ideal))
  (x1 : (⟨S1x16384x512, .f32⟩ : BufTy).Contents (Elt Ideal))
  (x2 : (⟨S1x16384x512, .f32⟩ : BufTy).Contents (Elt Ideal))
  (x3 : (⟨S16384x1, .f32⟩ : BufTy).Contents (Elt Ideal))
  (x4 : (⟨S2048x512, .f32⟩ : BufTy).Contents (Elt Ideal))
  (x5 : (⟨S2048x512, .f32⟩ : BufTy).Contents (Elt Ideal))
  (x6 : (⟨S2048, .f32⟩ : BufTy).Contents (Elt Ideal))
  (x7 : (⟨S2048, .f32⟩ : BufTy).Contents (Elt Ideal))
  (x8 : (⟨S256x512, .f32⟩ : BufTy).Contents (Elt Ideal))
  (x9 : (⟨S256, .f32⟩ : BufTy).Contents (Elt Ideal))
  (x10 : (⟨S256x512, .f32⟩ : BufTy).Contents (Elt Ideal))
  (x11 : (⟨S256, .f32⟩ : BufTy).Contents (Elt Ideal))
  (x12 : (⟨S1x256, .f32⟩ : BufTy).Contents (Elt Ideal))
  (x13 : (⟨S1, .f32⟩ : BufTy).Contents (Elt Ideal))
  (x14 : (⟨S256x512, .f32⟩ : BufTy).Contents (Elt Ideal))
  (x15 : (⟨S256, .f32⟩ : BufTy).Contents (Elt Ideal))
  (x16 : (⟨S1x256, .f32⟩ : BufTy).Contents (Elt Ideal))
  (x17 : (⟨S1, .f32⟩ : BufTy).Contents (Elt Ideal))

theorem l45 (r : Fin 16384) (j : Fin 256) (k : Fin 512) :
    idx_main_v43 (lidx_main_v45 (ix2 r j) k) = ix3 (0 : Fin 1) r k := by
  funext a
  apply Fin.ext
  match a with
  | ⟨0, _⟩ => rfl
  | ⟨1, _⟩ => show (r.val * 512 + k.val) / 512 % 16384 = r.val; have := r.isLt; have := k.isLt; omega
  | ⟨2, _⟩ => show (r.val * 512 + k.val) % 512 = k.val; have := r.isLt; have := k.isLt; omega
theorem r45 (r : Fin 16384) (j : Fin 256) (k : Fin 512) : idx_main_v44 (ridx_main_v45 (ix2 r j) k) = ix2 j k :=
  funext fun a => Fin.ext (by match a with | ⟨0, _⟩ => rfl | ⟨1, _⟩ => rfl)
theorem b47 (r : Fin 16384) (j : Fin 256) : idx_main_v46 (idx_main_v47 (ix2 r j)) = ix1 j :=
  funext fun a => Fin.ext (by match a with | ⟨0, _⟩ => rfl)
/-- The candidate cell state goes to [1, 16384, 512] and back before the product: row r, column k again. -/
theorem l51 (r : Fin 16384) (j : Fin 256) (k : Fin 512) :
    idx_main_v42 (idx_main_v49 (lidx_main_v51 (ix2 r j) k)) = ix2 r k := by
  funext a
  apply Fin.ext
  match a with
  | ⟨0, _⟩ => show (r.val * 512 + k.val) / 512 % 16384 = r.val; have := r.isLt; have := k.isLt; omega
  | ⟨1, _⟩ => show (r.val * 512 + k.val) % 512 = k.val; have := r.isLt; have := k.isLt; omega
theorem r51 (r : Fin 16384) (j : Fin 256) (k : Fin 512) : idx_main_v50 (ridx_main_v51 (ix2 r j) k) = ix2 j k :=
  funext fun a => Fin.ext (by match a with | ⟨0, _⟩ => rfl | ⟨1, _⟩ => rfl)
theorem b54 (r : Fin 16384) (j : Fin 256) : idx_main_v53 (idx_main_v54 (ix2 r j)) = ix1 j :=
  funext fun a => Fin.ext (by match a with | ⟨0, _⟩ => rfl)

/-- The skip network's hidden pre-activation (%55). -/
theorem sg_apply (r : Fin 16384) (j : Fin 256) :
    val_main_v55 (F := Ideal) x0 x1 x2 x4 x5 x6 x7 x8 x9 x10 x11 (ix2 r j) = ((args x0 x1 x2 x3 x4 x5 x6 x7 x8 x9 x10 x11 x12 x13 x14 x15 x16 x17).row gateChained r).sgPre Forms.expanded j := by
  rw [val_main_v55_apply, val_main_v52_apply, val_main_v48_apply, val_main_v45_apply, val_main_v47_apply,
    val_main_v46_apply, val_main_v51_apply, val_main_v54_apply, val_main_v53_apply]
  simp only [val_main_v43_apply, val_main_v44_apply, val_main_v49_apply, val_main_v42_apply, val_main_v50_apply,
    l45, r45, b47, l51, r51, b54, c1_apply x0 x1 x2 x3 x4 x5 x6 x7 x8 x9 x10 x11 x12 x13 x14 x15 x16 x17]
  rfl

/-- The leaky rectifier of it (%60). -/
theorem sgl_apply (r : Fin 16384) (j : Fin 256) :
    val_main_v60 (F := Ideal) x0 x1 x2 x4 x5 x6 x7 x8 x9 x10 x11 (ix2 r j) = lrelu (((args x0 x1 x2 x3 x4 x5 x6 x7 x8 x9 x10 x11 x12 x13 x14 x15 x16 x17).row gateChained r).sgPre Forms.expanded j) := by
  rw [val_main_v60_apply, val_main_v57_apply, val_main_v59_apply, val_main_v56_apply, val_main_cst_5_apply,
    val_main_v58_apply, val_main_cst_6_apply, sg_apply x0 x1 x2 x3 x4 x5 x6 x7 x8 x9 x10 x11 x12 x13 x14 x15 x16 x17 r j]
  rfl

theorem l62 (r : Fin 16384) (k : Fin 256) : lidx_main_v62 (ix2 r (0 : Fin 1)) k = ix2 r k :=
  funext fun a => Fin.ext (by match a with | ⟨0, _⟩ => rfl | ⟨1, _⟩ => rfl)
theorem r62 (r : Fin 16384) (k : Fin 256) :
    idx_main_v61 (ridx_main_v62 (ix2 r (0 : Fin 1)) k) = ix2 (0 : Fin 1) k :=
  funext fun a => Fin.ext (by match a with | ⟨0, _⟩ => rfl | ⟨1, _⟩ => rfl)
theorem b64 (r : Fin 16384) : idx_main_v63 (idx_main_v64 (ix2 r (0 : Fin 1))) = ix1 (0 : Fin 1) :=
  funext fun a => Fin.ext (by match a with | ⟨0, _⟩ => rfl)

/-- The probability increment δ (%71). -/
theorem delta_apply (r : Fin 16384) :
    val_main_v71 (F := Ideal) x0 x1 x2 x4 x5 x6 x7 x8 x9 x10 x11 x12 x13 (ix2 r (0 : Fin 1)) = ((args x0 x1 x2 x3 x4 x5 x6 x7 x8 x9 x10 x11 x12 x13 x14 x15 x16 x17).row gateChained r).delta Forms.expanded := by
  rw [val_main_v71_apply, val_main_v70_apply, val_main_cst_8_apply, val_main_v69_apply, val_main_v68_apply,
    val_main_cst_7_apply, val_main_v67_apply, val_main_v66_apply, val_main_v65_apply, val_main_v62_apply,
    val_main_v64_apply, val_main_v63_apply]
  simp only [val_main_v61_apply, l62, r62, b64, sgl_apply x0 x1 x2 x3 x4 x5 x6 x7 x8 x9 x10 x11 x12 x13 x14 x15 x16 x17]
  rfl

end Cert.ReferenceIdeal.RefValue

end
-- ==== Proof.RefThr.lean ====
import proofs.«123674_j80513456930853_2_alg».proof.Proof.Gen.ReferenceIdeal.Read
import proofs.«123674_j80513456930853_2_alg».proof.Proof.Spec
import Idealize.ShloMosaic.Lib.ValueIdx
import Idealize.ShloMosaic.PureOps.Ideal.Laws
import proofs.«123674_j80513456930853_2_alg».proof.Proof.RefGate

noncomputable section

namespace Cert.ReferenceIdeal.RefValue

open Cert.ReferenceIdeal Cert.ReferenceIdeal.Read Cert.GatedLstm Idealize.ShloMosaic Idealize.ShloMosaic.ValueIdx

/-! ## The threshold network: hidden pre-activation, leaky rectifier, threshold θ -/

variable (x0 : (⟨S16384x512, .f32⟩ : BufTy).Contents (Elt Ideal))
  (x1 : (⟨S1x16384x512, .f32⟩ : BufTy).Contents (Elt Ideal))
  (x2 : (⟨S1x16384x512, .f32⟩ : BufTy).Contents (Elt Ideal))
  (x3 : (⟨S16384x1, .f32⟩ : BufTy).Contents (Elt Ideal))
  (x4 : (⟨S2048x512, .f32⟩ : BufTy).Contents (Elt Ideal))
  (x5 : (⟨S2048x512, .f32⟩ : BufTy).Contents (Elt Ideal))
  (x6 : (⟨S2048, .f32⟩ : BufTy).Contents (Elt Ideal))
  (x7 : (⟨S2048, .f32⟩ : BufTy).Contents (Elt Ideal))
  (x8 : (⟨S256x512, .f32⟩ : BufTy).Contents (Elt Ideal))
  (x9 : (⟨S256, .f32⟩ : BufTy).Contents (Elt Ideal))
  (x10 : (⟨S256x512, .f32⟩ : BufTy).Contents (Elt Ideal))
  (x11 : (⟨S256, .f32⟩ : BufTy).Contents (Elt Ideal))
  (x12 : (⟨S1x256, .f32⟩ : BufTy).Contents (Elt Ideal))
  (x13 : (⟨S1, .f32⟩ : BufTy).Contents (Elt Ideal))
  (x14 : (⟨S256x512, .f32⟩ : BufTy).Contents (Elt Ideal))
  (x15 : (⟨S256, .f32⟩ : BufTy).Contents (Elt Ideal))
  (x16 : (⟨S1x256, .f32⟩ : BufTy).Contents (Elt Ideal))
  (x17 : (⟨S1, .f32⟩ : BufTy).Contents (Elt Ideal))

theorem l74 (r : Fin 16384) (j : Fin 256) (k : Fin 512) :
    idx_main_v72 (lidx_main_v74 (ix2 r j) k) = ix3 (0 : Fin 1) r k := by
  funext a
  apply Fin.ext
  match a with
  | ⟨0, _⟩ => rfl
  | ⟨1, _⟩ => show (r.val * 512 + k.val) / 512 % 16384 = r.val; have := r.isLt; have := k.isLt; omega
  | ⟨2, _⟩ => show (r.val * 512 + k.val) % 512 = k.val; have := r.isLt; have := k.isLt; omega
theorem r74 (r : Fin 16384) (j : Fin 256) (k : Fin 512) : idx_main_v73 (ridx_main_v74 (ix2 r j) k) = ix2 j k :=
  funext fun a => Fin.ext (by match a with | ⟨0, _⟩ => rfl | ⟨1, _⟩ => rfl)
theorem b76 (r : Fin 16384) (j : Fin 256) : idx_main_v75 (idx_main_v76 (ix2 r j)) = ix1 j :=
  funext fun a => Fin.ext (by match a with | ⟨0, _⟩ => rfl)

/-- The threshold network's hidden pre-activation (%77). -/
theorem tg_apply (r : Fin 16384) (j : Fin 256) :
    val_main_v77 (F := Ideal) x2 x14 x15 (ix2 r j) = ((args x0 x1 x2 x3 x4 x5 x6 x7 x8 x9 x10 x11 x12 x13 x14 x15 x16 x17).row gateChained r).tgPre j := by
  rw [val_main_v77_apply, val_main_v74_apply, val_main_v76_apply, val_main_v75_apply]
  simp only [val_main_v72_apply, val_main_v73_apply, l74, r74, b76]
  rfl

/-- The leaky rectifier of it (%82). -/
theorem tgl_apply (r : Fin 16384) (j : Fin 256) :
    val_main_v82 (F := Ideal) x2 x14 x15 (ix2 r j) = lrelu (((args x0 x1 x2 x3 x4 x5 x6 x7 x8 x9 x10 x11 x12 x13 x14 x15 x16 x17).row gateChained r).tgPre j) := by
  rw [val_main_v82_apply, val_main_v79_apply, val_main_v81_apply, val_main_v78_apply, val_main_cst_9_apply,
    val_main_v80_apply, val_main_cst_10_apply, tg_apply x0 x1 x2 x3 x4 x5 x6 x7 x8 x9 x10 x11 x12 x13 x14 x15 x16 x17 r j]
  rfl

theorem l84 (r : Fin 16384) (k : Fin 256) : lidx_main_v84 (ix2 r (0 : Fin 1)) k = ix2 r k :=
  funext fun a => Fin.ext (by match a with | ⟨0, _⟩ => rfl | ⟨1, _⟩ => rfl)
theorem r84 (r : Fin 16384) (k : Fin 256) :
    idx_main_v83 (ridx_main_v84 (ix2 r (0 : Fin 1)) k) = ix2 (0 : Fin 1) k :=
  funext fun a => Fin.ext (by match a with | ⟨0, _⟩ => rfl | ⟨1, _⟩ => rfl)
theorem b86 (r : Fin 16384) : idx_main_v85 (idx_main_v86 (ix2 r (0 : Fin 1))) = ix1 (0 : Fin 1) :=
  funext fun a => Fin.ext (by match a with | ⟨0, _⟩ => rfl)

/-- The threshold θ (%93). -/
theorem thr_apply (r : Fin 16384) :
    val_main_v93 (F := Ideal) x2 x14 x15 x16 x17 (ix2 r (0 : Fin 1)) = ((args x0 x1 x2 x3 x4 x5 x6 x7 x8 x9 x10 x11 x12 x13 x14 x15 x16 x17).row gateChained r).thr Forms.expanded := by
  rw [val_main_v93_apply, val_main_v92_apply, val_main_cst_12_apply, val_main_v91_apply, val_main_v90_apply,
    val_main_cst_11_apply, val_main_v89_apply, val_main_v88_apply, val_main_v87_apply, val_main_v84_apply,
    val_main_v86_apply, val_main_v85_apply]
  simp only [val_main_v83_apply, l84, r84, b86, tgl_apply x0 x1 x2 x3 x4 x5 x6 x7 x8 x9 x10 x11 x12 x13 x14 x15 x16 x17]
  rfl

end Cert.ReferenceIdeal.RefValue

end
-- ==== Proof.RefProb.lean ====
import proofs.«123674_j80513456930853_2_alg».proof.Proof.Gen.ReferenceIdeal.Read
import proofs.«123674_j80513456930853_2_alg».proof.Proof.Spec
import Idealize.ShloMosaic.Lib.ValueIdx
import Idealize.ShloMosaic.PureOps.Ideal.Laws
import proofs.«123674_j80513456930853_2_alg».proof.Proof.RefSkip
import proofs.«123674_j80513456930853_2_alg».proof.Proof.RefThr

noncomputable section

namespace Cert.ReferenceIdeal.RefValue

open Cert.ReferenceIdeal Cert.ReferenceIdeal.Read Cert.GatedLstm Idealize.ShloMosaic Idealize.ShloMosaic.ValueIdx

/-! ## The update probability and the gate used -/

variable (x0 : (⟨S16384x512, .f32⟩ : BufTy).Contents (Elt Ideal))
  (x1 : (⟨S1x16384x512, .f32⟩ : BufTy).Contents (Elt Ideal))
  (x2 : (⟨S1x16384x512, .f32⟩ : BufTy).Contents (Elt Ideal))
  (x3 : (⟨S16384x1, .f32⟩ : BufTy).Contents (Elt Ideal))
  (x4 : (⟨S2048x512, .f32⟩ : BufTy).Contents (Elt Ideal))
  (x5 : (⟨S2048x512, .f32⟩ : BufTy).Contents (Elt Ideal))
  (x6 : (⟨S2048, .f32⟩ : BufTy).Contents (Elt Ideal))
  (x7 : (⟨S2048, .f32⟩ : BufTy).Contents (Elt Ideal))
  (x8 : (⟨S256x512, .f32⟩ : BufTy).Contents (Elt Ideal))
  (x9 : (⟨S256, .f32⟩ : BufTy).Contents (Elt Ideal))
  (x10 : (⟨S256x512, .f32⟩ : BufTy).Contents (Elt Ideal))
  (x11 : (⟨S256, .f32⟩ : BufTy).Contents (Elt Ideal))
  (x12 : (⟨S1x256, .f32⟩ : BufTy).Contents (Elt Ideal))
  (x13 : (⟨S1, .f32⟩ : BufTy).Contents (Elt Ideal))
  (x14 : (⟨S256x512, .f32⟩ : BufTy).Contents (Elt Ideal))
  (x15 : (⟨S256, .f32⟩ : BufTy).Contents (Elt Ideal))
  (x16 : (⟨S1x256, .f32⟩ : BufTy).Contents (Elt Ideal))
  (x17 : (⟨S1, .f32⟩ : BufTy).Contents (Elt Ideal))

/-- The update probability p = cum + min(δ, 1 − cum) (%97). -/
theorem prob_apply (r : Fin 16384) :
    val_main_v97 (F := Ideal) x0 x1 x2 x3 x4 x5 x6 x7 x8 x9 x10 x11 x12 x13 (ix2 r (0 : Fin 1)) = ((args x0 x1 x2 x3 x4 x5 x6 x7 x8 x9 x10 x11 x12 x13 x14 x15 x16 x17).row gateChained r).prob Forms.expanded := by
  rw [val_main_v97_apply, val_main_v96_apply, val_main_v95_apply, val_main_v94_apply, val_main_cst_13_apply,
    delta_apply x0 x1 x2 x3 x4 x5 x6 x7 x8 x9 x10 x11 x12 x13 x14 x15 x16 x17 r]
  rfl

/-- The gate used, p + (u − p) with u the comparison bit of p > θ read as a float (%101). -/
theorem ugate_apply (r : Fin 16384) :
    val_main_v101 (F := Ideal) x0 x1 x2 x3 x4 x5 x6 x7 x8 x9 x10 x11 x12 x13 x14 x15 x16 x17 (ix2 r (0 : Fin 1)) = ((args x0 x1 x2 x3 x4 x5 x6 x7 x8 x9 x10 x11 x12 x13 x14 x15 x16 x17).row gateChained r).ugate Forms.expanded := by
  rw [val_main_v101_apply, val_main_v100_apply, val_main_v99_apply, val_main_v98_apply,
    prob_apply x0 x1 x2 x3 x4 x5 x6 x7 x8 x9 x10 x11 x12 x13 x14 x15 x16 x17 r, thr_apply x0 x1 x2 x3 x4 x5 x6 x7 x8 x9 x10 x11 x12 x13 x14 x15 x16 x17 r]
  rfl

end Cert.ReferenceIdeal.RefValue

end
-- ==== Proof.RefValue.lean ====
import proofs.«123674_j80513456930853_2_alg».proof.Proof.Gen.ReferenceIdeal.Read
import proofs.«123674_j80513456930853_2_alg».proof.Proof.Spec
import Idealize.ShloMosaic.Lib.ValueIdx
import Idealize.ShloMosaic.PureOps.Ideal.Laws
import proofs.«123674_j80513456930853_2_alg».proof.Proof.RefProb

noncomputable section

namespace Cert.ReferenceIdeal.RefValue

open Cert.ReferenceIdeal Cert.ReferenceIdeal.Read Cert.GatedLstm Idealize.ShloMosaic Idealize.ShloMosaic.ValueIdx

/-! ## The five results

The gate used and its complement reach the [1, 16384, 512] results through two broadcasts, [16384, 1] to
[1, 16384, 1] to [1, 16384, 512]; the candidate states through one, [16384, 512] to [1, 16384, 512]. -/

variable (x0 : (⟨S16384x512, .f32⟩ : BufTy).Contents (Elt Ideal))
  (x1 : (⟨S1x16384x512, .f32⟩ : BufTy).Contents (Elt Ideal))
  (x2 : (⟨S1x16384x512, .f32⟩ : BufTy).Contents (Elt Ideal))
  (x3 : (⟨S16384x1, .f32⟩ : BufTy).Contents (Elt Ideal))
  (x4 : (⟨S2048x512, .f32⟩ : BufTy).Contents (Elt Ideal))
  (x5 : (⟨S2048x512, .f32⟩ : BufTy).Contents (Elt Ideal))
  (x6 : (⟨S2048, .f32⟩ : BufTy).Contents (Elt Ideal))
  (x7 : (⟨S2048, .f32⟩ : BufTy).Contents (Elt Ideal))
  (x8 : (⟨S256x512, .f32⟩ : BufTy).Contents (Elt Ideal))
  (x9 : (⟨S256, .f32⟩ : BufTy).Contents (Elt Ideal))
  (x10 : (⟨S256x512, .f32⟩ : BufTy).Contents (Elt Ideal))
  (x11 : (⟨S256, .f32⟩ : BufTy).Contents (Elt Ideal))
  (x12 : (⟨S1x256, .f32⟩ : BufTy).Contents (Elt Ideal))
  (x13 : (⟨S1, .f32⟩ : BufTy).Contents (Elt Ideal))
  (x14 : (⟨S256x512, .f32⟩ : BufTy).Contents (Elt Ideal))
  (x15 : (⟨S256, .f32⟩ : BufTy).Contents (Elt Ideal))
  (x16 : (⟨S1x256, .f32⟩ : BufTy).Contents (Elt Ideal))
  (x17 : (⟨S1, .f32⟩ : BufTy).Contents (Elt Ideal))

theorem bc2 (r : Fin 16384) (q : Fin 512) :
    idx_main_v41 (ix3 (0 : Fin 1) r q) = ix2 r q :=
  funext fun a => Fin.ext (by match a with | ⟨0, _⟩ => rfl | ⟨1, _⟩ => rfl)
theorem bc2' (r : Fin 16384) (q : Fin 512) :
    idx_main_v42 (ix3 (0 : Fin 1) r q) = ix2 r q :=
  funext fun a => Fin.ext (by match a with | ⟨0, _⟩ => rfl | ⟨1, _⟩ => rfl)
theorem bc103 (r : Fin 16384) (q : Fin 512) :
    idx_main_v102 (idx_main_v103 (ix3 (0 : Fin 1) r q)) = ix2 r (0 : Fin 1) :=
  funext fun a => Fin.ext (by match a with | ⟨0, _⟩ => rfl | ⟨1, _⟩ => rfl)
theorem bc108 (r : Fin 16384) (q : Fin 512) :
    idx_main_v107 (idx_main_v108 (ix3 (0 : Fin 1) r q)) = ix2 r (0 : Fin 1) :=
  funext fun a => Fin.ext (by match a with | ⟨0, _⟩ => rfl | ⟨1, _⟩ => rfl)
theorem bc112 (r : Fin 16384) (q : Fin 512) :
    idx_main_v111 (idx_main_v112 (ix3 (0 : Fin 1) r q)) = ix2 r (0 : Fin 1) :=
  funext fun a => Fin.ext (by match a with | ⟨0, _⟩ => rfl | ⟨1, _⟩ => rfl)
theorem bc117 (r : Fin 16384) (q : Fin 512) :
    idx_main_v116 (idx_main_v117 (ix3 (0 : Fin 1) r q)) = ix2 r (0 : Fin 1) :=
  funext fun a => Fin.ext (by match a with | ⟨0, _⟩ => rfl | ⟨1, _⟩ => rfl)

/-- The new hidden state. -/
theorem out0_eq :
    val_main_v110 (F := Ideal) x0 x1 x2 x3 x4 x5 x6 x7 x8 x9 x10 x11 x12 x13 x14 x15 x16 x17 = outH Forms.expanded ((args x0 x1 x2 x3 x4 x5 x6 x7 x8 x9 x10 x11 x12 x13 x14 x15 x16 x17).row gateChained) := by
  funext i
  obtain ⟨z, r, q, rfl⟩ : ∃ (z : Fin 1) (r : Fin 16384) (q : Fin 512), i = ix3 z r q := ⟨i 0, i 1, i 2, eq_ix3 i⟩
  obtain rfl : z = 0 := Subsingleton.elim _ _
  show _ = ((args x0 x1 x2 x3 x4 x5 x6 x7 x8 x9 x10 x11 x12 x13 x14 x15 x16 x17).row gateChained r).newH Forms.expanded q
  rw [val_main_v110_apply, val_main_v104_apply, val_main_v103_apply, val_main_v102_apply, val_main_v41_apply,
    val_main_v109_apply, val_main_v108_apply, val_main_v107_apply, val_main_v106_apply, val_main_v105_apply,
    val_main_cst_14_apply, bc2, bc103, bc108, ugate_apply x0 x1 x2 x3 x4 x5 x6 x7 x8 x9 x10 x11 x12 x13 x14 x15 x16 x17 r, h1_apply x0 x1 x2 x3 x4 x5 x6 x7 x8 x9 x10 x11 x12 x13 x14 x15 x16 x17 r q]
  rfl

/-- The new cell state. -/
theorem out1_eq :
    val_main_v119 (F := Ideal) x0 x1 x2 x3 x4 x5 x6 x7 x8 x9 x10 x11 x12 x13 x14 x15 x16 x17 = outC Forms.expanded ((args x0 x1 x2 x3 x4 x5 x6 x7 x8 x9 x10 x11 x12 x13 x14 x15 x16 x17).row gateChained) := by
  funext i
  obtain ⟨z, r, q, rfl⟩ : ∃ (z : Fin 1) (r : Fin 16384) (q : Fin 512), i = ix3 z r q := ⟨i 0, i 1, i 2, eq_ix3 i⟩
  obtain rfl : z = 0 := Subsingleton.elim _ _
  show _ = ((args x0 x1 x2 x3 x4 x5 x6 x7 x8 x9 x10 x11 x12 x13 x14 x15 x16 x17).row gateChained r).newC Forms.expanded q
  rw [val_main_v119_apply, val_main_v113_apply, val_main_v112_apply, val_main_v111_apply, val_main_v42_apply,
    val_main_v118_apply, val_main_v117_apply, val_main_v116_apply, val_main_v115_apply, val_main_v114_apply,
    val_main_cst_15_apply, bc2', bc112, bc117, ugate_apply x0 x1 x2 x3 x4 x5 x6 x7 x8 x9 x10 x11 x12 x13 x14 x15 x16 x17 r, c1_apply x0 x1 x2 x3 x4 x5 x6 x7 x8 x9 x10 x11 x12 x13 x14 x15 x16 x17 r q]
  rfl

/-- The new cumulative probability. -/
theorem out2_eq :
    val_main_v122 (F := Ideal) x0 x1 x2 x3 x4 x5 x6 x7 x8 x9 x10 x11 x12 x13 x14 x15 x16 x17 = outCum Forms.expanded ((args x0 x1 x2 x3 x4 x5 x6 x7 x8 x9 x10 x11 x12 x13 x14 x15 x16 x17).row gateChained) := by
  funext i
  obtain ⟨r, z, rfl⟩ : ∃ (r : Fin 16384) (z : Fin 1), i = ix2 r z := ⟨i 0, i 1, eq_ix2 i⟩
  obtain rfl : z = 0 := Subsingleton.elim _ _
  show _ = ((args x0 x1 x2 x3 x4 x5 x6 x7 x8 x9 x10 x11 x12 x13 x14 x15 x16 x17).row gateChained r).newCum Forms.expanded
  rw [val_main_v122_apply, val_main_v121_apply, val_main_v120_apply, val_main_cst_16_apply,
    ugate_apply x0 x1 x2 x3 x4 x5 x6 x7 x8 x9 x10 x11 x12 x13 x14 x15 x16 x17 r, prob_apply x0 x1 x2 x3 x4 x5 x6 x7 x8 x9 x10 x11 x12 x13 x14 x15 x16 x17 r]
  rfl

/-- The probability increment. -/
theorem out3_eq :
    val_main_v71 (F := Ideal) x0 x1 x2 x4 x5 x6 x7 x8 x9 x10 x11 x12 x13 = outDelta Forms.expanded ((args x0 x1 x2 x3 x4 x5 x6 x7 x8 x9 x10 x11 x12 x13 x14 x15 x16 x17).row gateChained) := by
  funext i
  obtain ⟨r, z, rfl⟩ : ∃ (r : Fin 16384) (z : Fin 1), i = ix2 r z := ⟨i 0, i 1, eq_ix2 i⟩
  obtain rfl : z = 0 := Subsingleton.elim _ _
  exact delta_apply x0 x1 x2 x3 x4 x5 x6 x7 x8 x9 x10 x11 x12 x13 x14 x15 x16 x17 r

/-- The update probability. -/
theorem out4_eq :
    val_main_v97 (F := Ideal) x0 x1 x2 x3 x4 x5 x6 x7 x8 x9 x10 x11 x12 x13 = outProb Forms.expanded ((args x0 x1 x2 x3 x4 x5 x6 x7 x8 x9 x10 x11 x12 x13 x14 x15 x16 x17).row gateChained) := by
  funext i
  obtain ⟨r, z, rfl⟩ : ∃ (r : Fin 16384) (z : Fin 1), i = ix2 r z := ⟨i 0, i 1, eq_ix2 i⟩
  obtain rfl : z = 0 := Subsingleton.elim _ _
  exact prob_apply x0 x1 x2 x3 x4 x5 x6 x7 x8 x9 x10 x11 x12 x13 x14 x15 x16 x17 r

end Cert.ReferenceIdeal.RefValue

end
-- ==== Proof.lean ====
/-
  The certificate: a Pallas kernel for one gated LSTM step against its jnp reference, equal as extended reals.

  Both programs compute, for each of 16384 batch rows, the LSTM candidate states from 2048 gate pre-activations,
  two small networks' outputs δ and θ through the logistic function, the update probability p = cum + min(δ, 1 − cum),
  the hard indicator u = [p > θ], and the five results u·h₁ + (1 − u)·h, u·c₁ + (1 − u)·c, (1 − u)·p, δ, p
  (Proof/Spec.lean). The kernel tiles the batch into 64 blocks of 256 rows, adds the two gate biases before the call,
  stacks two weight matrices, forms the two output heads as lane sums, uses one logistic operation and the indicator
  itself; the reference adds the biases one after the other, spells the logistic as 1 / (1 + exp(−x)), forms the heads
  as matrix products, and uses p + (u − p) for u. The two agree index by index: sums of extended reals may be
  regrouped freely, the logistic IS that quotient, and p + (u − p) = u because p is a real number — the one place
  where the precondition (finite inputs, here: finite cum) is used.

  The three frames are the generated ones (the reference's from its generated run); nothing was rewritten by the
  idealization, so 'preserves' is trivial; 'algebraic' joins the kernel's run (Proof/KerRun.lean), the reference's
  run read stage by stage (Proof/RefValue.lean), the finiteness of cum (Proof/Finite.lean) and the agreement of the
  two spellings (Proof/Spec.lean).
-/
import proofs.«123674_j80513456930853_2_alg».proof.Defs
import proofs.«123674_j80513456930853_2_alg».proof.Proof.Gen.Kernel
import proofs.«123674_j80513456930853_2_alg».proof.Proof.Gen.Kernel.Skeleton
import proofs.«123674_j80513456930853_2_alg».proof.Proof.Gen.Kernel.Launch
import proofs.«123674_j80513456930853_2_alg».proof.Proof.Gen.Kernel.Points
import proofs.«123674_j80513456930853_2_alg».proof.Proof.Gen.Kernel.Frame
import proofs.«123674_j80513456930853_2_alg».proof.Proof.Gen.KernelIdeal
import proofs.«123674_j80513456930853_2_alg».proof.Proof.Gen.KernelIdeal.Skeleton
import proofs.«123674_j80513456930853_2_alg».proof.Proof.Gen.KernelIdeal.Launch
import proofs.«123674_j80513456930853_2_alg».proof.Proof.Gen.KernelIdeal.Points
import proofs.«123674_j80513456930853_2_alg».proof.Proof.Gen.KernelIdeal.Frame
import proofs.«123674_j80513456930853_2_alg».proof.Proof.Gen.ReferenceIdeal
import proofs.«123674_j80513456930853_2_alg».proof.Proof.Gen.ReferenceIdeal.Run
import proofs.«123674_j80513456930853_2_alg».proof.Proof.Gen.ReferenceIdeal.Read
import proofs.«123674_j80513456930853_2_alg».proof.Proof.Gen.Pre_finite_inputs
import proofs.«123674_j80513456930853_2_alg».proof.Proof.Spec
import proofs.«123674_j80513456930853_2_alg».proof.Proof.Finite
import proofs.«123674_j80513456930853_2_alg».proof.Proof.KerRun
import proofs.«123674_j80513456930853_2_alg».proof.Proof.RefValue
import Idealize.ShloMosaic.Adequacy
import Idealize.ShloMosaic.Init

noncomputable section

namespace Cert.Proof

open Idealize.ShloMosaic Idealize.SL.Sem Cert.GatedLstm Cert.KernelIdeal.Blocks

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The idealized reference runs and keeps its arguments: its generated run with the five results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

set_option maxHeartbeats 4000000 in
/-- From memories agreeing on the arguments, with finite inputs, both programs end with the five results of the
    gated step: the kernel in the direct spelling over the summed bias, the reference in the expanded spelling over
    chained biases, and the two are one function of the arguments because every cumulative probability is finite. -/
theorem algebraic : Cert.algebraic_KernelIdeal_ReferenceIdeal := by
  intro m ρ m' ρ' hpre hagree
  refine ⟨_, _, _, _, _, Cert.KernelIdeal.Blocks.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14, a15, a16, a17⟩ := hagree c
  have hfin : (kArgs m c).CumFinite := fun i =>
    Cert.Pre_finite_inputs.Finite.cum_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (hpre c) i
  refine ⟨(h c).1.trans ?_, (h c).2.1.trans ?_, (h c).2.2.1.trans ?_, (h c).2.2.2.1.trans ?_, (h c).2.2.2.2.1.trans ?_, (h c).2.2.2.2.2⟩
  · rw [Cert.ReferenceIdeal.Read.val_main_v110_eq, a0, a1, a2, a3, a4, a5, a6, a7, a8, a9, a10, a11, a12, a13, a14, a15, a16, a17]
    exact (Cert.ReferenceIdeal.RefValue.out0_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).trans (outH_agree (kArgs m c) hfin)
  · rw [Cert.ReferenceIdeal.Read.val_main_v119_eq, a0, a1, a2, a3, a4, a5, a6, a7, a8, a9, a10, a11, a12, a13, a14, a15, a16, a17]
    exact (Cert.ReferenceIdeal.RefValue.out1_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).trans (outC_agree (kArgs m c) hfin)
  · rw [Cert.ReferenceIdeal.Read.val_main_v122_eq, a0, a1, a2, a3, a4, a5, a6, a7, a8, a9, a10, a11, a12, a13, a14, a15, a16, a17]
    exact (Cert.ReferenceIdeal.RefValue.out2_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).trans (outCum_agree (kArgs m c) hfin)
  · rw [Cert.ReferenceIdeal.Read.val_main_v71_eq, a0, a1, a2, a4, a5, a6, a7, a8, a9, a10, a11, a12, a13]
    exact (Cert.ReferenceIdeal.RefValue.out3_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).trans (outDelta_agree (kArgs m c))
  · rw [Cert.ReferenceIdeal.Read.val_main_v97_eq, a0, a1, a2, a3, a4, a5, a6, a7, a8, a9, a10, a11, a12, a13]
    exact (Cert.ReferenceIdeal.RefValue.out4_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).trans (outProb_agree (kArgs m c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
